-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v116)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v116) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v160) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x22 : Shape := ⟨2, ![100000, 22]⟩
abbrev S2x1600000 : Shape := ⟨2, ![2, 1600000]⟩
abbrev S100000 : Shape := ⟨1, ![100000]⟩
abbrev S64x22 : Shape := ⟨2, ![64, 22]⟩
abbrev S64 : Shape := ⟨1, ![64]⟩
abbrev S64x64 : Shape := ⟨2, ![64, 64]⟩
abbrev S32x64 : Shape := ⟨2, ![32, 64]⟩
abbrev S32 : Shape := ⟨1, ![32]⟩
abbrev S1x32 : Shape := ⟨2, ![1, 32]⟩
abbrev S1 : Shape := ⟨1, ![1]⟩
abbrev S_ : Shape := ⟨0, ![]⟩

class Facts : Prop where
  bcast_S_S100000x22 : S_.BroadcastsInDim S100000x22 (![] : Fin 0 → Fin S100000x22.rank)
  reducesTo_S100000x22_S_d0_1 : S100000x22.ReducesTo [0, 1] S_
  h_S_ : 0 < S_.numel
  bcast_S_S64x22 : S_.BroadcastsInDim S64x22 (![] : Fin 0 → Fin S64x22.rank)
  reducesTo_S64x22_S_d0_1 : S64x22.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S32x64 : S_.BroadcastsInDim S32x64 (![] : Fin 0 → Fin S32x64.rank)
  reducesTo_S32x64_S_d0_1 : S32x64.ReducesTo [0, 1] S_
  bcast_S_S32 : S_.BroadcastsInDim S32 (![] : Fin 0 → Fin S32.rank)
  reducesTo_S32_S_d0 : S32.ReducesTo [0] S_
  bcast_S_S1x32 : S_.BroadcastsInDim S1x32 (![] : Fin 0 → Fin S1x32.rank)
  reducesTo_S1x32_S_d0_1 : S1x32.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_arg13 : FVec F S1x32 .f32) (main_arg14 : FVec F S1 .f32) (main_v48 : IVec S_ 1) (main_v49 : FVec F S32 .f32) (main_v50 : FVec F S32 .f32) : IVec S_ 1 :=
  let main_v51 : IVec S32 1 := cmpf .olt main_v49 main_v50
  let main_c_19 : IVec S_ 1 := constantI S_ 1 1#1
  let main_v52 : IVec S_ 1 := (fun x v => Host.reduce IntOp.andi x v reducesTo_S32_S_d0 h_S_) main_v51 main_c_19
  let main_v53 : IVec S_ 1 := andi main_v48 main_v52
  let main_v54 : FVec F S1x32 .f32 := Host.absf main_arg13
  let main_cst_20 : FVec F S_ .f32 := constant S_ .f32 0x7F800000#32
  let main_v55 : FVec F S1x32 .f32 := broadcastInDim S1x32 ![] bcast_S_S1x32 main_cst_20
  let main_v56 : IVec S1x32 1 := cmpf .olt main_v54 main_v55
  let main_c_21 : IVec S_ 1 := constantI S_ 1 1#1
  let main_v57 : IVec S_ 1 := (fun x v => Host.reduce IntOp.andi x v reducesTo_S1x32_S_d0_1 h_S_) main_v56 main_c_21
  let main_v58 : IVec S_ 1 := andi main_v53 main_v57
  let main_v59 : FVec F S1 .f32 := Host.absf main_arg14
  let main_cst_22 : FVec F S_ .f32 := constant S_ .f32 0x7F800000#32
  let main_v60 : FVec F S1 .f32 := broadcastInDim S1 ![] bcast_S_S1 main_cst_22
  let main_v61 : IVec S1 1 := cmpf .olt main_v59 main_v60
  let main_c_23 : IVec S_ 1 := constantI S_ 1 1#1
  let main_v62 : IVec S_ 1 := (fun x v => Host.reduce IntOp.andi x v reducesTo_S1_S_d0 h_S_) main_v61 main_c_23
  let main_v63 : IVec S_ 1 := andi main_v58 main_v62
  main_v63

def fn_part2 {F : FTy → Type} [FloatOps F] (main_arg9 : FVec F S64 .f32) (main_arg10 : FVec F S64 .f32) (main_arg11 : FVec F S32x64 .f32) (main_arg12 : FVec F S32 .f32) (main_arg13 : FVec F S1x32 .f32) (main_arg14 : FVec F S1 .f32) (main_v33 : IVec S_ 1) : IVec S_ 1 :=
  let main_v34 : FVec F S64 .f32 := Host.absf main_arg9
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64 .f32 := Host.absf main_arg10
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S32x64 .f32 := Host.absf main_arg11
  let main_cst_16 : FVec F S_ .f32 := constant S_ .f32 0x7F800000#32
  let main_v45 : FVec F S32x64 .f32 := broadcastInDim S32x64 ![] bcast_S_S32x64 main_cst_16
  let main_v46 : IVec S32x64 1 := cmpf .olt main_v44 main_v45
  let main_c_17 : IVec S_ 1 := constantI S_ 1 1#1
  let main_v47 : IVec S_ 1 := (fun x v => Host.reduce IntOp.andi x v reducesTo_S32x64_S_d0_1 h_S_) main_v46 main_c_17
  let main_v48 : IVec S_ 1 := andi main_v43 main_v47
  let main_v49 : FVec F S32 .f32 := Host.absf main_arg12
  let main_cst_18 : FVec F S_ .f32 := constant S_ .f32 0x7F800000#32
  let main_v50 : FVec F S32 .f32 := broadcastInDim S32 ![] bcast_S_S32 main_cst_18
  fn_part3 (F := F) main_arg13 main_arg14 main_v48 main_v49 main_v50

def fn_part1 {F : FTy → Type} [FloatOps F] (main_arg6 : FVec F S64 .f32) (main_arg7 : FVec F S64x64 .f32) (main_arg8 : FVec F S64 .f32) (main_arg9 : FVec F S64 .f32) (main_arg10 : FVec F S64 .f32) (main_arg11 : FVec F S32x64 .f32) (main_arg12 : FVec F S32 .f32) (main_arg13 : FVec F S1x32 .f32) (main_arg14 : FVec F S1 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg7
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg8
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg9 main_arg10 main_arg11 main_arg12 main_arg13 main_arg14 main_v33

def fn {F : FTy → Type} [FloatOps F] (main_arg0 : FVec F S100000x22 .f32) (main_arg1 : IVec S2x1600000 32) (main_arg2 : IVec S100000 32) (main_arg3 : FVec F S64x22 .f32) (main_arg4 : FVec F S64 .f32) (main_arg5 : FVec F S64 .f32) (main_arg6 : FVec F S64 .f32) (main_arg7 : FVec F S64x64 .f32) (main_arg8 : FVec F S64 .f32) (main_arg9 : FVec F S64 .f32) (main_arg10 : FVec F S64 .f32) (main_arg11 : FVec F S32x64 .f32) (main_arg12 : FVec F S32 .f32) (main_arg13 : FVec F S1x32 .f32) (main_arg14 : FVec F S1 .f32) : IVec S_ 1 :=
  let main_v0 : FVec F S100000x22 .f32 := Host.absf main_arg0
  let main_cst : FVec F S_ .f32 := constant S_ .f32 0x7F800000#32
  let main_v1 : FVec F S100000x22 .f32 := broadcastInDim S100000x22 ![] bcast_S_S100000x22 main_cst
  let main_v2 : IVec S100000x22 1 := cmpf .olt main_v0 main_v1
  let main_c : IVec S_ 1 := constantI S_ 1 1#1
  let main_v3 : IVec S_ 1 := (fun x v => Host.reduce IntOp.andi x v reducesTo_S100000x22_S_d0_1 h_S_) main_v2 main_c
  let main_v4 : FVec F S64x22 .f32 := Host.absf main_arg3
  let main_cst_0 : FVec F S_ .f32 := constant S_ .f32 0x7F800000#32
  let main_v5 : FVec F S64x22 .f32 := broadcastInDim S64x22 ![] bcast_S_S64x22 main_cst_0
  let main_v6 : IVec S64x22 1 := cmpf .olt main_v4 main_v5
  let main_c_1 : IVec S_ 1 := constantI S_ 1 1#1
  let main_v7 : IVec S_ 1 := (fun x v => Host.reduce IntOp.andi x v reducesTo_S64x22_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64 .f32 := Host.absf main_arg5
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg6 main_arg7 main_arg8 main_arg9 main_arg10 main_arg11 main_arg12 main_arg13 main_arg14 main_v13 main_v16
-- ==== Kernel.lean ====
abbrev S100000x22 : Shape := ⟨2, ![100000, 22]⟩
abbrev S2x1600000 : Shape := ⟨2, ![2, 1600000]⟩
abbrev S100000 : Shape := ⟨1, ![100000]⟩
abbrev S64x22 : Shape := ⟨2, ![64, 22]⟩
abbrev S64 : Shape := ⟨1, ![64]⟩
abbrev S64x64 : Shape := ⟨2, ![64, 64]⟩
abbrev S32x64 : Shape := ⟨2, ![32, 64]⟩
abbrev S32 : Shape := ⟨1, ![32]⟩
abbrev S1x32 : Shape := ⟨2, ![1, 32]⟩
abbrev S1 : Shape := ⟨1, ![1]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S22x64 : Shape := ⟨2, ![22, 64]⟩
abbrev S100000x64 : Shape := ⟨2, ![100000, 64]⟩
abbrev S5000x22 : Shape := ⟨2, ![5000, 22]⟩
abbrev S5000x64 : Shape := ⟨2, ![5000, 64]⟩
abbrev S1700000x64 : Shape := ⟨2, ![1700000, 64]⟩
abbrev S1x64 : Shape := ⟨2, ![1, 64]⟩
abbrev S10000x64 : Shape := ⟨2, ![10000, 64]⟩
abbrev S2048x64 : Shape := ⟨2, ![2048, 64]⟩
abbrev S100000x1 : Shape := ⟨2, ![100000, 1]⟩
abbrev S2048 : Shape := ⟨1, ![2048]⟩
abbrev S2048x1 : Shape := ⟨2, ![2048, 1]⟩
abbrev S64x32 : Shape := ⟨2, ![64, 32]⟩
abbrev S32x1 : Shape := ⟨2, ![32, 1]⟩
abbrev S1x1 : Shape := ⟨2, ![1, 1]⟩
abbrev S2048x32 : Shape := ⟨2, ![2048, 32]⟩

abbrev nBuf : Space → Nat
  | .hbm => 158
  | .vmem => 28
  | .smem => 0
  | _ => 0

abbrev hbmTy0_0 (i : Nat) : BufTy := match i % 128 with
  | 0 => ⟨S100000x22, .f32⟩
  | 1 => ⟨S2x1600000, .i32⟩
  | 2 => ⟨S100000, .i32⟩
  | 3 => ⟨S64x22, .f32⟩
  | 4 => ⟨S64, .f32⟩
  | 5 => ⟨S64, .f32⟩
  | 6 => ⟨S64, .f32⟩
  | 7 => ⟨S64x64, .f32⟩
  | 8 => ⟨S64, .f32⟩
  | 9 => ⟨S64, .f32⟩
  | 10 => ⟨S64, .f32⟩
  | 11 => ⟨S32x64, .f32⟩
  | 12 => ⟨S32, .f32⟩
  | 13 => ⟨S1x32, .f32⟩
  | 14 => ⟨S1, .f32⟩
  | 15 => ⟨S1x1600000, .i32⟩
  | 16 => ⟨S1600000, .i32⟩
  | 17 => ⟨S1x1600000, .i32⟩
  | 18 => ⟨S1600000, .i32⟩
  | 19 => ⟨S100000, .i32⟩
  | 20 => ⟨S1700000, .i32⟩
  | 21 => ⟨S1700000, .i32⟩
  | 22 => ⟨S_, .f32⟩
  | 23 => ⟨S1700000, .f32⟩
  | 24 => ⟨S_, .f32⟩
  | 25 => ⟨S100000, .f32⟩
  | 26 => ⟨S1700000x1, .i32⟩
  | 27 => ⟨S100000, .f32⟩
  | 28 => ⟨S100000, .f32⟩
  | 29 => ⟨S_, .i32⟩
  | 30 => ⟨S1700000, .i32⟩
  | 31 => ⟨S1700000, .i1⟩
  | 32 => ⟨S_, .i32⟩
  | 33 => ⟨S1700000, .i32⟩
  | 34 => ⟨S1700000, .i32⟩
  | 35 => ⟨S1700000, .i32⟩
  | 36 => ⟨S1700000x1, .i32⟩
  | 37 => ⟨S1700000, .f32⟩
  | 38 => ⟨S_, .i32⟩
  | 39 => ⟨S1700000, .i32⟩
  | 40 => ⟨S1700000, .i1⟩
  | 41 => ⟨S_, .i32⟩
  | 42 => ⟨S1700000, .i32⟩
  | 43 => ⟨S1700000, .i32⟩
  | 44 => ⟨S1700000, .i32⟩
  | 45 => ⟨S1700000x1, .i32⟩
  | 46 => ⟨S1700000, .f32⟩
  | 47 => ⟨S1700000, .f32⟩
  | 48 => ⟨S1700000x1, .f32⟩
  | 49 => ⟨S22x64, .f32⟩
  | 50 => ⟨S100000x64, .f32⟩
  | 51 => ⟨S_, .i32⟩
  | 52 => ⟨S1700000, .i32⟩
  | 53 => ⟨S1700000, .i1⟩
  | 54 => ⟨S_, .i32⟩
  | 55 => ⟨S1700000, .i32⟩
  | 56 => ⟨S1700000, .i32⟩
  | 57 => ⟨S1700000, .i32⟩
  | 58 => ⟨S1700000x1, .i32⟩
  | 59 => ⟨S1700000x64, .f32⟩
  | 60 => ⟨S1700000x64, .f32⟩
  | 61 => ⟨S1700000x64, .f32⟩
  | 62 => ⟨S_, .f32⟩
  | 63 => ⟨S100000x64, .f32⟩
  | 64 => ⟨S1700000x1, .i32⟩
  | 65 => ⟨S100000x64, .f32⟩
  | 66 => ⟨S1x64, .f32⟩
  | 67 => ⟨S100000x64, .f32⟩
  | 68 => ⟨S100000x64, .f32⟩
  | 69 => ⟨S_, .f32⟩
  | 70 => ⟨S64, .f32⟩
  | 71 => ⟨S_, .f32⟩
  | 72 => ⟨S64, .f32⟩
  | 73 => ⟨S64, .f32⟩
  | 74 => ⟨S1x64, .f32⟩
  | 75 => ⟨S100000x64, .f32⟩
  | 76 => ⟨S100000x64, .f32⟩
  | 77 => ⟨S100000x64, .f32⟩
  | 78 => ⟨S_, .f32⟩
  | 79 => ⟨S64, .f32⟩
  | 80 => ⟨S_, .f32⟩
  | 81 => ⟨S64, .f32⟩
  | 82 => ⟨S64, .f32⟩
  | 83 => ⟨S_, .f32⟩
  | 84 => ⟨S64, .f32⟩
  | 85 => ⟨S64, .f32⟩
  | 86 => ⟨S64, .f32⟩
  | 87 => ⟨S64, .f32⟩
  | 88 => ⟨S64, .f32⟩
  | 89 => ⟨S64, .f32⟩
  | 90 => ⟨S1x64, .f32⟩
  | 91 => ⟨S1x64, .f32⟩
  | 92 => ⟨S100000x64, .f32⟩
  | 93 => ⟨S64x64, .f32⟩
  | 94 => ⟨S100000x64, .f32⟩
  | 95 => ⟨S_, .i32⟩
  | 96 => ⟨S1700000, .i32⟩
  | 97 => ⟨S1700000, .i1⟩
  | 98 => ⟨S_, .i32⟩
  | 99 => ⟨S1700000, .i32⟩
  | 100 => ⟨S1700000, .i32⟩
  | 101 => ⟨S1700000, .i32⟩
  | 102 => ⟨S1700000x1, .i32⟩
  | 103 => ⟨S1700000x64, .f32⟩
  | 104 => ⟨S1700000x64, .f32⟩
  | 105 => ⟨S1700000x64, .f32⟩
  | 106 => ⟨S_, .f32⟩
  | 107 => ⟨S100000x64, .f32⟩
  | 108 => ⟨S1700000x1, .i32⟩
  | 109 => ⟨S100000x64, .f32⟩
  | 110 => ⟨S1x64, .f32⟩
  | 111 => ⟨S100000x64, .f32⟩
  | 112 => ⟨S100000x64, .f32⟩
  | 113 => ⟨S_, .f32⟩
  | 114 => ⟨S64, .f32⟩
  | 115 => ⟨S_, .f32⟩
  | 116 => ⟨S64, .f32⟩
  | 117 => ⟨S64, .f32⟩
  | 118 => ⟨S1x64, .f32⟩
  | 119 => ⟨S100000x64, .f32⟩
  | 120 => ⟨S100000x64, .f32⟩
  | 121 => ⟨S100000x64, .f32⟩
  | 122 => ⟨S_, .f32⟩
  | 123 => ⟨S64, .f32⟩
  | 124 => ⟨S_, .f32⟩
  | 125 => ⟨S64, .f32⟩
  | 126 => ⟨S64, .f32⟩
  | 127 => ⟨S_, .f32⟩
  | _ => ⟨S100000x22, .f32⟩

abbrev hbmTy0_1 (i : Nat) : BufTy := match i % 128 with
  | 0 => ⟨S64, .f32⟩
  | 1 => ⟨S64, .f32⟩
  | 2 => ⟨S64, .f32⟩
  | 3 => ⟨S64, .f32⟩
  | 4 => ⟨S64, .f32⟩
  | 5 => ⟨S64, .f32⟩
  | 6 => ⟨S1x64, .f32⟩
  | 7 => ⟨S1x64, .f32⟩
  | 8 => ⟨S100000x64, .f32⟩
  | 9 => ⟨S_, .f32⟩
  | 10 => ⟨S2048x64, .f32⟩
  | 11 => ⟨S100000x1, .i32⟩
  | 12 => ⟨S2048x64, .f32⟩
  | 13 => ⟨S_, .f32⟩
  | 14 => ⟨S100000, .f32⟩
  | 15 => ⟨S_, .f32⟩
  | 16 => ⟨S2048, .f32⟩
  | 17 => ⟨S100000x1, .i32⟩
  | 18 => ⟨S2048, .f32⟩
  | 19 => ⟨S_, .f32⟩
  | 20 => ⟨S2048, .f32⟩
  | 21 => ⟨S2048, .f32⟩
  | 22 => ⟨S2048x1, .f32⟩
  | 23 => ⟨S2048x64, .f32⟩
  | 24 => ⟨S2048x64, .f32⟩
  | 25 => ⟨S64x32, .f32⟩
  | 26 => ⟨S32x1, .f32⟩
  | 27 => ⟨S1x32, .f32⟩
  | 28 => ⟨S1x1, .f32⟩
  | 29 => ⟨S2048x1, .f32⟩
  | _ => ⟨S100000x22, .f32⟩

abbrev hbmTy (i : Nat) : BufTy := match i / 128 with
  | 0 => hbmTy0_0 i
  | 1 => hbmTy0_1 i
  | _ => ⟨S100000x22, .f32⟩

abbrev bufTy : (tb : Table) → Fin (tcTables nBuf tb) → BufTy
  | .hbm, ⟨i, _⟩ => hbmTy i
  | .local _ .vmem, ⟨0, _⟩ => ⟨S5000x22, .f32⟩
  | .local _ .vmem, ⟨1, _⟩ => ⟨S5000x22, .f32⟩
  | .local _ .vmem, ⟨2, _⟩ => ⟨S22x64, .f32⟩
  | .local _ .vmem, ⟨3, _⟩ => ⟨S5000x64, .f32⟩
  | .local _ .vmem, ⟨4, _⟩ => ⟨S5000x64, .f32⟩
  | .local _ .vmem, ⟨5, _⟩ => ⟨S10000x64, .f32⟩
  | .local _ .vmem, ⟨6, _⟩ => ⟨S10000x64, .f32⟩
  | .local _ .vmem, ⟨7, _⟩ => ⟨S1x64, .f32⟩
  | .local _ .vmem, ⟨8, _⟩ => ⟨S1x64, .f32⟩
  | .local _ .vmem, ⟨9, _⟩ => ⟨S10000x64, .f32⟩
  | .local _ .vmem, ⟨10, _⟩ => ⟨S10000x64, .f32⟩
  | .local _ .vmem, ⟨11, _⟩ => ⟨S5000x64, .f32⟩
  | .local _ .vmem, ⟨12, _⟩ => ⟨S5000x64, .f32⟩
  | .local _ .vmem, ⟨13, _⟩ => ⟨S64x64, .f32⟩
  | .local _ .vmem, ⟨14, _⟩ => ⟨S5000x64, .f32⟩
  | .local _ .vmem, ⟨15, _⟩ => ⟨S5000x64, .f32⟩
  | .local _ .vmem, ⟨16, _⟩ => ⟨S10000x64, .f32⟩
  | .local _ .vmem, ⟨17, _⟩ => ⟨S10000x64, .f32⟩
  | .local _ .vmem, ⟨18, _⟩ => ⟨S1x64, .f32⟩
  | .local _ .vmem, ⟨19, _⟩ => ⟨S1x64, .f32⟩
  | .local _ .vmem, ⟨20, _⟩ => ⟨S10000x64, .f32⟩
  | .local _ .vmem, ⟨21, _⟩ => ⟨S10000x64, .f32⟩
  | .local _ .vmem, ⟨22, _⟩ => ⟨S2048x64, .f32⟩
  | .local _ .vmem, ⟨23, _⟩ => ⟨S64x32, .f32⟩
  | .local _ .vmem, ⟨24, _⟩ => ⟨S1x32, .f32⟩
  | .local _ .vmem, ⟨25, _⟩ => ⟨S32x1, .f32⟩
  | .local _ .vmem, ⟨26, _⟩ => ⟨S1x1, .f32⟩
  | .local _ .vmem, ⟨27, _⟩ => ⟨S2048x1, .f32⟩
  | _, _ => ⟨S100000x22, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_cst : Ref sig .tc := ⟨.hbm, 22, rfl⟩
abbrev main_v7 : Ref sig .tc := ⟨.hbm, 23, rfl⟩
abbrev main_cst_0 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_c : Ref sig .tc := ⟨.hbm, 29, rfl⟩
abbrev main_v12 : Ref sig .tc := ⟨.hbm, 30, rfl⟩
abbrev main_v13 : Ref sig .tc := ⟨.hbm, 31, rfl⟩
abbrev main_c_1 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_c_2 : Ref sig .tc := ⟨.hbm, 38, rfl⟩
abbrev main_v19 : Ref sig .tc := ⟨.hbm, 39, rfl⟩
abbrev main_v20 : Ref sig .tc := ⟨.hbm, 40, rfl⟩
abbrev main_c_3 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_c_4 : Ref sig .tc := ⟨.hbm, 51, rfl⟩
abbrev main_v30 : Ref sig .tc := ⟨.hbm, 52, rfl⟩
abbrev main_v31 : Ref sig .tc := ⟨.hbm, 53, rfl⟩
abbrev main_c_5 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_cst_6 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_cst_7 : Ref sig .tc := ⟨.hbm, 69, rfl⟩
abbrev main_v45 : Ref sig .tc := ⟨.hbm, 70, rfl⟩
abbrev main_cst_8 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_cst_9 : Ref sig .tc := ⟨.hbm, 78, rfl⟩
abbrev main_v52 : Ref sig .tc := ⟨.hbm, 79, rfl⟩
abbrev main_cst_10 : Ref sig .tc := ⟨.hbm, 80, rfl⟩
abbrev main_v53 : Ref sig .tc := ⟨.hbm, 81, rfl⟩
abbrev main_v54 : Ref sig .tc := ⟨.hbm, 82, rfl⟩
abbrev main_cst_11 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_c_12 : Ref sig .tc := ⟨.hbm, 95, rfl⟩
abbrev main_v66 : Ref sig .tc := ⟨.hbm, 96, rfl⟩
abbrev main_v67 : Ref sig .tc := ⟨.hbm, 97, rfl⟩
abbrev main_c_13 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_cst_14 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_cst_15 : Ref sig .tc := ⟨.hbm, 113, rfl⟩
abbrev main_v81 : Ref sig .tc := ⟨.hbm, 114, rfl⟩
abbrev main_cst_16 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_cst_17 : Ref sig .tc := ⟨.hbm, 122, rfl⟩
abbrev main_v88 : Ref sig .tc := ⟨.hbm, 123, rfl⟩
abbrev main_cst_18 : Ref sig .tc := ⟨.hbm, 124, rfl⟩
abbrev main_v89 : Ref sig .tc := ⟨.hbm, 125, rfl⟩
abbrev main_v90 : Ref sig .tc := ⟨.hbm, 126, rfl⟩
abbrev main_cst_19 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩
abbrev main_v96 : Ref sig .tc := ⟨.hbm, 133, rfl⟩
abbrev main_v97 : Ref sig .tc := ⟨.hbm, 134, rfl⟩
abbrev main_v98 : Ref sig .tc := ⟨.hbm, 135, rfl⟩
abbrev main_v99 : Ref sig .tc := ⟨.hbm, 136, rfl⟩
abbrev main_cst_20 : Ref sig .tc := ⟨.hbm, 137, rfl⟩
abbrev main_v100 : Ref sig .tc := ⟨.hbm, 138, rfl⟩
abbrev main_v101 : Ref sig .tc := ⟨.hbm, 139, rfl⟩
abbrev main_v102 : Ref sig .tc := ⟨.hbm, 140, rfl⟩
abbrev main_cst_21 : Ref sig .tc := ⟨.hbm, 141, rfl⟩
abbrev main_v103 : Ref sig .tc := ⟨.hbm, 142, rfl⟩
abbrev main_cst_22 : Ref sig .tc := ⟨.hbm, 143, rfl⟩
abbrev main_v104 : Ref sig .tc := ⟨.hbm, 144, rfl⟩
abbrev main_v105 : Ref sig .tc := ⟨.hbm, 145, rfl⟩
abbrev main_v106 : Ref sig .tc := ⟨.hbm, 146, rfl⟩
abbrev main_cst_23 : Ref sig .tc := ⟨.hbm, 147, rfl⟩
abbrev main_v107 : Ref sig .tc := ⟨.hbm, 148, rfl⟩
abbrev main_v108 : Ref sig .tc := ⟨.hbm, 149, rfl⟩
abbrev main_v109 : Ref sig .tc := ⟨.hbm, 150, rfl⟩
abbrev main_v110 : Ref sig .tc := ⟨.hbm, 151, rfl⟩
abbrev main_v111 : Ref sig .tc := ⟨.hbm, 152, rfl⟩
abbrev main_v112 : Ref sig .tc := ⟨.hbm, 153, rfl⟩
abbrev main_v113 : Ref sig .tc := ⟨.hbm, 154, rfl⟩
abbrev main_v114 : Ref sig .tc := ⟨.hbm, 155, rfl⟩
abbrev main_v115 : Ref sig .tc := ⟨.hbm, 156, rfl⟩
abbrev main_v116 : Ref sig .tc := ⟨.hbm, 157, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc3_stg0_0 : Ref sig .tc := ⟨.vmem, 16, rfl⟩
abbrev cc3_stg0_1 : Ref sig .tc := ⟨.vmem, 17, rfl⟩
abbrev cc3_stg1_0 : Ref sig .tc := ⟨.vmem, 18, rfl⟩
abbrev cc3_stg2_0 : Ref sig .tc := ⟨.vmem, 19, rfl⟩
abbrev cc3_stg3_0 : Ref sig .tc := ⟨.vmem, 20, rfl⟩
abbrev cc3_stg3_1 : Ref sig .tc := ⟨.vmem, 21, rfl⟩
abbrev cc4_stg0_0 : Ref sig .tc := ⟨.vmem, 22, rfl⟩
abbrev cc4_stg1_0 : Ref sig .tc := ⟨.vmem, 23, rfl⟩
abbrev cc4_stg2_0 : Ref sig .tc := ⟨.vmem, 24, rfl⟩
abbrev cc4_stg3_0 : Ref sig .tc := ⟨.vmem, 25, rfl⟩
abbrev cc4_stg4_0 : Ref sig .tc := ⟨.vmem, 26, rfl⟩
abbrev cc4_stg5_0 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15
abbrev cc3_sem0_0 : DmaSem sig := 16
abbrev cc3_sem0_1 : DmaSem sig := 17
abbrev cc3_sem1_0 : DmaSem sig := 18
abbrev cc3_sem2_0 : DmaSem sig := 19
abbrev cc3_sem3_0 : DmaSem sig := 20
abbrev cc3_sem3_1 : DmaSem sig := 21
abbrev cc4_sem0_0 : DmaSem sig := 22
abbrev cc4_sem1_0 : DmaSem sig := 23
abbrev cc4_sem2_0 : DmaSem sig := 24
abbrev cc4_sem3_0 : DmaSem sig := 25
abbrev cc4_sem4_0 : DmaSem sig := 26
abbrev cc4_sem5_0 : DmaSem sig := 27

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x22 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S22x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S10000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S10000x64 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![1], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 1 → Memref sig .tc .vmem S2048x64 .f32 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![false]

abbrev stage4_1 : Fin 1 → Memref sig .tc .vmem S64x32 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x32 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S32x1 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x1 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S2048x1 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  transposes_S64x22_S22x64_1_0 : S64x22.Transposes [1, 0] S22x64
  inb_S5000x22_S5000x22_0_0 : ∀ a, (![0, 0] : Fin 2 → Nat) a + S5000x22.size a ≤ S5000x22.size a
  h_S5000x22 : 0 < S5000x22.numel
  bitsLt_bf16_f32 : FTy.bits .bf16 < FTy.bits .f32
  inb_S22x64_S22x64_0_0 : ∀ a, (![0, 0] : Fin 2 → Nat) a + S22x64.size a ≤ S22x64.size a
  h_S22x64 : 0 < S22x64.numel
  shapeCasts_S22x64_S22x64 : S22x64.ShapeCasts S22x64
  inb_S5000x64_S5000x64_0_0 : ∀ a, (![0, 0] : Fin 2 → Nat) a + S5000x64.size a ≤ S5000x64.size a
  h_S5000x64 : 0 < S5000x64.numel
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  reducesTo_S100000x64_S64_d0 : S100000x64.ReducesTo [0] S64
  h_S_ : 0 < S_.numel
  bcast_S_S64 : S_.BroadcastsInDim S64 (![] : Fin 0 → Fin S64.rank)
  shapeCasts_S64_S1x64 : S64.ShapeCasts S1x64
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  transposes_S64x64_S64x64_1_0 : S64x64.Transposes [1, 0] S64x64
  shapeCasts_S5000x64_S5000x64 : S5000x64.ShapeCasts S5000x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  bcast_S_S2048x64 : S_.BroadcastsInDim S2048x64 (![] : Fin 0 → Fin S2048x64.rank)
  bcast_S100000_S100000x1_0 : S100000.BroadcastsInDim S100000x1 (![0] : Fin 1 → Fin S100000x1.rank)
  bcast_S_S2048 : S_.BroadcastsInDim S2048 (![] : Fin 0 → Fin S2048.rank)
  bcast_S2048_S2048x1_0 : S2048.BroadcastsInDim S2048x1 (![0] : Fin 1 → Fin S2048x1.rank)
  bcast_S2048x1_S2048x64_0_1 : S2048x1.BroadcastsInDim S2048x64 (![0, 1] : Fin 2 → Fin S2048x64.rank)
  transposes_S32x64_S64x32_1_0 : S32x64.Transposes [1, 0] S64x32
  transposes_S1x32_S32x1_1_0 : S1x32.Transposes [1, 0] S32x1
  shapeCasts_S32_S1x32 : S32.ShapeCasts S1x32
  shapeCasts_S1_S1x1 : S1.ShapeCasts S1x1
  inb_S2048x64_S2048x64_0_0 : ∀ a, (![0, 0] : Fin 2 → Nat) a + S2048x64.size a ≤ S2048x64.size a
  h_S2048x64 : 0 < S2048x64.numel
  shapeCasts_S2048x64_S2048x64 : S2048x64.ShapeCasts S2048x64
  inb_S64x32_S64x32_0_0 : ∀ a, (![0, 0] : Fin 2 → Nat) a + S64x32.size a ≤ S64x32.size a
  h_S64x32 : 0 < S64x32.numel
  shapeCasts_S64x32_S64x32 : S64x32.ShapeCasts S64x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S2048x32 : S1x32.Broadcasts S2048x32
  inb_S32x1_S32x1_0_0 : ∀ a, (![0, 0] : Fin 2 → Nat) a + S32x1.size a ≤ S32x1.size a
  h_S32x1 : 0 < S32x1.numel
  shapeCasts_S32x1_S32x1 : S32x1.ShapeCasts S32x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S2048x1 : S1x1.Broadcasts S2048x1
  inb_S2048x1_S2048x1_0_0 : ∀ a, (![0, 0] : Fin 2 → Nat) a + S2048x1.size a ≤ S2048x1.size a
  h_S2048x1 : 0 < S2048x1.numel
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S5000x22_S22x64_S5000x64_1_0_0_1_n_n_wf : DotDims.WF S5000x22 S22x64 S5000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S5000x64_S64x64_S5000x64_1_0_0_1_n_n_wf : DotDims.WF S5000x64 S64x64 S5000x64 [1] [0] [0] [1] [] []
  scatter_S2048x64_S100000x1_S100000x64_1_0_0_1_wf : ScatterDims.WF S2048x64 S100000x1 S100000x64 [1] [0] [0] 1
  scatter_S2048_S100000x1_S100000_n_0_0_1_wf : ScatterDims.WF S2048 S100000x1 S100000 [] [0] [0] 1
  dot_S2048x64_S64x32_S2048x32_1_0_0_1_n_n_wf : DotDims.WF S2048x64 S64x32 S2048x32 [1] [0] [0] [1] [] []
  dot_S2048x32_S32x1_S2048x1_1_0_0_1_n_n_wf : DotDims.WF S2048x32 S32x1 S2048x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x22.size a ≤ S100000x22.size a
  hwx0_0 : ∀ i : grid0.Coords, EltTy.bits .f32 = 32 ∨ (Rect.block (s := S100000x22) S5000x22.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S22x64.size a ≤ S22x64.size a
  hwx0_1 : ∀ i : grid0.Coords, EltTy.bits .f32 = 32 ∨ (Rect.block (s := S22x64) S22x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S100000x64.size a
  hwx0_2 : ∀ i : grid0.Coords, EltTy.bits .f32 = 32 ∨ (Rect.block (s := S100000x64) S5000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x64.size a ≤ S100000x64.size a
  hwx1_3 : ∀ i : grid1.Coords, EltTy.bits .f32 = 32 ∨ (Rect.block (s := S100000x64) S10000x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x64.size a ≤ S64x64.size a
  hwx2_1 : ∀ i : grid2.Coords, EltTy.bits .f32 = 32 ∨ (Rect.block (s := S64x64) S64x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x64.size a ≤ S100000x64.size a
  hwx2_2 : ∀ i : grid2.Coords, EltTy.bits .f32 = 32 ∨ (Rect.block (s := S100000x64) S5000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x64.size a ≤ S100000x64.size a
  hwx3_0 : ∀ i : grid3.Coords, EltTy.bits .f32 = 32 ∨ (Rect.block (s := S100000x64) S10000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x64.size a ≤ S1x64.size a
  hwx3_1 : ∀ i : grid3.Coords, EltTy.bits .f32 = 32 ∨ (Rect.block (s := S1x64) S1x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x64.size a ≤ S1x64.size a
  hwx3_2 : ∀ i : grid3.Coords, EltTy.bits .f32 = 32 ∨ (Rect.block (s := S1x64) S1x64.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S10000x64.size a ≤ S100000x64.size a
  hwx3_3 : ∀ i : grid3.Coords, EltTy.bits .f32 = 32 ∨ (Rect.block (s := S100000x64) S10000x64.size (cc3_transform_3 i) (hinb3_3 i)).WholeWords (EltTy.packing .f32)
  hrank4 : 0 < grid4.rank
  hstage4_0 : ∀ j, (stage4_0 j).IsWhole
  nbuf4_0 : grid4.bufCount reads4_0 true = 1
  hreads4_0 : ∀ i i' : grid4.Coords, (∀ a, reads4_0 a = true → i a = i' a) → cc4_transform_0 i = cc4_transform_0 i'
  hinb4_0 : ∀ (i : grid4.Coords) a, (cc4_transform_0 i a + 1) * S2048x64.size a ≤ S2048x64.size a
  hwx4_0 : ∀ i : grid4.Coords, EltTy.bits .f32 = 32 ∨ (Rect.block (s := S2048x64) S2048x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S64x32.size a ≤ S64x32.size a
  hwx4_1 : ∀ i : grid4.Coords, EltTy.bits .f32 = 32 ∨ (Rect.block (s := S64x32) S64x32.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x32.size a ≤ S1x32.size a
  hwx4_2 : ∀ i : grid4.Coords, EltTy.bits .f32 = 32 ∨ (Rect.block (s := S1x32) S1x32.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S32x1.size a ≤ S32x1.size a
  hwx4_3 : ∀ i : grid4.Coords, EltTy.bits .f32 = 32 ∨ (Rect.block (s := S32x1) S32x1.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x1.size a ≤ S1x1.size a
  hwx4_4 : ∀ i : grid4.Coords, EltTy.bits .f32 = 32 ∨ (Rect.block (s := S1x1) S1x1.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S2048x1.size a ≤ S2048x1.size a
  hwx4_5 : ∀ i : grid4.Coords, EltTy.bits .f32 = 32 ∨ (Rect.block (s := S2048x1) S2048x1.size (cc4_transform_5 i) (hinb4_5 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S5000x22_S22x64_S5000x64_1_0_0_1_n_n : DotDims S5000x22 S22x64 S5000x64 where
  lhsContracting := [1]
  rhsContracting := [0]
  lhsNonContracting := [0]
  rhsNonContracting := [1]
  lhsBatch := []
  rhsBatch := []
  wf := dot_S5000x22_S22x64_S5000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def scatter_S2048x64_S100000x1_S100000x64_1_0_0_1 : ScatterDims S2048x64 S100000x1 S100000x64 where
  updateWindowDims := [1]
  insertedWindowDims := [0]
  scatterDimsToOperandDims := [0]
  indexVectorDim := 1
  wf := scatter_S2048x64_S100000x1_S100000x64_1_0_0_1_wf
def scatter_S2048_S100000x1_S100000_n_0_0_1 : ScatterDims S2048 S100000x1 S100000 where
  updateWindowDims := []
  insertedWindowDims := [0]
  scatterDimsToOperandDims := [0]
  indexVectorDim := 1
  wf := scatter_S2048_S100000x1_S100000_n_0_0_1_wf
def dot_S2048x64_S64x32_S2048x32_1_0_0_1_n_n : DotDims S2048x64 S64x32 S2048x32 where
  lhsContracting := [1]
  rhsContracting := [0]
  lhsNonContracting := [0]
  rhsNonContracting := [1]
  lhsBatch := []
  rhsBatch := []
  wf := dot_S2048x64_S64x32_S2048x32_1_0_0_1_n_n_wf
def dot_S2048x32_S32x1_S2048x1_1_0_0_1_n_n : DotDims S2048x32 S32x1 S2048x1 where
  lhsContracting := [1]
  rhsContracting := [0]
  lhsNonContracting := [0]
  rhsNonContracting := [1]
  lhsBatch := []
  rhsBatch := []
  wf := dot_S2048x32_S32x1_S2048x1_1_0_0_1_n_n_wf

abbrev win0_0 : Pipeline.Window sig grid0 :=
  Pipeline.Window.ofSpec (Memref.whole main_arg0) S5000x22.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v28) S22x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v29) S5000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v44) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v61) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v62) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v63) S10000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v63) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v64) S64x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v65) S5000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v80) S10000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v97) S1x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v98) S1x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v99) S10000x64.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v111) S2048x64.size cc4_transform_0 reads4_0 false true 1 stage4_0 sem4_0
    hrank4 hreads4_0 hinb4_0 nbuf4_0 (Memref.isWhole_whole _) hwx4_0 hstage4_0

abbrev win4_1 : Pipeline.Window sig grid4 :=
  Pipeline.Window.ofSpec (Memref.whole main_v112) S64x32.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v114) S1x32.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v113) S32x1.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v115) S1x1.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v116) S2048x1.size cc4_transform_5 reads4_5 true true 1 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

class Facts : Prop extends Facts₀ where

variable [Facts]
-- ==== ReferenceIdeal.lean ====
abbrev S100000x22 : Shape := ⟨2, ![100000, 22]⟩
abbrev S2x1600000 : Shape := ⟨2, ![2, 1600000]⟩
abbrev S100000 : Shape := ⟨1, ![100000]⟩
abbrev S64x22 : Shape := ⟨2, ![64, 22]⟩
abbrev S64 : Shape := ⟨1, ![64]⟩
abbrev S64x64 : Shape := ⟨2, ![64, 64]⟩
abbrev S32x64 : Shape := ⟨2, ![32, 64]⟩
abbrev S32 : Shape := ⟨1, ![32]⟩
abbrev S1x32 : Shape := ⟨2, ![1, 32]⟩
abbrev S1 : Shape := ⟨1, ![1]⟩
abbrev S1x1600000 : Shape := ⟨2, ![1, 1600000]⟩
abbrev S1600000 : Shape := ⟨1, ![1600000]⟩
abbrev S22x64 : Shape := ⟨2, ![22, 64]⟩
abbrev S100000x64 : Shape := ⟨2, ![100000, 64]⟩
abbrev S1700000 : Shape := ⟨1, ![1700000]⟩
abbrev S_ : Shape := ⟨0, ![]⟩
abbrev S1700000x1 : Shape := ⟨2, ![1700000, 1]⟩
abbrev S1700000x64 : Shape := ⟨2, ![1700000, 64]⟩
abbrev S1x64 : Shape := ⟨2, ![1, 64]⟩
abbrev S2048x64 : Shape := ⟨2, ![2048, 64]⟩
abbrev S100000x1 : Shape := ⟨2, ![100000, 1]⟩
abbrev S2048 : Shape := ⟨1, ![2048]⟩
abbrev S2048x1 : Shape := ⟨2, ![2048, 1]⟩
abbrev S64x32 : Shape := ⟨2, ![64, 32]⟩
abbrev S2048x32 : Shape := ⟨2, ![2048, 32]⟩
abbrev S32x1 : Shape := ⟨2, ![32, 1]⟩
abbrev S1x1 : Shape := ⟨2, ![1, 1]⟩

abbrev nBuf : Space → Nat
  | .hbm => 214
  | .vmem => 0
  | .smem => 0
  | _ => 0

abbrev hbmTy0_0 (i : Nat) : BufTy := match i % 128 with
  | 0 => ⟨S100000x22, .f32⟩
  | 1 => ⟨S2x1600000, .i32⟩
  | 2 => ⟨S100000, .i32⟩
  | 3 => ⟨S64x22, .f32⟩
  | 4 => ⟨S64, .f32⟩
  | 5 => ⟨S64, .f32⟩
  | 6 => ⟨S64, .f32⟩
  | 7 => ⟨S64x64, .f32⟩
  | 8 => ⟨S64, .f32⟩
  | 9 => ⟨S64, .f32⟩
  | 10 => ⟨S64, .f32⟩
  | 11 => ⟨S32x64, .f32⟩
  | 12 => ⟨S32, .f32⟩
  | 13 => ⟨S1x32, .f32⟩
  | 14 => ⟨S1, .f32⟩
  | 15 => ⟨S1x1600000, .i32⟩
  | 16 => ⟨S1600000, .i32⟩
  | 17 => ⟨S1x1600000, .i32⟩
  | 18 => ⟨S1600000, .i32⟩
  | 19 => ⟨S22x64, .f32⟩
  | 20 => ⟨S100000x64, .f32⟩
  | 21 => ⟨S100000, .i32⟩
  | 22 => ⟨S1700000, .i32⟩
  | 23 => ⟨S1700000, .i32⟩
  | 24 => ⟨S_, .f32⟩
  | 25 => ⟨S1700000, .f32⟩
  | 26 => ⟨S_, .f32⟩
  | 27 => ⟨S100000, .f32⟩
  | 28 => ⟨S1700000x1, .i32⟩
  | 29 => ⟨S100000, .f32⟩
  | 30 => ⟨S100000, .f32⟩
  | 31 => ⟨S_, .i32⟩
  | 32 => ⟨S1700000, .i32⟩
  | 33 => ⟨S1700000, .i1⟩
  | 34 => ⟨S_, .i32⟩
  | 35 => ⟨S1700000, .i32⟩
  | 36 => ⟨S1700000, .i32⟩
  | 37 => ⟨S1700000, .i32⟩
  | 38 => ⟨S1700000x1, .i32⟩
  | 39 => ⟨S1700000, .f32⟩
  | 40 => ⟨S_, .i32⟩
  | 41 => ⟨S1700000, .i32⟩
  | 42 => ⟨S1700000, .i1⟩
  | 43 => ⟨S_, .i32⟩
  | 44 => ⟨S1700000, .i32⟩
  | 45 => ⟨S1700000, .i32⟩
  | 46 => ⟨S1700000, .i32⟩
  | 47 => ⟨S1700000x1, .i32⟩
  | 48 => ⟨S1700000, .f32⟩
  | 49 => ⟨S1700000, .f32⟩
  | 50 => ⟨S_, .i32⟩
  | 51 => ⟨S1700000, .i32⟩
  | 52 => ⟨S1700000, .i1⟩
  | 53 => ⟨S_, .i32⟩
  | 54 => ⟨S1700000, .i32⟩
  | 55 => ⟨S1700000, .i32⟩
  | 56 => ⟨S1700000, .i32⟩
  | 57 => ⟨S1700000x1, .i32⟩
  | 58 => ⟨S1700000x64, .f32⟩
  | 59 => ⟨S1700000x1, .f32⟩
  | 60 => ⟨S1700000x64, .f32⟩
  | 61 => ⟨S1700000x64, .f32⟩
  | 62 => ⟨S_, .f32⟩
  | 63 => ⟨S100000x64, .f32⟩
  | 64 => ⟨S1700000x1, .i32⟩
  | 65 => ⟨S100000x64, .f32⟩
  | 66 => ⟨S1x64, .f32⟩
  | 67 => ⟨S100000x64, .f32⟩
  | 68 => ⟨S100000x64, .f32⟩
  | 69 => ⟨S_, .f32⟩
  | 70 => ⟨S64, .f32⟩
  | 71 => ⟨S_, .f32⟩
  | 72 => ⟨S64, .f32⟩
  | 73 => ⟨S64, .f32⟩
  | 74 => ⟨S1x64, .f32⟩
  | 75 => ⟨S100000x64, .f32⟩
  | 76 => ⟨S100000x64, .f32⟩
  | 77 => ⟨S100000x64, .f32⟩
  | 78 => ⟨S_, .f32⟩
  | 79 => ⟨S64, .f32⟩
  | 80 => ⟨S_, .f32⟩
  | 81 => ⟨S64, .f32⟩
  | 82 => ⟨S64, .f32⟩
  | 83 => ⟨S1x64, .f32⟩
  | 84 => ⟨S100000x64, .f32⟩
  | 85 => ⟨S100000x64, .f32⟩
  | 86 => ⟨S1x64, .f32⟩
  | 87 => ⟨S100000x64, .f32⟩
  | 88 => ⟨S100000x64, .f32⟩
  | 89 => ⟨S_, .f32⟩
  | 90 => ⟨S64, .f32⟩
  | 91 => ⟨S64, .f32⟩
  | 92 => ⟨S64, .f32⟩
  | 93 => ⟨S1x64, .f32⟩
  | 94 => ⟨S100000x64, .f32⟩
  | 95 => ⟨S100000x64, .f32⟩
  | 96 => ⟨S1x64, .f32⟩
  | 97 => ⟨S100000x64, .f32⟩
  | 98 => ⟨S100000x64, .f32⟩
  | 99 => ⟨S_, .f32⟩
  | 100 => ⟨S100000x64, .f32⟩
  | 101 => ⟨S100000x64, .f32⟩
  | 102 => ⟨S64x64, .f32⟩
  | 103 => ⟨S100000x64, .f32⟩
  | 104 => ⟨S100000, .i32⟩
  | 105 => ⟨S1700000, .i32⟩
  | 106 => ⟨S1700000, .i32⟩
  | 107 => ⟨S_, .f32⟩
  | 108 => ⟨S1700000, .f32⟩
  | 109 => ⟨S_, .f32⟩
  | 110 => ⟨S100000, .f32⟩
  | 111 => ⟨S1700000x1, .i32⟩
  | 112 => ⟨S100000, .f32⟩
  | 113 => ⟨S100000, .f32⟩
  | 114 => ⟨S_, .i32⟩
  | 115 => ⟨S1700000, .i32⟩
  | 116 => ⟨S1700000, .i1⟩
  | 117 => ⟨S_, .i32⟩
  | 118 => ⟨S1700000, .i32⟩
  | 119 => ⟨S1700000, .i32⟩
  | 120 => ⟨S1700000, .i32⟩
  | 121 => ⟨S1700000x1, .i32⟩
  | 122 => ⟨S1700000, .f32⟩
  | 123 => ⟨S_, .i32⟩
  | 124 => ⟨S1700000, .i32⟩
  | 125 => ⟨S1700000, .i1⟩
  | 126 => ⟨S_, .i32⟩
  | 127 => ⟨S1700000, .i32⟩
  | _ => ⟨S100000x22, .f32⟩

abbrev hbmTy0_1 (i : Nat) : BufTy := match i % 128 with
  | 0 => ⟨S1700000, .i32⟩
  | 1 => ⟨S1700000, .i32⟩
  | 2 => ⟨S1700000x1, .i32⟩
  | 3 => ⟨S1700000, .f32⟩
  | 4 => ⟨S1700000, .f32⟩
  | 5 => ⟨S_, .i32⟩
  | 6 => ⟨S1700000, .i32⟩
  | 7 => ⟨S1700000, .i1⟩
  | 8 => ⟨S_, .i32⟩
  | 9 => ⟨S1700000, .i32⟩
  | 10 => ⟨S1700000, .i32⟩
  | 11 => ⟨S1700000, .i32⟩
  | 12 => ⟨S1700000x1, .i32⟩
  | 13 => ⟨S1700000x64, .f32⟩
  | 14 => ⟨S1700000x1, .f32⟩
  | 15 => ⟨S1700000x64, .f32⟩
  | 16 => ⟨S1700000x64, .f32⟩
  | 17 => ⟨S_, .f32⟩
  | 18 => ⟨S100000x64, .f32⟩
  | 19 => ⟨S1700000x1, .i32⟩
  | 20 => ⟨S100000x64, .f32⟩
  | 21 => ⟨S1x64, .f32⟩
  | 22 => ⟨S100000x64, .f32⟩
  | 23 => ⟨S100000x64, .f32⟩
  | 24 => ⟨S_, .f32⟩
  | 25 => ⟨S64, .f32⟩
  | 26 => ⟨S_, .f32⟩
  | 27 => ⟨S64, .f32⟩
  | 28 => ⟨S64, .f32⟩
  | 29 => ⟨S1x64, .f32⟩
  | 30 => ⟨S100000x64, .f32⟩
  | 31 => ⟨S100000x64, .f32⟩
  | 32 => ⟨S100000x64, .f32⟩
  | 33 => ⟨S_, .f32⟩
  | 34 => ⟨S64, .f32⟩
  | 35 => ⟨S_, .f32⟩
  | 36 => ⟨S64, .f32⟩
  | 37 => ⟨S64, .f32⟩
  | 38 => ⟨S1x64, .f32⟩
  | 39 => ⟨S100000x64, .f32⟩
  | 40 => ⟨S100000x64, .f32⟩
  | 41 => ⟨S1x64, .f32⟩
  | 42 => ⟨S100000x64, .f32⟩
  | 43 => ⟨S100000x64, .f32⟩
  | 44 => ⟨S_, .f32⟩
  | 45 => ⟨S64, .f32⟩
  | 46 => ⟨S64, .f32⟩
  | 47 => ⟨S64, .f32⟩
  | 48 => ⟨S1x64, .f32⟩
  | 49 => ⟨S100000x64, .f32⟩
  | 50 => ⟨S100000x64, .f32⟩
  | 51 => ⟨S1x64, .f32⟩
  | 52 => ⟨S100000x64, .f32⟩
  | 53 => ⟨S100000x64, .f32⟩
  | 54 => ⟨S_, .f32⟩
  | 55 => ⟨S100000x64, .f32⟩
  | 56 => ⟨S100000x64, .f32⟩
  | 57 => ⟨S_, .f32⟩
  | 58 => ⟨S2048x64, .f32⟩
  | 59 => ⟨S100000x1, .i32⟩
  | 60 => ⟨S2048x64, .f32⟩
  | 61 => ⟨S_, .f32⟩
  | 62 => ⟨S100000, .f32⟩
  | 63 => ⟨S_, .f32⟩
  | 64 => ⟨S2048, .f32⟩
  | 65 => ⟨S100000x1, .i32⟩
  | 66 => ⟨S2048, .f32⟩
  | 67 => ⟨S_, .f32⟩
  | 68 => ⟨S2048, .f32⟩
  | 69 => ⟨S2048, .f32⟩
  | 70 => ⟨S2048x1, .f32⟩
  | 71 => ⟨S2048x64, .f32⟩
  | 72 => ⟨S2048x64, .f32⟩
  | 73 => ⟨S64x32, .f32⟩
  | 74 => ⟨S2048x32, .f32⟩
  | 75 => ⟨S1x32, .f32⟩
  | 76 => ⟨S2048x32, .f32⟩
  | 77 => ⟨S2048x32, .f32⟩
  | 78 => ⟨S_, .f32⟩
  | 79 => ⟨S2048x32, .f32⟩
  | 80 => ⟨S2048x32, .f32⟩
  | 81 => ⟨S32x1, .f32⟩
  | 82 => ⟨S2048x1, .f32⟩
  | 83 => ⟨S1x1, .f32⟩
  | 84 => ⟨S2048x1, .f32⟩
  | 85 => ⟨S2048x1, .f32⟩
  | _ => ⟨S100000x22, .f32⟩

abbrev hbmTy (i : Nat) : BufTy := match i / 128 with
  | 0 => hbmTy0_0 i
  | 1 => hbmTy0_1 i
  | _ => ⟨S100000x22, .f32⟩

abbrev bufTy : (tb : Table) → Fin (tcTables nBuf tb) → BufTy
  | .hbm, ⟨i, _⟩ => hbmTy i
  | _, _ => ⟨S100000x22, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_cst : Ref sig .tc := ⟨.hbm, 24, rfl⟩
abbrev main_v9 : Ref sig .tc := ⟨.hbm, 25, rfl⟩
abbrev main_cst_0 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_c : Ref sig .tc := ⟨.hbm, 31, rfl⟩
abbrev main_v14 : Ref sig .tc := ⟨.hbm, 32, rfl⟩
abbrev main_v15 : Ref sig .tc := ⟨.hbm, 33, rfl⟩
abbrev main_c_1 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_c_2 : Ref sig .tc := ⟨.hbm, 40, rfl⟩
abbrev main_v21 : Ref sig .tc := ⟨.hbm, 41, rfl⟩
abbrev main_v22 : Ref sig .tc := ⟨.hbm, 42, rfl⟩
abbrev main_c_3 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_c_4 : Ref sig .tc := ⟨.hbm, 50, rfl⟩
abbrev main_v29 : Ref sig .tc := ⟨.hbm, 51, rfl⟩
abbrev main_v30 : Ref sig .tc := ⟨.hbm, 52, rfl⟩
abbrev main_c_5 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_cst_6 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_cst_7 : Ref sig .tc := ⟨.hbm, 69, rfl⟩
abbrev main_v45 : Ref sig .tc := ⟨.hbm, 70, rfl⟩
abbrev main_cst_8 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_cst_9 : Ref sig .tc := ⟨.hbm, 78, rfl⟩
abbrev main_v52 : Ref sig .tc := ⟨.hbm, 79, rfl⟩
abbrev main_cst_10 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_cst_11 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_call0_cst : Ref sig .tc := ⟨.hbm, 99, rfl⟩
abbrev main_call0_v0 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_cst_12 : Ref sig .tc := ⟨.hbm, 107, rfl⟩
abbrev main_v76 : Ref sig .tc := ⟨.hbm, 108, rfl⟩
abbrev main_cst_13 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_c_14 : Ref sig .tc := ⟨.hbm, 114, rfl⟩
abbrev main_v81 : Ref sig .tc := ⟨.hbm, 115, rfl⟩
abbrev main_v82 : Ref sig .tc := ⟨.hbm, 116, rfl⟩
abbrev main_c_15 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_c_16 : Ref sig .tc := ⟨.hbm, 123, rfl⟩
abbrev main_v88 : Ref sig .tc := ⟨.hbm, 124, rfl⟩
abbrev main_v89 : Ref sig .tc := ⟨.hbm, 125, rfl⟩
abbrev main_c_17 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩
abbrev main_c_18 : Ref sig .tc := ⟨.hbm, 133, rfl⟩
abbrev main_v96 : Ref sig .tc := ⟨.hbm, 134, rfl⟩
abbrev main_v97 : Ref sig .tc := ⟨.hbm, 135, rfl⟩
abbrev main_c_19 : Ref sig .tc := ⟨.hbm, 136, rfl⟩
abbrev main_v98 : Ref sig .tc := ⟨.hbm, 137, rfl⟩
abbrev main_v99 : Ref sig .tc := ⟨.hbm, 138, rfl⟩
abbrev main_v100 : Ref sig .tc := ⟨.hbm, 139, rfl⟩
abbrev main_v101 : Ref sig .tc := ⟨.hbm, 140, rfl⟩
abbrev main_v102 : Ref sig .tc := ⟨.hbm, 141, rfl⟩
abbrev main_v103 : Ref sig .tc := ⟨.hbm, 142, rfl⟩
abbrev main_v104 : Ref sig .tc := ⟨.hbm, 143, rfl⟩
abbrev main_v105 : Ref sig .tc := ⟨.hbm, 144, rfl⟩
abbrev main_cst_20 : Ref sig .tc := ⟨.hbm, 145, rfl⟩
abbrev main_v106 : Ref sig .tc := ⟨.hbm, 146, rfl⟩
abbrev main_v107 : Ref sig .tc := ⟨.hbm, 147, rfl⟩
abbrev main_v108 : Ref sig .tc := ⟨.hbm, 148, rfl⟩
abbrev main_v109 : Ref sig .tc := ⟨.hbm, 149, rfl⟩
abbrev main_v110 : Ref sig .tc := ⟨.hbm, 150, rfl⟩
abbrev main_v111 : Ref sig .tc := ⟨.hbm, 151, rfl⟩
abbrev main_cst_21 : Ref sig .tc := ⟨.hbm, 152, rfl⟩
abbrev main_v112 : Ref sig .tc := ⟨.hbm, 153, rfl⟩
abbrev main_cst_22 : Ref sig .tc := ⟨.hbm, 154, rfl⟩
abbrev main_v113 : Ref sig .tc := ⟨.hbm, 155, rfl⟩
abbrev main_v114 : Ref sig .tc := ⟨.hbm, 156, rfl⟩
abbrev main_v115 : Ref sig .tc := ⟨.hbm, 157, rfl⟩
abbrev main_v116 : Ref sig .tc := ⟨.hbm, 158, rfl⟩
abbrev main_v117 : Ref sig .tc := ⟨.hbm, 159, rfl⟩
abbrev main_v118 : Ref sig .tc := ⟨.hbm, 160, rfl⟩
abbrev main_cst_23 : Ref sig .tc := ⟨.hbm, 161, rfl⟩
abbrev main_v119 : Ref sig .tc := ⟨.hbm, 162, rfl⟩
abbrev main_cst_24 : Ref sig .tc := ⟨.hbm, 163, rfl⟩
abbrev main_v120 : Ref sig .tc := ⟨.hbm, 164, rfl⟩
abbrev main_v121 : Ref sig .tc := ⟨.hbm, 165, rfl⟩
abbrev main_v122 : Ref sig .tc := ⟨.hbm, 166, rfl⟩
abbrev main_v123 : Ref sig .tc := ⟨.hbm, 167, rfl⟩
abbrev main_v124 : Ref sig .tc := ⟨.hbm, 168, rfl⟩
abbrev main_v125 : Ref sig .tc := ⟨.hbm, 169, rfl⟩
abbrev main_v126 : Ref sig .tc := ⟨.hbm, 170, rfl⟩
abbrev main_v127 : Ref sig .tc := ⟨.hbm, 171, rfl⟩
abbrev main_cst_25 : Ref sig .tc := ⟨.hbm, 172, rfl⟩
abbrev main_v128 : Ref sig .tc := ⟨.hbm, 173, rfl⟩
abbrev main_v129 : Ref sig .tc := ⟨.hbm, 174, rfl⟩
abbrev main_v130 : Ref sig .tc := ⟨.hbm, 175, rfl⟩
abbrev main_v131 : Ref sig .tc := ⟨.hbm, 176, rfl⟩
abbrev main_v132 : Ref sig .tc := ⟨.hbm, 177, rfl⟩
abbrev main_v133 : Ref sig .tc := ⟨.hbm, 178, rfl⟩
abbrev main_v134 : Ref sig .tc := ⟨.hbm, 179, rfl⟩
abbrev main_v135 : Ref sig .tc := ⟨.hbm, 180, rfl⟩
abbrev main_v136 : Ref sig .tc := ⟨.hbm, 181, rfl⟩
abbrev main_call1_cst : Ref sig .tc := ⟨.hbm, 182, rfl⟩
abbrev main_call1_v0 : Ref sig .tc := ⟨.hbm, 183, rfl⟩
abbrev main_v137 : Ref sig .tc := ⟨.hbm, 184, rfl⟩
abbrev main_cst_26 : Ref sig .tc := ⟨.hbm, 185, rfl⟩
abbrev main_v138 : Ref sig .tc := ⟨.hbm, 186, rfl⟩
abbrev main_v139 : Ref sig .tc := ⟨.hbm, 187, rfl⟩
abbrev main_v140 : Ref sig .tc := ⟨.hbm, 188, rfl⟩
abbrev main_cst_27 : Ref sig .tc := ⟨.hbm, 189, rfl⟩
abbrev main_v141 : Ref sig .tc := ⟨.hbm, 190, rfl⟩
abbrev main_cst_28 : Ref sig .tc := ⟨.hbm, 191, rfl⟩
abbrev main_v142 : Ref sig .tc := ⟨.hbm, 192, rfl⟩
abbrev main_v143 : Ref sig .tc := ⟨.hbm, 193, rfl⟩
abbrev main_v144 : Ref sig .tc := ⟨.hbm, 194, rfl⟩
abbrev main_cst_29 : Ref sig .tc := ⟨.hbm, 195, rfl⟩
abbrev main_v145 : Ref sig .tc := ⟨.hbm, 196, rfl⟩
abbrev main_v146 : Ref sig .tc := ⟨.hbm, 197, rfl⟩
abbrev main_v147 : Ref sig .tc := ⟨.hbm, 198, rfl⟩
abbrev main_v148 : Ref sig .tc := ⟨.hbm, 199, rfl⟩
abbrev main_v149 : Ref sig .tc := ⟨.hbm, 200, rfl⟩
abbrev main_v150 : Ref sig .tc := ⟨.hbm, 201, rfl⟩
abbrev main_v151 : Ref sig .tc := ⟨.hbm, 202, rfl⟩
abbrev main_v152 : Ref sig .tc := ⟨.hbm, 203, rfl⟩
abbrev main_v153 : Ref sig .tc := ⟨.hbm, 204, rfl⟩
abbrev main_v154 : Ref sig .tc := ⟨.hbm, 205, rfl⟩
abbrev main_call2_cst : Ref sig .tc := ⟨.hbm, 206, rfl⟩
abbrev main_call2_v0 : Ref sig .tc := ⟨.hbm, 207, rfl⟩
abbrev main_v155 : Ref sig .tc := ⟨.hbm, 208, rfl⟩
abbrev main_v156 : Ref sig .tc := ⟨.hbm, 209, rfl⟩
abbrev main_v157 : Ref sig .tc := ⟨.hbm, 210, rfl⟩
abbrev main_v158 : Ref sig .tc := ⟨.hbm, 211, rfl⟩
abbrev main_v159 : Ref sig .tc := ⟨.hbm, 212, rfl⟩
abbrev main_v160 : Ref sig .tc := ⟨.hbm, 213, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  transposes_S64x22_S22x64_1_0 : S64x22.Transposes [1, 0] S22x64
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  reducesTo_S100000x64_S64_d0 : S100000x64.ReducesTo [0] S64
  h_S_ : 0 < S_.numel
  bcast_S_S64 : S_.BroadcastsInDim S64 (![] : Fin 0 → Fin S64.rank)
  transposes_S64x64_S64x64_1_0 : S64x64.Transposes [1, 0] S64x64
  bcast_S_S2048x64 : S_.BroadcastsInDim S2048x64 (![] : Fin 0 → Fin S2048x64.rank)
  bcast_S100000_S100000x1_0 : S100000.BroadcastsInDim S100000x1 (![0] : Fin 1 → Fin S100000x1.rank)
  bcast_S_S2048 : S_.BroadcastsInDim S2048 (![] : Fin 0 → Fin S2048.rank)
  bcast_S2048_S2048x1_0 : S2048.BroadcastsInDim S2048x1 (![0] : Fin 1 → Fin S2048x1.rank)
  bcast_S2048x1_S2048x64_0_1 : S2048x1.BroadcastsInDim S2048x64 (![0, 1] : Fin 2 → Fin S2048x64.rank)
  transposes_S32x64_S64x32_1_0 : S32x64.Transposes [1, 0] S64x32
  bcast_S32_S1x32_1 : S32.BroadcastsInDim S1x32 (![1] : Fin 1 → Fin S1x32.rank)
  bcast_S1x32_S2048x32_0_1 : S1x32.BroadcastsInDim S2048x32 (![0, 1] : Fin 2 → Fin S2048x32.rank)
  bcast_S_S2048x32 : S_.BroadcastsInDim S2048x32 (![] : Fin 0 → Fin S2048x32.rank)
  transposes_S1x32_S32x1_1_0 : S1x32.Transposes [1, 0] S32x1
  bcast_S1_S1x1_1 : S1.BroadcastsInDim S1x1 (![1] : Fin 1 → Fin S1x1.rank)
  bcast_S1x1_S2048x1_0_1 : S1x1.BroadcastsInDim S2048x1 (![0, 1] : Fin 2 → Fin S2048x1.rank)
  dot_S100000x22_S22x64_S100000x64_1_0_0_1_n_n_wf : DotDims.WF S100000x22 S22x64 S100000x64 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S100000x64_S64x64_S100000x64_1_0_0_1_n_n_wf : DotDims.WF S100000x64 S64x64 S100000x64 [1] [0] [0] [1] [] []
  scatter_S2048x64_S100000x1_S100000x64_1_0_0_1_wf : ScatterDims.WF S2048x64 S100000x1 S100000x64 [1] [0] [0] 1
  scatter_S2048_S100000x1_S100000_n_0_0_1_wf : ScatterDims.WF S2048 S100000x1 S100000 [] [0] [0] 1
  dot_S2048x64_S64x32_S2048x32_1_0_0_1_n_n_wf : DotDims.WF S2048x64 S64x32 S2048x32 [1] [0] [0] [1] [] []
  dot_S2048x32_S32x1_S2048x1_1_0_0_1_n_n_wf : DotDims.WF S2048x32 S32x1 S2048x1 [1] [0] [0] [1] [] []

variable [Facts₀]

def dot_S100000x22_S22x64_S100000x64_1_0_0_1_n_n : DotDims S100000x22 S22x64 S100000x64 where
  lhsContracting := [1]
  rhsContracting := [0]
  lhsNonContracting := [0]
  rhsNonContracting := [1]
  lhsBatch := []
  rhsBatch := []
  wf := dot_S100000x22_S22x64_S100000x64_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def scatter_S2048x64_S100000x1_S100000x64_1_0_0_1 : ScatterDims S2048x64 S100000x1 S100000x64 where
  updateWindowDims := [1]
  insertedWindowDims := [0]
  scatterDimsToOperandDims := [0]
  indexVectorDim := 1
  wf := scatter_S2048x64_S100000x1_S100000x64_1_0_0_1_wf
def scatter_S2048_S100000x1_S100000_n_0_0_1 : ScatterDims S2048 S100000x1 S100000 where
  updateWindowDims := []
  insertedWindowDims := [0]
  scatterDimsToOperandDims := [0]
  indexVectorDim := 1
  wf := scatter_S2048_S100000x1_S100000_n_0_0_1_wf
def dot_S2048x64_S64x32_S2048x32_1_0_0_1_n_n : DotDims S2048x64 S64x32 S2048x32 where
  lhsContracting := [1]
  rhsContracting := [0]
  lhsNonContracting := [0]
  rhsNonContracting := [1]
  lhsBatch := []
  rhsBatch := []
  wf := dot_S2048x64_S64x32_S2048x32_1_0_0_1_n_n_wf
def dot_S2048x32_S32x1_S2048x1_1_0_0_1_n_n : DotDims S2048x32 S32x1 S2048x1 where
  lhsContracting := [1]
  rhsContracting := [0]
  lhsNonContracting := [0]
  rhsNonContracting := [1]
  lhsBatch := []
  rhsBatch := []
  wf := dot_S2048x32_S32x1_S2048x1_1_0_0_1_n_n_wf

class Facts : Prop extends Facts₀ where

variable [Facts]
-- ==== Proof.KRun.lean ====
/-
  The idealized kernel's run, with its result named. The program is five kernel regions among stretches of host
  operations; along the run the buffer contents at each boundary are a fold from the launch memory (`W0` … `W10` of the
  generated frame module: a stretch applies its operations, a region replaces its arrays by what its write-backs
  leave). Every weakly fair execution terminates, nothing faults, the result buffer ends at the last boundary's
  contents `W10` and the fifteen argument arrays end as launched.
-/
import proofs.«178469_j62732292326003_1_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- The run over the ten segments, read at the result buffer and at the arguments: the last thread state holds every
    unscoped buffer at the last boundary's contents. -/
theorem run_result : θ_run defs (onTc (τ := τ) (main (F := F))) ⟨m, fun _ => 0, ρ⟩ (fun r => ∀ c : Dev nD,
      r.2.mem ((c.tc : Thread nD τ).loc main_v116) = W10 m ρ c (Proc.devRef .tc main_v116)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c =>
      ⟨h c _ (mem_uc main_v116 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c),
       (h c _ (mem_uc main_arg6 (by decide))).trans (W10_main_arg6 m ρ c),
       (h c _ (mem_uc main_arg7 (by decide))).trans (W10_main_arg7 m ρ c),
       (h c _ (mem_uc main_arg8 (by decide))).trans (W10_main_arg8 m ρ c),
       (h c _ (mem_uc main_arg9 (by decide))).trans (W10_main_arg9 m ρ c),
       (h c _ (mem_uc main_arg10 (by decide))).trans (W10_main_arg10 m ρ c),
       (h c _ (mem_uc main_arg11 (by decide))).trans (W10_main_arg11 m ρ c),
       (h c _ (mem_uc main_arg12 (by decide))).trans (W10_main_arg12 m ρ c),
       (h c _ (mem_uc main_arg13 (by decide))).trans (W10_main_arg13 m ρ c),
       (h c _ (mem_uc main_arg14 (by decide))).trans (W10_main_arg14 m ρ c)⟩)

end Cert.KernelIdeal.KRun

end
-- ==== Proof.Finite.lean ====
/-
  From the precondition to real entries. The precondition is the conjunction, over the thirteen float arguments, of
  "every entry's absolute value is below +∞"; an extended real whose absolute value `max x (-x)` is below `+∞` is a
  real. Read here for the four arguments the normalisation law needs: the two scale vectors and the two offset vectors.
-/
import proofs.«178469_j62732292326003_1_alg».proof.Pre_finite_inputs
import Idealize.ShloMosaic.PureOps.Ideal
import Idealize.ShloMosaic.Lib.ReduceAll
import Idealize.ShloMosaic.Lib.ValueIdx
import Idealize.ShloMosaic.Lib.Affine

set_option maxRecDepth 16384

noncomputable section

namespace Cert.Finite

open Idealize.ShloMosaic Cert.Pre_finite_inputs

instance : Subsingleton S_.Idx := ⟨fun a b => funext fun d => d.elim0⟩

/-- The pattern of +∞. -/
theorem ofBits_inf : Ideal.ofBits .f32 0x7F800000#32 = ⊤ := by
  simp [Ideal.ofBits, Ideal.ieee]

/-- An extended real with `max x (-x) < +∞` is a real. -/
theorem real_of_abs_lt_top (x : EReal) (h : Ideal.cmp .olt (max x (-x)) ⊤ = 1#1) : ∃ r : ℝ, x = r := by
  induction x using EReal.rec with
  | bot => simp [Ideal.cmp] at h
  | top => simp [Ideal.cmp] at h
  | coe r => exact ⟨r, rfl⟩

/-- `jnp.all (|x| < inf)` being true makes every entry of `x` real. -/
theorem real_of_all {s : Shape} {axes : List (Fin s.rank)} (x : FVec Ideal s .f32) (bc : S_.BroadcastsInDim s ![])
    (init : S_.Idx → BitVec 1) (h : s.ReducesTo axes S_) (hu : 0 < S_.numel)
    (e : Host.reduce IntOp.andi (cmpf .olt (Host.absf x) (broadcastInDim s ![] bc (constant (F := Ideal) S_ .f32 0x7F800000#32))) init h hu
      ValueIdx.ix0 = 1#1) (i : s.Idx) : ∃ r : ℝ, x i = r := by
  have h1 := Host.reduce_andi_all _ init h hu ValueIdx.ix0 e i
  refine real_of_abs_lt_top (x i) ?_
  rw [← ofBits_inf]
  exact h1

/-- The conjunction of two truth values at the one index of a scalar. -/
theorem andi_ix (a b : IVec S_ 1) : andi a b ValueIdx.ix0 = 1#1 ↔ a ValueIdx.ix0 = 1#1 ∧ b ValueIdx.ix0 = 1#1 :=
  IntOp.andi_eq_one

/-- Under the precondition the two scale vectors and the two offset vectors hold reals. -/
theorem real_of_pre [Facts] (x0 : FVec Ideal S100000x22 .f32) (x1 : IVec S2x1600000 32) (x2 : IVec S100000 32) (x3 : FVec Ideal S64x22 .f32)
    (x4 x5 x6 : FVec Ideal S64 .f32) (x7 : FVec Ideal S64x64 .f32) (x8 x9 x10 : FVec Ideal S64 .f32) (x11 : FVec Ideal S32x64 .f32)
    (x12 : FVec Ideal S32 .f32) (x13 : FVec Ideal S1x32 .f32) (x14 : FVec Ideal S1 .f32)
    (h : fn (F := Ideal) x0 x1 x2 x3 x4 x5 x6 x7 x8 x9 x10 x11 x12 x13 x14 = fun _ => 1#1) :
    (∀ i, ∃ r : ℝ, x5 i = r) ∧ (∀ i, ∃ r : ℝ, x6 i = r) ∧ (∀ i, ∃ r : ℝ, x9 i = r) ∧ (∀ i, ∃ r : ℝ, x10 i = r) := by
  have h0 := congrFun h ValueIdx.ix0
  dsimp only [fn, fn_part1, fn_part2, fn_part3] at h0
  simp only [andi_ix] at h0
  obtain ⟨⟨⟨⟨⟨⟨⟨⟨⟨⟨⟨⟨c0, c3⟩, c4⟩, c5⟩, c6⟩, c7⟩, c8⟩, c9⟩, c10⟩, c11⟩, c12⟩, c13⟩, c14⟩ := h0
  exact ⟨real_of_all x5 _ _ _ _ c5, real_of_all x6 _ _ _ _ c6, real_of_all x9 _ _ _ _ c9, real_of_all x10 _ _ _ _ c10⟩

end Cert.Finite

end
-- ==== Proof.LibStageRead.lean ====
/-
  Reading the fold of a straight line of host operations (program-independent; imports only the library).

  The contents of a program's buffers after a list of host operations is the fold of the operations' results over the
  contents before it. Two facts serve to read such a fold at one buffer. A concatenation of two operands can be written with the operands
  as plain arguments, so that a rewriting pass reaches them (as an entry of a list of shape-and-contents pairs it cannot).
  And one rewriting pass over the fold of a literal list gives, at any buffer, the composed operations of what the
  list finds: each operation's result at its own buffer is its function's value and at any other buffer what was
  there; the transports of contents between a buffer's own type and the value's type, which are along equations that
  hold by computation, are dropped.
-/
import Idealize.ShloMosaic.Lib.StableHlo.Run

noncomputable section

namespace Cert.StageRead

open Idealize.ShloMosaic Idealize.ShloMosaic.StableHlo

/-- A concatenation of two operands with the operands as plain arguments. -/
def concatPair {α : Type} (t : Shape) (a : Fin t.rank) (s₁ s₂ : Shape) (h : Shape.Concatenates [s₁, s₂] t a)
    (x₁ : s₁.Idx → α) (x₂ : s₂.Idx → α) : t.Idx → α :=
  concatenate t a [⟨s₁, x₁⟩, ⟨s₂, x₂⟩] h

/-- A concatenation of a two-entry list is the pair form of its two entries. -/
theorem concatenate_pair {α : Type} (t : Shape) (a : Fin t.rank) (s₁ s₂ : Shape) (h : Shape.Concatenates [s₁, s₂] t a)
    (x₁ : s₁.Idx → α) (x₂ : s₂.Idx → α) :
    concatenate t a [⟨s₁, x₁⟩, ⟨s₂, x₂⟩] h = concatPair t a s₁ s₂ h x₁ x₂ := rfl

/-- One rewriting pass over the fold of a literal list of operations, read at a buffer. -/
macro "stage_results" : tactic =>
  `(tactic| (simp (disch := decide) only [after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne', concatenate_pair,
      cast_eq, cast_cast, eq_mpr_eq_cast, eq_mp_eq_cast, eqRec_eq_cast]))

end Cert.StageRead

end
-- ==== Proof.RegionLin.lean ====
/- The two row-tiled matrix products of the program (regions 0 and 2), read as whole arrays.
   Each grid point multiplies a block of 5000 rows of the left array by the whole right array; the format changes in
   the body are the identity on extended reals and the accumulator is the zero splat, so the block written back at a
   point is that block of rows of the full product. The 20 blocks tile the 100000 rows, so after the region the output
   array holds the full product at every index: entry (r, j) is the sum over k of x(r,k) * w(k,j). -/
import proofs.«178469_j62732292326003_1_alg».proof.Proof.Gen.KernelIdeal.Frame
import proofs.«178469_j62732292326003_1_alg».proof.Proof.Gen.ReferenceIdeal
import Idealize.ShloMosaic.Lib.Pipeline.Value
import Idealize.ShloMosaic.Lib.ValueIdx
import Idealize.ShloMosaic.PureOps.Ideal.Laws

set_option maxRecDepth 16384

noncomputable section

namespace Cert.KernelIdeal.RegionLin

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open Cert.KernelIdeal Cert.KernelIdeal.Gen
open scoped BigOperators

/-! ## Region 0: rows of x against the whole of Wt -/

/-! The operand indices of the [5000,22] x [22,64] block product at an output index and a contraction index. -/

theorem lhs0_0 (i : S5000x64.Idx) (q : dot_S5000x22_S22x64_S5000x64_1_0_0_1_n_n.contr.Idx) :
    (dot_S5000x22_S22x64_S5000x64_1_0_0_1_n_n.lhsIdx i q 0).val = (i 0).val := by
  unfold DotDims.lhsIdx
  rw [dif_neg (show ¬(0 : Fin S5000x22.rank) ∈ dot_S5000x22_S22x64_S5000x64_1_0_0_1_n_n.lhsBatch by decide), dif_pos (show (0 : Fin S5000x22.rank) ∈ dot_S5000x22_S22x64_S5000x64_1_0_0_1_n_n.lhsNonContracting by decide)]
  rfl
theorem lhs0_1 (i : S5000x64.Idx) (q : dot_S5000x22_S22x64_S5000x64_1_0_0_1_n_n.contr.Idx) :
    (dot_S5000x22_S22x64_S5000x64_1_0_0_1_n_n.lhsIdx i q 1).val = (q ⟨0, by decide⟩).val :=
  dot_S5000x22_S22x64_S5000x64_1_0_0_1_n_n.lhsIdx_val_of_single rfl i q
theorem rhs0_0 (i : S5000x64.Idx) (q : dot_S5000x22_S22x64_S5000x64_1_0_0_1_n_n.contr.Idx) :
    (dot_S5000x22_S22x64_S5000x64_1_0_0_1_n_n.rhsIdx i q 0).val = (q ⟨0, by decide⟩).val :=
  dot_S5000x22_S22x64_S5000x64_1_0_0_1_n_n.rhsIdx_val_of_single rfl i q
theorem rhs0_1 (i : S5000x64.Idx) (q : dot_S5000x22_S22x64_S5000x64_1_0_0_1_n_n.contr.Idx) :
    (dot_S5000x22_S22x64_S5000x64_1_0_0_1_n_n.rhsIdx i q 1).val = (i 1).val := by
  unfold DotDims.rhsIdx
  rw [dif_neg (show ¬(1 : Fin S22x64.rank) ∈ dot_S5000x22_S22x64_S5000x64_1_0_0_1_n_n.rhsBatch by decide), dif_pos (show (1 : Fin S22x64.rank) ∈ dot_S5000x22_S22x64_S5000x64_1_0_0_1_n_n.rhsNonContracting by decide)]
  rfl

/-- The block product read at (p, q): the sum over k of x(p,k) * w(k,q). The format changes are the identity on
    extended reals, the shape cast is to the same shape, and the accumulator is the zero splat. -/
theorem pay0_apply (x : Vec Ideal S5000x22 .f32) (w : Vec Ideal S22x64 .f32) (p : Fin 5000) (q : Fin 64) :
    k0_pay1 (F := Ideal) x w (ix2 p q) = ∑ k : Fin 22, x (ix2 p k) * w (ix2 k q) := by
  unfold k0_pay1
  simp only [matmul]
  rw [shapeCast_self]
  refine (Ideal.matmul_constant_zero_apply dot_S5000x22_S22x64_S5000x64_1_0_0_1_n_n none _ _ (ix2 p q)).trans ?_
  rw [← Equiv.sum_comp (ValueIdx.contrEquiv1 dot_S5000x22_S22x64_S5000x64_1_0_0_1_n_n 22 rfl rfl).symm]
  refine Finset.sum_congr rfl fun k _ => ?_
  have hk := ValueIdx.contrEquiv1_symm_val dot_S5000x22_S22x64_S5000x64_1_0_0_1_n_n 22 rfl rfl k
  have el : dot_S5000x22_S22x64_S5000x64_1_0_0_1_n_n.lhsIdx (ix2 p q) ((ValueIdx.contrEquiv1 dot_S5000x22_S22x64_S5000x64_1_0_0_1_n_n 22 rfl rfl).symm k) = ix2 p k := funext fun a => Fin.ext (by
    match a with
    | ⟨0, _⟩ => exact lhs0_0 _ _
    | ⟨1, _⟩ => exact (lhs0_1 _ _).trans hk)
  have er : dot_S5000x22_S22x64_S5000x64_1_0_0_1_n_n.rhsIdx (ix2 p q) ((ValueIdx.contrEquiv1 dot_S5000x22_S22x64_S5000x64_1_0_0_1_n_n 22 rfl rfl).symm k) = ix2 k q := funext fun a => Fin.ext (by
    match a with
    | ⟨0, _⟩ => exact (rhs0_0 _ _).trans hk
    | ⟨1, _⟩ => exact rhs0_1 _ _)
  rw [truncf_apply, truncf_apply, el, er]

variable (V : (c : Dev nD) → (b : Ref sig .tc) → Buf (Elt Ideal) ((c : Thread nD τ).loc b))

theorem hz : (![0, 0] : Fin 2 → Nat) = fun _ => 0 := funext fun a => by fin_cases a <;> rfl

/-- The product array: entry (r, j) is the sum over k of x(r,k) * w(k,j). -/
abbrev G0 (x : S100000x22.Idx → Elt Ideal .f32) (w : S22x64.Idx → Elt Ideal .f32) : S100000x64.Idx → Elt Ideal .f32 :=
  fun i => ∑ k : Fin 22, x (ix2 (i 0) k) * w (ix2 k (i 1))

/-- The index maps over the grid: point t reads row block t of x and the whole of Wt, and writes row block t. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point t writes back is block t of the product array. -/
theorem flushed0_eq (c : Dev nD) (t : Fin cfg0.N) :
    (dat0 V c).flushed 2 t = ((cfg0.win 2).blk t).view.read (Elt Ideal) (G0 (V c main_arg0) (V c main_v28)) := by
  show (cfg0.win 2).cut (grid0.coords t) ((dat0 V c).after 2 t) = _
  rw [after0_2]
  unfold out0_2
  rw [View.canon_unit_zero hz]
  simp only [View.ld_unit_zero (S := S5000x22) hz, View.ld_unit_zero (S := S22x64) hz]
  obtain ⟨e0, e1, e2, e3, e4, e5⟩ := idx_facts0 t
  funext j
  obtain ⟨p, q, rfl⟩ : ∃ (p : Fin 5000) (q : Fin 64), j = ix2 p q := ⟨j 0, j 1, eq_ix2 j⟩
  show k0_pay1 (F := Ideal) (iblk0 V c 0 t) (iblk0 V c 1 t) (ix2 p q) = G0 (V c main_arg0) (V c main_v28) (((cfg0.win 2).blk t).view.emb (ix2 p q))
  refine (pay0_apply _ _ p q).trans ?_
  refine Finset.sum_congr rfl fun k _ => ?_
  have hx : (iblk0 V c 0 t : Vec Ideal S5000x22 .f32) (ix2 p k) = V c main_arg0 (ix2 (((cfg0.win 2).blk t).view.emb (ix2 p q) 0) k) := by
    show V c main_arg0 (((cfg0.win 0).blk t).view.emb (ix2 p k)) = _
    refine congrArg (V c main_arg0) (funext fun a => Fin.ext ?_)
    match a with
    | ⟨0, _⟩ => show win0_0.index t (0 : Fin 2) * 5000 + 1 * p.val = win0_2.index t (0 : Fin 2) * 5000 + 1 * p.val; omega
    | ⟨1, _⟩ => show win0_0.index t (1 : Fin 2) * 22 + 1 * k.val = k.val; omega
  have hw : (iblk0 V c 1 t : Vec Ideal S22x64 .f32) (ix2 k q) = V c main_v28 (ix2 k (((cfg0.win 2).blk t).view.emb (ix2 p q) 1)) := by
    show V c main_v28 (((cfg0.win 1).blk t).view.emb (ix2 k q)) = _
    refine congrArg (V c main_v28) (funext fun a => Fin.ext ?_)
    match a with
    | ⟨0, _⟩ => show win0_1.index t (0 : Fin 2) * 22 + 1 * k.val = k.val; omega
    | ⟨1, _⟩ => show win0_1.index t (1 : Fin 2) * 64 + 1 * q.val = win0_2.index t (1 : Fin 2) * 64 + 1 * q.val; omega
  rw [hx, hw]

/-- An index of the array is in point t's block iff each coordinate is in the block's range on its axis. -/
theorem mem_blk0 (t : Fin cfg0.N) (i : S100000x64.Idx) :
    i ∈ ((cfg0.win 2).blk t).view.set ↔ ∀ a : Fin 2, win0_2.index t a * S5000x64.size a ≤ (i a).val ∧ (i a).val < win0_2.index t a * S5000x64.size a + S5000x64.size a := by
  show i ∈ ((View.whole main_v29).slice (win0_2.rect t)).set ↔ _
  rw [View.set_slice_whole, Rect.mem_set_unit]
  exact Iff.rfl

/-- The 20 blocks of 5000 rows tile the 100000 rows: row r is in the block of point r / 5000. -/
theorem cover0 (i : S100000x64.Idx) :
    ∃ t : Fin cfg0.N, (cfg0.win 2).flush t = true ∧ i ∈ ((cfg0.win 2).blk t).view.set := by
  have hi0 : (i 0).val < 100000 := (i 0).isLt
  have hi1 : (i 1).val < 64 := (i 1).isLt
  obtain ⟨t, ht⟩ : ∃ t : Fin cfg0.N, t.val = (i 0).val / 5000 :=
    ⟨⟨(i 0).val / 5000, by rw [show cfg0.N = 20 from N_0]; omega⟩, rfl⟩
  obtain ⟨e0, e1, e2, e3, e4, e5⟩ := idx_facts0 t
  refine ⟨t, flush0_2 t, ?_⟩
  rw [mem_blk0]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 64 ≤ (i 1).val ∧ (i 1).val < win0_2.index t (1 : Fin 2) * 64 + 64; omega

/-- The product array at an index. -/
theorem G0_apply (x : S100000x22.Idx → Elt Ideal .f32) (w : S22x64.Idx → Elt Ideal .f32) (i : S100000x64.Idx) :
    G0 x w i = ∑ k : Fin 22, x (ix2 (i 0) k) * w (ix2 k (i 1)) := rfl

/-- THE ARRAY after region 0: entry (r, j) is the sum over k of x(r,k) * Wt(k,j), at every index. -/
theorem lin0_final (c : Dev nD) : (dat0 V c).arrAt 2 cfg0.N = G0 (V c main_arg0) (V c main_v28) :=
  (dat0 V c).arrAt_eq_of_cover 2 (G0 (V c main_arg0) (V c main_v28)) (fun t _ => flushed0_eq V c t) cover0

/-! ## Region 2: the same product with 64 contracted columns -/

/-! The operand indices of the [5000,64] x [64,64] block product at an output index and a contraction index. -/

theorem lhs2_0 (i : S5000x64.Idx) (q : dot_S5000x64_S64x64_S5000x64_1_0_0_1_n_n.contr.Idx) :
    (dot_S5000x64_S64x64_S5000x64_1_0_0_1_n_n.lhsIdx i q 0).val = (i 0).val := by
  unfold DotDims.lhsIdx
  rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
  rfl
theorem lhs2_1 (i : S5000x64.Idx) (q : dot_S5000x64_S64x64_S5000x64_1_0_0_1_n_n.contr.Idx) :
    (dot_S5000x64_S64x64_S5000x64_1_0_0_1_n_n.lhsIdx i q 1).val = (q ⟨0, by decide⟩).val :=
  dot_S5000x64_S64x64_S5000x64_1_0_0_1_n_n.lhsIdx_val_of_single rfl i q
theorem rhs2_0 (i : S5000x64.Idx) (q : dot_S5000x64_S64x64_S5000x64_1_0_0_1_n_n.contr.Idx) :
    (dot_S5000x64_S64x64_S5000x64_1_0_0_1_n_n.rhsIdx i q 0).val = (q ⟨0, by decide⟩).val :=
  dot_S5000x64_S64x64_S5000x64_1_0_0_1_n_n.rhsIdx_val_of_single rfl i q
theorem rhs2_1 (i : S5000x64.Idx) (q : dot_S5000x64_S64x64_S5000x64_1_0_0_1_n_n.contr.Idx) :
    (dot_S5000x64_S64x64_S5000x64_1_0_0_1_n_n.rhsIdx i q 1).val = (i 1).val := by
  unfold DotDims.rhsIdx
  rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
  rfl

/-- The block product read at (p, q): the sum over k of x(p,k) * w(k,q). -/
theorem pay2_apply (x : Vec Ideal S5000x64 .f32) (w : Vec Ideal S64x64 .f32) (p : Fin 5000) (q : Fin 64) :
    k2_pay1 (F := Ideal) x w (ix2 p q) = ∑ k : Fin 64, x (ix2 p k) * w (ix2 k q) := by
  unfold k2_pay1
  simp only [matmul]
  rw [shapeCast_self, shapeCast_self]
  refine (Ideal.matmul_constant_zero_apply dot_S5000x64_S64x64_S5000x64_1_0_0_1_n_n none _ _ (ix2 p q)).trans ?_
  rw [← Equiv.sum_comp (ValueIdx.contrEquiv1 dot_S5000x64_S64x64_S5000x64_1_0_0_1_n_n 64 rfl rfl).symm]
  refine Finset.sum_congr rfl fun k _ => ?_
  have hk := ValueIdx.contrEquiv1_symm_val dot_S5000x64_S64x64_S5000x64_1_0_0_1_n_n 64 rfl rfl k
  have el : dot_S5000x64_S64x64_S5000x64_1_0_0_1_n_n.lhsIdx (ix2 p q) ((ValueIdx.contrEquiv1 dot_S5000x64_S64x64_S5000x64_1_0_0_1_n_n 64 rfl rfl).symm k) = ix2 p k := funext fun a => Fin.ext (by
    match a with
    | ⟨0, _⟩ => exact lhs2_0 _ _
    | ⟨1, _⟩ => exact (lhs2_1 _ _).trans hk)
  have er : dot_S5000x64_S64x64_S5000x64_1_0_0_1_n_n.rhsIdx (ix2 p q) ((ValueIdx.contrEquiv1 dot_S5000x64_S64x64_S5000x64_1_0_0_1_n_n 64 rfl rfl).symm k) = ix2 k q := funext fun a => Fin.ext (by
    match a with
    | ⟨0, _⟩ => exact (rhs2_0 _ _).trans hk
    | ⟨1, _⟩ => exact rhs2_1 _ _)
  rw [truncf_apply, truncf_apply, el, er]

/-- The product array: entry (r, j) is the sum over k of x(r,k) * w(k,j). -/
abbrev G2 (x : S100000x64.Idx → Elt Ideal .f32) (w : S64x64.Idx → Elt Ideal .f32) : S100000x64.Idx → Elt Ideal .f32 :=
  fun i => ∑ k : Fin 64, x (ix2 (i 0) k) * w (ix2 k (i 1))

/-- The index maps over the grid: point t reads row block t of x and the whole of Wt, and writes row block t. -/
theorem idx_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What point t writes back is block t of the product array. -/
theorem flushed2_eq (c : Dev nD) (t : Fin cfg2.N) :
    (dat2 V c).flushed 2 t = ((cfg2.win 2).blk t).view.read (Elt Ideal) (G2 (V c main_v63) (V c main_v64)) := by
  show (cfg2.win 2).cut (grid2.coords t) ((dat2 V c).after 2 t) = _
  rw [after2_2]
  unfold out2_2
  rw [View.canon_unit_zero hz]
  simp only [View.ld_unit_zero (S := S5000x64) hz, View.ld_unit_zero (S := S64x64) hz]
  obtain ⟨e0, e1, e2, e3, e4, e5⟩ := idx_facts2 t
  funext j
  obtain ⟨p, q, rfl⟩ : ∃ (p : Fin 5000) (q : Fin 64), j = ix2 p q := ⟨j 0, j 1, eq_ix2 j⟩
  show k2_pay1 (F := Ideal) (iblk2 V c 0 t) (iblk2 V c 1 t) (ix2 p q) = G2 (V c main_v63) (V c main_v64) (((cfg2.win 2).blk t).view.emb (ix2 p q))
  refine (pay2_apply _ _ p q).trans ?_
  refine Finset.sum_congr rfl fun k _ => ?_
  have hx : (iblk2 V c 0 t : Vec Ideal S5000x64 .f32) (ix2 p k) = V c main_v63 (ix2 (((cfg2.win 2).blk t).view.emb (ix2 p q) 0) k) := by
    show V c main_v63 (((cfg2.win 0).blk t).view.emb (ix2 p k)) = _
    refine congrArg (V c main_v63) (funext fun a => Fin.ext ?_)
    match a with
    | ⟨0, _⟩ => show win2_0.index t (0 : Fin 2) * 5000 + 1 * p.val = win2_2.index t (0 : Fin 2) * 5000 + 1 * p.val; omega
    | ⟨1, _⟩ => show win2_0.index t (1 : Fin 2) * 64 + 1 * k.val = k.val; omega
  have hw : (iblk2 V c 1 t : Vec Ideal S64x64 .f32) (ix2 k q) = V c main_v64 (ix2 k (((cfg2.win 2).blk t).view.emb (ix2 p q) 1)) := by
    show V c main_v64 (((cfg2.win 1).blk t).view.emb (ix2 k q)) = _
    refine congrArg (V c main_v64) (funext fun a => Fin.ext ?_)
    match a with
    | ⟨0, _⟩ => show win2_1.index t (0 : Fin 2) * 64 + 1 * k.val = k.val; omega
    | ⟨1, _⟩ => show win2_1.index t (1 : Fin 2) * 64 + 1 * q.val = win2_2.index t (1 : Fin 2) * 64 + 1 * q.val; omega
  rw [hx, hw]

/-- An index of the array is in point t's block iff each coordinate is in the block's range on its axis. -/
theorem mem_blk2 (t : Fin cfg2.N) (i : S100000x64.Idx) :
    i ∈ ((cfg2.win 2).blk t).view.set ↔ ∀ a : Fin 2, win2_2.index t a * S5000x64.size a ≤ (i a).val ∧ (i a).val < win2_2.index t a * S5000x64.size a + S5000x64.size a := by
  show i ∈ ((View.whole main_v65).slice (win2_2.rect t)).set ↔ _
  rw [View.set_slice_whole, Rect.mem_set_unit]
  exact Iff.rfl

/-- The 20 blocks of 5000 rows tile the 100000 rows: row r is in the block of point r / 5000. -/
theorem cover2 (i : S100000x64.Idx) :
    ∃ t : Fin cfg2.N, (cfg2.win 2).flush t = true ∧ i ∈ ((cfg2.win 2).blk t).view.set := by
  have hi0 : (i 0).val < 100000 := (i 0).isLt
  have hi1 : (i 1).val < 64 := (i 1).isLt
  obtain ⟨t, ht⟩ : ∃ t : Fin cfg2.N, t.val = (i 0).val / 5000 :=
    ⟨⟨(i 0).val / 5000, by rw [show cfg2.N = 20 from N_2]; omega⟩, rfl⟩
  obtain ⟨e0, e1, e2, e3, e4, e5⟩ := idx_facts2 t
  refine ⟨t, flush2_2 t, ?_⟩
  rw [mem_blk2]
  intro a
  match a with
  | ⟨0, _⟩ => show win2_2.index t (0 : Fin 2) * 5000 ≤ (i 0).val ∧ (i 0).val < win2_2.index t (0 : Fin 2) * 5000 + 5000; omega
  | ⟨1, _⟩ => show win2_2.index t (1 : Fin 2) * 64 ≤ (i 1).val ∧ (i 1).val < win2_2.index t (1 : Fin 2) * 64 + 64; omega

/-- The product array at an index. -/
theorem G2_apply (x : S100000x64.Idx → Elt Ideal .f32) (w : S64x64.Idx → Elt Ideal .f32) (i : S100000x64.Idx) :
    G2 x w i = ∑ k : Fin 64, x (ix2 (i 0) k) * w (ix2 k (i 1)) := rfl

/-- THE ARRAY after region 2: entry (r, j) is the sum over k of x(r,k) * Wt(k,j), at every index. -/
theorem lin2_final (c : Dev nD) : (dat2 V c).arrAt 2 cfg2.N = G2 (V c main_v63) (V c main_v64) :=
  (dat2 V c).arrAt_eq_of_cover 2 (G2 (V c main_v63) (V c main_v64)) (fun t _ => flushed2_eq V c t) cover2

/-! ## The host's products, in the same form -/

theorem lhsH22_0 (i : Cert.ReferenceIdeal.S100000x64.Idx) (q : Cert.ReferenceIdeal.dot_S100000x22_S22x64_S100000x64_1_0_0_1_n_n.contr.Idx) :
    (Cert.ReferenceIdeal.dot_S100000x22_S22x64_S100000x64_1_0_0_1_n_n.lhsIdx i q 0).val = (i 0).val := by
  unfold DotDims.lhsIdx
  rw [dif_neg (show ¬(0 : Fin Cert.ReferenceIdeal.S100000x22.rank) ∈ Cert.ReferenceIdeal.dot_S100000x22_S22x64_S100000x64_1_0_0_1_n_n.lhsBatch by decide), dif_pos (show (0 : Fin Cert.ReferenceIdeal.S100000x22.rank) ∈ Cert.ReferenceIdeal.dot_S100000x22_S22x64_S100000x64_1_0_0_1_n_n.lhsNonContracting by decide)]
  rfl
theorem lhsH22_1 (i : Cert.ReferenceIdeal.S100000x64.Idx) (q : Cert.ReferenceIdeal.dot_S100000x22_S22x64_S100000x64_1_0_0_1_n_n.contr.Idx) :
    (Cert.ReferenceIdeal.dot_S100000x22_S22x64_S100000x64_1_0_0_1_n_n.lhsIdx i q 1).val = (q ⟨0, by decide⟩).val :=
  Cert.ReferenceIdeal.dot_S100000x22_S22x64_S100000x64_1_0_0_1_n_n.lhsIdx_val_of_single rfl i q
theorem rhsH22_0 (i : Cert.ReferenceIdeal.S100000x64.Idx) (q : Cert.ReferenceIdeal.dot_S100000x22_S22x64_S100000x64_1_0_0_1_n_n.contr.Idx) :
    (Cert.ReferenceIdeal.dot_S100000x22_S22x64_S100000x64_1_0_0_1_n_n.rhsIdx i q 0).val = (q ⟨0, by decide⟩).val :=
  Cert.ReferenceIdeal.dot_S100000x22_S22x64_S100000x64_1_0_0_1_n_n.rhsIdx_val_of_single rfl i q
theorem rhsH22_1 (i : Cert.ReferenceIdeal.S100000x64.Idx) (q : Cert.ReferenceIdeal.dot_S100000x22_S22x64_S100000x64_1_0_0_1_n_n.contr.Idx) :
    (Cert.ReferenceIdeal.dot_S100000x22_S22x64_S100000x64_1_0_0_1_n_n.rhsIdx i q 1).val = (i 1).val := by
  unfold DotDims.rhsIdx
  rw [dif_neg (show ¬(1 : Fin Cert.ReferenceIdeal.S22x64.rank) ∈ Cert.ReferenceIdeal.dot_S100000x22_S22x64_S100000x64_1_0_0_1_n_n.rhsBatch by decide), dif_pos (show (1 : Fin Cert.ReferenceIdeal.S22x64.rank) ∈ Cert.ReferenceIdeal.dot_S100000x22_S22x64_S100000x64_1_0_0_1_n_n.rhsNonContracting by decide)]
  rfl

/-- The host's product of a [100000,22] array by a [22,64] array, index by index: entry (r, j) is the sum over k of
    x(r,k) * w(k,j). -/
theorem hostH22_dot {φ₁ φ₂ : FTy} (x : FVec Ideal Cert.ReferenceIdeal.S100000x22 φ₁) (w : FVec Ideal Cert.ReferenceIdeal.S22x64 φ₂) :
    Host.dotGeneral (F := Ideal) Cert.ReferenceIdeal.dot_S100000x22_S22x64_S100000x64_1_0_0_1_n_n none x w
      = fun i : Cert.ReferenceIdeal.S100000x64.Idx => ∑ k : Fin 22, x (ix2 (i 0) k) * w (ix2 k (i 1)) := by
  funext i
  simp only [Host.dotGeneral]
  rw [Ideal.dotGeneral_apply, ← Equiv.sum_comp (ValueIdx.contrEquiv1 Cert.ReferenceIdeal.dot_S100000x22_S22x64_S100000x64_1_0_0_1_n_n 22 rfl rfl).symm]
  refine Finset.sum_congr rfl fun k _ => ?_
  have hk := ValueIdx.contrEquiv1_symm_val Cert.ReferenceIdeal.dot_S100000x22_S22x64_S100000x64_1_0_0_1_n_n 22 rfl rfl k
  have el : Cert.ReferenceIdeal.dot_S100000x22_S22x64_S100000x64_1_0_0_1_n_n.lhsIdx i ((ValueIdx.contrEquiv1 Cert.ReferenceIdeal.dot_S100000x22_S22x64_S100000x64_1_0_0_1_n_n 22 rfl rfl).symm k) = ix2 (i 0) k := funext fun a => Fin.ext (by
    match a with
    | ⟨0, _⟩ => exact lhsH22_0 _ _
    | ⟨1, _⟩ => exact (lhsH22_1 _ _).trans hk)
  have er : Cert.ReferenceIdeal.dot_S100000x22_S22x64_S100000x64_1_0_0_1_n_n.rhsIdx i ((ValueIdx.contrEquiv1 Cert.ReferenceIdeal.dot_S100000x22_S22x64_S100000x64_1_0_0_1_n_n 22 rfl rfl).symm k) = ix2 k (i 1) := funext fun a => Fin.ext (by
    match a with
    | ⟨0, _⟩ => exact (rhsH22_0 _ _).trans hk
    | ⟨1, _⟩ => exact rhsH22_1 _ _)
  rw [el, er]
  rfl

theorem lhsH64_0 (i : Cert.ReferenceIdeal.S100000x64.Idx) (q : Cert.ReferenceIdeal.dot_S100000x64_S64x64_S100000x64_1_0_0_1_n_n.contr.Idx) :
    (Cert.ReferenceIdeal.dot_S100000x64_S64x64_S100000x64_1_0_0_1_n_n.lhsIdx i q 0).val = (i 0).val := by
  unfold DotDims.lhsIdx
  rw [dif_neg (show ¬(0 : Fin Cert.ReferenceIdeal.S100000x64.rank) ∈ Cert.ReferenceIdeal.dot_S100000x64_S64x64_S100000x64_1_0_0_1_n_n.lhsBatch by decide), dif_pos (show (0 : Fin Cert.ReferenceIdeal.S100000x64.rank) ∈ Cert.ReferenceIdeal.dot_S100000x64_S64x64_S100000x64_1_0_0_1_n_n.lhsNonContracting by decide)]
  rfl
theorem lhsH64_1 (i : Cert.ReferenceIdeal.S100000x64.Idx) (q : Cert.ReferenceIdeal.dot_S100000x64_S64x64_S100000x64_1_0_0_1_n_n.contr.Idx) :
    (Cert.ReferenceIdeal.dot_S100000x64_S64x64_S100000x64_1_0_0_1_n_n.lhsIdx i q 1).val = (q ⟨0, by decide⟩).val :=
  Cert.ReferenceIdeal.dot_S100000x64_S64x64_S100000x64_1_0_0_1_n_n.lhsIdx_val_of_single rfl i q
theorem rhsH64_0 (i : Cert.ReferenceIdeal.S100000x64.Idx) (q : Cert.ReferenceIdeal.dot_S100000x64_S64x64_S100000x64_1_0_0_1_n_n.contr.Idx) :
    (Cert.ReferenceIdeal.dot_S100000x64_S64x64_S100000x64_1_0_0_1_n_n.rhsIdx i q 0).val = (q ⟨0, by decide⟩).val :=
  Cert.ReferenceIdeal.dot_S100000x64_S64x64_S100000x64_1_0_0_1_n_n.rhsIdx_val_of_single rfl i q
theorem rhsH64_1 (i : Cert.ReferenceIdeal.S100000x64.Idx) (q : Cert.ReferenceIdeal.dot_S100000x64_S64x64_S100000x64_1_0_0_1_n_n.contr.Idx) :
    (Cert.ReferenceIdeal.dot_S100000x64_S64x64_S100000x64_1_0_0_1_n_n.rhsIdx i q 1).val = (i 1).val := by
  unfold DotDims.rhsIdx
  rw [dif_neg (show ¬(1 : Fin Cert.ReferenceIdeal.S64x64.rank) ∈ Cert.ReferenceIdeal.dot_S100000x64_S64x64_S100000x64_1_0_0_1_n_n.rhsBatch by decide), dif_pos (show (1 : Fin Cert.ReferenceIdeal.S64x64.rank) ∈ Cert.ReferenceIdeal.dot_S100000x64_S64x64_S100000x64_1_0_0_1_n_n.rhsNonContracting by decide)]
  rfl

/-- The host's product of a [100000,64] array by a [64,64] array, index by index: entry (r, j) is the sum over k of
    x(r,k) * w(k,j). -/
theorem hostH64_dot {φ₁ φ₂ : FTy} (x : FVec Ideal Cert.ReferenceIdeal.S100000x64 φ₁) (w : FVec Ideal Cert.ReferenceIdeal.S64x64 φ₂) :
    Host.dotGeneral (F := Ideal) Cert.ReferenceIdeal.dot_S100000x64_S64x64_S100000x64_1_0_0_1_n_n none x w
      = fun i : Cert.ReferenceIdeal.S100000x64.Idx => ∑ k : Fin 64, x (ix2 (i 0) k) * w (ix2 k (i 1)) := by
  funext i
  simp only [Host.dotGeneral]
  rw [Ideal.dotGeneral_apply, ← Equiv.sum_comp (ValueIdx.contrEquiv1 Cert.ReferenceIdeal.dot_S100000x64_S64x64_S100000x64_1_0_0_1_n_n 64 rfl rfl).symm]
  refine Finset.sum_congr rfl fun k _ => ?_
  have hk := ValueIdx.contrEquiv1_symm_val Cert.ReferenceIdeal.dot_S100000x64_S64x64_S100000x64_1_0_0_1_n_n 64 rfl rfl k
  have el : Cert.ReferenceIdeal.dot_S100000x64_S64x64_S100000x64_1_0_0_1_n_n.lhsIdx i ((ValueIdx.contrEquiv1 Cert.ReferenceIdeal.dot_S100000x64_S64x64_S100000x64_1_0_0_1_n_n 64 rfl rfl).symm k) = ix2 (i 0) k := funext fun a => Fin.ext (by
    match a with
    | ⟨0, _⟩ => exact lhsH64_0 _ _
    | ⟨1, _⟩ => exact (lhsH64_1 _ _).trans hk)
  have er : Cert.ReferenceIdeal.dot_S100000x64_S64x64_S100000x64_1_0_0_1_n_n.rhsIdx i ((ValueIdx.contrEquiv1 Cert.ReferenceIdeal.dot_S100000x64_S64x64_S100000x64_1_0_0_1_n_n 64 rfl rfl).symm k) = ix2 k (i 1) := funext fun a => Fin.ext (by
    match a with
    | ⟨0, _⟩ => exact (rhsH64_0 _ _).trans hk
    | ⟨1, _⟩ => exact rhsH64_1 _ _)
  rw [el, er]
  rfl

end Cert.KernelIdeal.RegionLin

end
-- ==== Proof.RegionAffine.lean ====
/- The two affine-then-rectifier regions of the kernel program, read as values: each stages blocks of 10000 rows of a
   [100000, 64] array together with a whole [1, 64] scale row and a whole [1, 64] shift row over a grid of ten points,
   and writes back, row block by row block, every element scaled by its lane's scale, shifted by its lane's shift, and
   then the maximum with zero. Proved here, at the ideal (extended-real) instance and for any buffer contents `V` at
   the region's entry: the body's payload at an index (`pay1_apply`, `pay3_apply`), what a grid point writes back as a
   block of one whole-array function `G` (`flushed1_eq`, `flushed3_eq`), that the ten blocks cover the array
   (`cover1`, `cover3`), and so the output array after the region (`aff1_final`, `aff3_final`). -/
import proofs.«178469_j62732292326003_1_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

namespace Cert.KernelIdeal.RegionAffine

open Cert.KernelIdeal Cert.KernelIdeal.Gen
open Idealize.ShloMosaic Idealize.ShloMosaic.TcCoe Idealize.ShloMosaic.Tactic
open Idealize.SL Idealize.SL.Sem
open Idealize.ShloMosaic.Pipeline (Dat Cfg Window)
open Idealize.ShloMosaic.ValueIdx

variable (V : (c : Dev nD) → (b : Ref sig .tc) → Buf (Elt Ideal) ((c : Thread nD τ).loc b))

/-! ## The payload at an index -/

theorem hz : (![0, 0] : Fin 2 → Nat) = fun _ => 0 := funext fun a => by fin_cases a <;> rfl

/-- A row vector broadcast along the rows, read at row `p` and lane `q`, is the row vector at lane `q`. -/
theorem bcast_row_apply (x : Vec Ideal S1x64 .f32) (p : Fin 10000) (q : Fin 64) :
    broadcastTo S10000x64 x broadcasts_S1x64_S10000x64 (ix2 p q) = x (ix2 0 q) :=
  broadcastTo_apply x _ (ix2 p q) (ix2 0 q) fun a => by
    match a with
    | ⟨0, _⟩ => rfl
    | ⟨1, _⟩ => rfl

/-- The body's payload at row `p` and lane `q`: the element scaled and shifted by the lane's scale and shift, then
    the maximum with zero. -/
theorem pay1_apply (x0 : Vec Ideal S10000x64 .f32) (x1 x2 : Vec Ideal S1x64 .f32) (p : Fin 10000) (q : Fin 64) :
    k1_pay1 x0 x1 x2 (ix2 p q) = max (x0 (ix2 p q) * x1 (ix2 0 q) + x2 (ix2 0 q)) 0 := by
  unfold k1_pay1
  simp only [maximumf_apply, addf_apply, mulf_apply, broadcast_apply, shapeCast_self]
  rw [bcast_row_apply x1 p q, bcast_row_apply x2 p q, Ideal.ofBits_def, Ideal.ofBits_zero_f32]

/-- The body's payload at row `p` and lane `q`: the element scaled and shifted by the lane's scale and shift, then
    the maximum with zero. -/
theorem pay3_apply (x0 : Vec Ideal S10000x64 .f32) (x1 x2 : Vec Ideal S1x64 .f32) (p : Fin 10000) (q : Fin 64) :
    k3_pay1 x0 x1 x2 (ix2 p q) = max (x0 (ix2 p q) * x1 (ix2 0 q) + x2 (ix2 0 q)) 0 := by
  unfold k3_pay1
  simp only [maximumf_apply, addf_apply, mulf_apply, broadcast_apply, shapeCast_self]
  rw [bcast_row_apply x1 p q, bcast_row_apply x2 p q, Ideal.ofBits_def, Ideal.ofBits_zero_f32]

/-! ## The whole-array function -/

/-- The affine map followed by the rectifier, index by index: each element of `a` scaled by its lane's entry of the
    scale row `s`, shifted by its lane's entry of the shift row `b`, then the maximum with zero. -/
abbrev G (a : S100000x64.Idx → EReal) (s b : S1x64.Idx → EReal) : S100000x64.Idx → EReal :=
  fun i => max (a i * s (ix2 0 (i 1)) + b (ix2 0 (i 1))) 0

/-- `G` at row `r` and lane `q`. -/
theorem G_apply (a : S100000x64.Idx → EReal) (s b : S1x64.Idx → EReal) (r : Fin 100000) (q : Fin 64) :
    G a s b (ix2 r q) = max (a (ix2 r q) * s (ix2 0 q) + b (ix2 0 q)) 0 := rfl

/-! ## Region 1: the output array after the region -/

/-- The index maps over the ten grid points: the data window and the output window sit at row block `t`, lane block 0;
    the scale and shift windows at block (0, 0). -/
theorem idx_facts1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- At point `t`, row `p` and lane `q` of the blocks: the data block's element is the array's under the output block's,
    and the scale and shift blocks' elements at lane `q` are the rows' at that element's lane. -/
theorem blk_point1 (A : S100000x64.Idx → EReal) (s b : S1x64.Idx → EReal) (t : Fin cfg1.N) (p : Fin 10000) (q : Fin 64) :
    max (A (((cfg1.win 0).blk t).view.emb (ix2 p q)) * s (((cfg1.win 1).blk t).view.emb (ix2 0 q))
        + b (((cfg1.win 2).blk t).view.emb (ix2 0 q))) 0
      = G A s b (((cfg1.win 3).blk t).view.emb (ix2 p q)) := by
  obtain ⟨e00, e01, e10, e11, e20, e21, e30, e31⟩ := idx_facts1 t
  have h0 : ((cfg1.win 0).blk t).view.emb (ix2 p q) = ((cfg1.win 3).blk t).view.emb (ix2 p q) := by
    funext a; apply Fin.ext
    match a with
    | ⟨0, _⟩ => show win1_0.index t (0 : Fin 2) * 10000 + 1 * p.val = win1_3.index t (0 : Fin 2) * 10000 + 1 * p.val; omega
    | ⟨1, _⟩ => show win1_0.index t (1 : Fin 2) * 64 + 1 * q.val = win1_3.index t (1 : Fin 2) * 64 + 1 * q.val; omega
  have h1 : ((cfg1.win 1).blk t).view.emb (ix2 0 q) = ix2 0 ((((cfg1.win 3).blk t).view.emb (ix2 p q)) 1) := by
    funext a; apply Fin.ext
    match a with
    | ⟨0, _⟩ => show win1_1.index t (0 : Fin 2) * 1 + 1 * 0 = 0; omega
    | ⟨1, _⟩ => show win1_1.index t (1 : Fin 2) * 64 + 1 * q.val = win1_3.index t (1 : Fin 2) * 64 + 1 * q.val; omega
  have h2 : ((cfg1.win 2).blk t).view.emb (ix2 0 q) = ix2 0 ((((cfg1.win 3).blk t).view.emb (ix2 p q)) 1) := by
    funext a; apply Fin.ext
    match a with
    | ⟨0, _⟩ => show win1_2.index t (0 : Fin 2) * 1 + 1 * 0 = 0; omega
    | ⟨1, _⟩ => show win1_2.index t (1 : Fin 2) * 64 + 1 * q.val = win1_3.index t (1 : Fin 2) * 64 + 1 * q.val; omega
  rw [h0, h1, h2]
  rfl

/-- What point `t` writes back is block `t` of `G` of the three arrays as the region finds them. -/
theorem flushed1_eq (c : Dev nD) (t : Fin cfg1.N) :
    (dat1 V c).flushed 3 t = ((cfg1.win 3).blk t).view.read (Elt Ideal) (G (V c main_v44) (V c main_v61) (V c main_v62)) := by
  show (cfg1.win 3).cut (grid1.coords t) ((dat1 V c).after 3 t) = _
  rw [after1_3]
  unfold out1_3
  rw [View.canon_unit_zero hz]
  simp only [View.ld_unit_zero (S := S10000x64) hz, View.ld_unit_zero (S := S1x64) hz]
  funext j
  obtain ⟨p, q, rfl⟩ : ∃ (p : Fin 10000) (q : Fin 64), j = ix2 p q := ⟨j 0, j 1, eq_ix2 j⟩
  show k1_pay1 (iblk1 V c 0 t) (iblk1 V c 1 t) (iblk1 V c 2 t) (ix2 p q) = _
  refine (pay1_apply _ _ _ p q).trans ?_
  exact blk_point1 (V c main_v44) (V c main_v61) (V c main_v62) t p q

/-- An index of the array is in point `t`'s block iff each coordinate is in the block's range on its axis. -/
theorem mem_blk1 (t : Fin cfg1.N) (i : S100000x64.Idx) :
    i ∈ ((cfg1.win 3).blk t).view.set ↔ ∀ a : Fin 2, win1_3.index t a * S10000x64.size a ≤ (i a).val ∧ (i a).val < win1_3.index t a * S10000x64.size a + S10000x64.size a := by
  show i ∈ ((View.whole main_v63).slice (win1_3.rect t)).set ↔ _
  rw [View.set_slice_whole, Rect.mem_set_unit]
  exact Iff.rfl

/-- The ten blocks of 10000 rows tile the 100000 rows: row `r` is in the block of point `r / 10000`. -/
theorem cover1 (i : S100000x64.Idx) : ∃ t : Fin cfg1.N, (cfg1.win 3).flush t = true ∧ i ∈ ((cfg1.win 3).blk t).view.set := by
  have hi0 : (i 0).val < 100000 := (i 0).isLt
  have hi1 : (i 1).val < 64 := (i 1).isLt
  obtain ⟨t, ht⟩ : ∃ t : Fin cfg1.N, t.val = (i 0).val / 10000 :=
    ⟨⟨(i 0).val / 10000, by show _ < grid1.N; rw [N_1]; omega⟩, rfl⟩
  obtain ⟨-, -, -, -, -, -, e30, e31⟩ := idx_facts1 t
  refine ⟨t, flush1_3 t, ?_⟩
  rw [mem_blk1]
  intro a
  match a with
  | ⟨0, _⟩ => show win1_3.index t (0 : Fin 2) * 10000 ≤ (i 0).val ∧ (i 0).val < win1_3.index t (0 : Fin 2) * 10000 + 10000; omega
  | ⟨1, _⟩ => show win1_3.index t (1 : Fin 2) * 64 ≤ (i 1).val ∧ (i 1).val < win1_3.index t (1 : Fin 2) * 64 + 64; omega

/-- The output array after the region: every element of the data array scaled by its lane's scale, shifted by its
    lane's shift, then the maximum with zero. -/
theorem aff1_final (c : Dev nD) : (dat1 V c).arrAt 3 cfg1.N = G (V c main_v44) (V c main_v61) (V c main_v62) :=
  (dat1 V c).arrAt_eq_of_cover 3 (G (V c main_v44) (V c main_v61) (V c main_v62)) (fun t _ => flushed1_eq V c t) cover1

/-! ## Region 3: the output array after the region -/

/-- The index maps over the ten grid points: the data window and the output window sit at row block `t`, lane block 0;
    the scale and shift windows at block (0, 0). -/
theorem idx_facts3 : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

/-- At point `t`, row `p` and lane `q` of the blocks: the data block's element is the array's under the output block's,
    and the scale and shift blocks' elements at lane `q` are the rows' at that element's lane. -/
theorem blk_point3 (A : S100000x64.Idx → EReal) (s b : S1x64.Idx → EReal) (t : Fin cfg3.N) (p : Fin 10000) (q : Fin 64) :
    max (A (((cfg3.win 0).blk t).view.emb (ix2 p q)) * s (((cfg3.win 1).blk t).view.emb (ix2 0 q))
        + b (((cfg3.win 2).blk t).view.emb (ix2 0 q))) 0
      = G A s b (((cfg3.win 3).blk t).view.emb (ix2 p q)) := by
  obtain ⟨e00, e01, e10, e11, e20, e21, e30, e31⟩ := idx_facts3 t
  have h0 : ((cfg3.win 0).blk t).view.emb (ix2 p q) = ((cfg3.win 3).blk t).view.emb (ix2 p q) := by
    funext a; apply Fin.ext
    match a with
    | ⟨0, _⟩ => show win3_0.index t (0 : Fin 2) * 10000 + 1 * p.val = win3_3.index t (0 : Fin 2) * 10000 + 1 * p.val; omega
    | ⟨1, _⟩ => show win3_0.index t (1 : Fin 2) * 64 + 1 * q.val = win3_3.index t (1 : Fin 2) * 64 + 1 * q.val; omega
  have h1 : ((cfg3.win 1).blk t).view.emb (ix2 0 q) = ix2 0 ((((cfg3.win 3).blk t).view.emb (ix2 p q)) 1) := by
    funext a; apply Fin.ext
    match a with
    | ⟨0, _⟩ => show win3_1.index t (0 : Fin 2) * 1 + 1 * 0 = 0; omega
    | ⟨1, _⟩ => show win3_1.index t (1 : Fin 2) * 64 + 1 * q.val = win3_3.index t (1 : Fin 2) * 64 + 1 * q.val; omega
  have h2 : ((cfg3.win 2).blk t).view.emb (ix2 0 q) = ix2 0 ((((cfg3.win 3).blk t).view.emb (ix2 p q)) 1) := by
    funext a; apply Fin.ext
    match a with
    | ⟨0, _⟩ => show win3_2.index t (0 : Fin 2) * 1 + 1 * 0 = 0; omega
    | ⟨1, _⟩ => show win3_2.index t (1 : Fin 2) * 64 + 1 * q.val = win3_3.index t (1 : Fin 2) * 64 + 1 * q.val; omega
  rw [h0, h1, h2]
  rfl

/-- What point `t` writes back is block `t` of `G` of the three arrays as the region finds them. -/
theorem flushed3_eq (c : Dev nD) (t : Fin cfg3.N) :
    (dat3 V c).flushed 3 t = ((cfg3.win 3).blk t).view.read (Elt Ideal) (G (V c main_v80) (V c main_v97) (V c main_v98)) := by
  show (cfg3.win 3).cut (grid3.coords t) ((dat3 V c).after 3 t) = _
  rw [after3_3]
  unfold out3_3
  rw [View.canon_unit_zero hz]
  simp only [View.ld_unit_zero (S := S10000x64) hz, View.ld_unit_zero (S := S1x64) hz]
  funext j
  obtain ⟨p, q, rfl⟩ : ∃ (p : Fin 10000) (q : Fin 64), j = ix2 p q := ⟨j 0, j 1, eq_ix2 j⟩
  show k3_pay1 (iblk3 V c 0 t) (iblk3 V c 1 t) (iblk3 V c 2 t) (ix2 p q) = _
  refine (pay3_apply _ _ _ p q).trans ?_
  exact blk_point3 (V c main_v80) (V c main_v97) (V c main_v98) t p q

/-- An index of the array is in point `t`'s block iff each coordinate is in the block's range on its axis. -/
theorem mem_blk3 (t : Fin cfg3.N) (i : S100000x64.Idx) :
    i ∈ ((cfg3.win 3).blk t).view.set ↔ ∀ a : Fin 2, win3_3.index t a * S10000x64.size a ≤ (i a).val ∧ (i a).val < win3_3.index t a * S10000x64.size a + S10000x64.size a := by
  show i ∈ ((View.whole main_v99).slice (win3_3.rect t)).set ↔ _
  rw [View.set_slice_whole, Rect.mem_set_unit]
  exact Iff.rfl

/-- The ten blocks of 10000 rows tile the 100000 rows: row `r` is in the block of point `r / 10000`. -/
theorem cover3 (i : S100000x64.Idx) : ∃ t : Fin cfg3.N, (cfg3.win 3).flush t = true ∧ i ∈ ((cfg3.win 3).blk t).view.set := by
  have hi0 : (i 0).val < 100000 := (i 0).isLt
  have hi1 : (i 1).val < 64 := (i 1).isLt
  obtain ⟨t, ht⟩ : ∃ t : Fin cfg3.N, t.val = (i 0).val / 10000 :=
    ⟨⟨(i 0).val / 10000, by show _ < grid3.N; rw [N_3]; omega⟩, rfl⟩
  obtain ⟨-, -, -, -, -, -, e30, e31⟩ := idx_facts3 t
  refine ⟨t, flush3_3 t, ?_⟩
  rw [mem_blk3]
  intro a
  match a with
  | ⟨0, _⟩ => show win3_3.index t (0 : Fin 2) * 10000 ≤ (i 0).val ∧ (i 0).val < win3_3.index t (0 : Fin 2) * 10000 + 10000; omega
  | ⟨1, _⟩ => show win3_3.index t (1 : Fin 2) * 64 ≤ (i 1).val ∧ (i 1).val < win3_3.index t (1 : Fin 2) * 64 + 64; omega

/-- The output array after the region: every element of the data array scaled by its lane's scale, shifted by its
    lane's shift, then the maximum with zero. -/
theorem aff3_final (c : Dev nD) : (dat3 V c).arrAt 3 cfg3.N = G (V c main_v80) (V c main_v97) (V c main_v98) :=
  (dat3 V c).arrAt_eq_of_cover 3 (G (V c main_v80) (V c main_v97) (V c main_v98)) (fun t _ => flushed3_eq V c t) cover3

end Cert.KernelIdeal.RegionAffine

end
-- ==== Proof.RegionMlp.lean ====
/- The one-point two-layer kernel of region 4, read as a function of the arrays the region finds.
   Its payload at a row is the second layer's contraction over the rectified affine image of that row, plus the output
   bias; each contraction into the zero accumulator is a finite sum over the contracted axis; the one block of every window
   is its whole array, so the output array after the region is that function at every index. -/
import proofs.«178469_j62732292326003_1_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

namespace Cert.KernelIdeal.RegionMlp

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open scoped BigOperators

/-! ### The operand indices of the contraction `S2048x64 × S64x32 → S2048x32`, coordinate by coordinate -/

theorem lhsA_0 (i : S2048x32.Idx) (q : dot_S2048x64_S64x32_S2048x32_1_0_0_1_n_n.contr.Idx) :
    (dot_S2048x64_S64x32_S2048x32_1_0_0_1_n_n.lhsIdx i q 0).val = (i 0).val := by
  unfold DotDims.lhsIdx
  rw [dif_neg (show ¬(0 : Fin S2048x64.rank) ∈ dot_S2048x64_S64x32_S2048x32_1_0_0_1_n_n.lhsBatch by decide), dif_pos (show (0 : Fin S2048x64.rank) ∈ dot_S2048x64_S64x32_S2048x32_1_0_0_1_n_n.lhsNonContracting by decide)]
  rfl
theorem lhsA_1 (i : S2048x32.Idx) (q : dot_S2048x64_S64x32_S2048x32_1_0_0_1_n_n.contr.Idx) :
    (dot_S2048x64_S64x32_S2048x32_1_0_0_1_n_n.lhsIdx i q 1).val = (q ⟨0, by decide⟩).val :=
  dot_S2048x64_S64x32_S2048x32_1_0_0_1_n_n.lhsIdx_val_of_single rfl i q
theorem rhsA_0 (i : S2048x32.Idx) (q : dot_S2048x64_S64x32_S2048x32_1_0_0_1_n_n.contr.Idx) :
    (dot_S2048x64_S64x32_S2048x32_1_0_0_1_n_n.rhsIdx i q 0).val = (q ⟨0, by decide⟩).val :=
  dot_S2048x64_S64x32_S2048x32_1_0_0_1_n_n.rhsIdx_val_of_single rfl i q
theorem rhsA_1 (i : S2048x32.Idx) (q : dot_S2048x64_S64x32_S2048x32_1_0_0_1_n_n.contr.Idx) :
    (dot_S2048x64_S64x32_S2048x32_1_0_0_1_n_n.rhsIdx i q 1).val = (i 1).val := by
  unfold DotDims.rhsIdx
  rw [dif_neg (show ¬(1 : Fin S64x32.rank) ∈ dot_S2048x64_S64x32_S2048x32_1_0_0_1_n_n.rhsBatch by decide), dif_pos (show (1 : Fin S64x32.rank) ∈ dot_S2048x64_S64x32_S2048x32_1_0_0_1_n_n.rhsNonContracting by decide)]
  rfl

/-! ### The operand indices of the contraction `S2048x32 × S32x1 → S2048x1`, coordinate by coordinate -/

theorem lhsB_0 (i : S2048x1.Idx) (q : dot_S2048x32_S32x1_S2048x1_1_0_0_1_n_n.contr.Idx) :
    (dot_S2048x32_S32x1_S2048x1_1_0_0_1_n_n.lhsIdx i q 0).val = (i 0).val := by
  unfold DotDims.lhsIdx
  rw [dif_neg (show ¬(0 : Fin S2048x32.rank) ∈ dot_S2048x32_S32x1_S2048x1_1_0_0_1_n_n.lhsBatch by decide), dif_pos (show (0 : Fin S2048x32.rank) ∈ dot_S2048x32_S32x1_S2048x1_1_0_0_1_n_n.lhsNonContracting by decide)]
  rfl
theorem lhsB_1 (i : S2048x1.Idx) (q : dot_S2048x32_S32x1_S2048x1_1_0_0_1_n_n.contr.Idx) :
    (dot_S2048x32_S32x1_S2048x1_1_0_0_1_n_n.lhsIdx i q 1).val = (q ⟨0, by decide⟩).val :=
  dot_S2048x32_S32x1_S2048x1_1_0_0_1_n_n.lhsIdx_val_of_single rfl i q
theorem rhsB_0 (i : S2048x1.Idx) (q : dot_S2048x32_S32x1_S2048x1_1_0_0_1_n_n.contr.Idx) :
    (dot_S2048x32_S32x1_S2048x1_1_0_0_1_n_n.rhsIdx i q 0).val = (q ⟨0, by decide⟩).val :=
  dot_S2048x32_S32x1_S2048x1_1_0_0_1_n_n.rhsIdx_val_of_single rfl i q
theorem rhsB_1 (i : S2048x1.Idx) (q : dot_S2048x32_S32x1_S2048x1_1_0_0_1_n_n.contr.Idx) :
    (dot_S2048x32_S32x1_S2048x1_1_0_0_1_n_n.rhsIdx i q 1).val = (i 1).val := by
  unfold DotDims.rhsIdx
  rw [dif_neg (show ¬(1 : Fin S32x1.rank) ∈ dot_S2048x32_S32x1_S2048x1_1_0_0_1_n_n.rhsBatch by decide), dif_pos (show (1 : Fin S32x1.rank) ∈ dot_S2048x32_S32x1_S2048x1_1_0_0_1_n_n.rhsNonContracting by decide)]
  rfl

/-- The matrix product into the zero accumulator, read at an index: the sum over the contracted axis. -/
theorem mmA_apply (a : FVec Ideal S2048x64 .bf16) (b : FVec Ideal S64x32 .bf16) (p : Fin 2048) (r : Fin 32) :
    matmul dot_S2048x64_S64x32_S2048x32_1_0_0_1_n_n none a b (constant (F := Ideal) S2048x32 .f32 0x00000000#32) (ix2 p r)
      = ∑ k : Fin 64, a (ix2 p k) * b (ix2 k r) := by
  refine (Ideal.matmul_constant_zero_apply dot_S2048x64_S64x32_S2048x32_1_0_0_1_n_n none a b (ix2 p r)).trans ?_
  rw [← Equiv.sum_comp (contrEquiv1 dot_S2048x64_S64x32_S2048x32_1_0_0_1_n_n 64 rfl rfl).symm]
  refine Finset.sum_congr rfl fun k _ => ?_
  have hk := contrEquiv1_symm_val dot_S2048x64_S64x32_S2048x32_1_0_0_1_n_n 64 rfl rfl k
  have el : dot_S2048x64_S64x32_S2048x32_1_0_0_1_n_n.lhsIdx (ix2 p r) ((contrEquiv1 dot_S2048x64_S64x32_S2048x32_1_0_0_1_n_n 64 rfl rfl).symm k) = ix2 p k := funext fun a => Fin.ext (by
    match a with
    | ⟨0, _⟩ => exact lhsA_0 _ _
    | ⟨1, _⟩ => exact (lhsA_1 _ _).trans hk)
  have er : dot_S2048x64_S64x32_S2048x32_1_0_0_1_n_n.rhsIdx (ix2 p r) ((contrEquiv1 dot_S2048x64_S64x32_S2048x32_1_0_0_1_n_n 64 rfl rfl).symm k) = ix2 k r := funext fun a => Fin.ext (by
    match a with
    | ⟨0, _⟩ => exact (rhsA_0 _ _).trans hk
    | ⟨1, _⟩ => exact rhsA_1 _ _)
  rw [el, er]

/-- The matrix product into the zero accumulator, read at an index: the sum over the contracted axis. -/
theorem mmB_apply (a : FVec Ideal S2048x32 .bf16) (b : FVec Ideal S32x1 .bf16) (p : Fin 2048) (r : Fin 1) :
    matmul dot_S2048x32_S32x1_S2048x1_1_0_0_1_n_n none a b (constant (F := Ideal) S2048x1 .f32 0x00000000#32) (ix2 p r)
      = ∑ k : Fin 32, a (ix2 p k) * b (ix2 k r) := by
  refine (Ideal.matmul_constant_zero_apply dot_S2048x32_S32x1_S2048x1_1_0_0_1_n_n none a b (ix2 p r)).trans ?_
  rw [← Equiv.sum_comp (contrEquiv1 dot_S2048x32_S32x1_S2048x1_1_0_0_1_n_n 32 rfl rfl).symm]
  refine Finset.sum_congr rfl fun k _ => ?_
  have hk := contrEquiv1_symm_val dot_S2048x32_S32x1_S2048x1_1_0_0_1_n_n 32 rfl rfl k
  have el : dot_S2048x32_S32x1_S2048x1_1_0_0_1_n_n.lhsIdx (ix2 p r) ((contrEquiv1 dot_S2048x32_S32x1_S2048x1_1_0_0_1_n_n 32 rfl rfl).symm k) = ix2 p k := funext fun a => Fin.ext (by
    match a with
    | ⟨0, _⟩ => exact lhsB_0 _ _
    | ⟨1, _⟩ => exact (lhsB_1 _ _).trans hk)
  have er : dot_S2048x32_S32x1_S2048x1_1_0_0_1_n_n.rhsIdx (ix2 p r) ((contrEquiv1 dot_S2048x32_S32x1_S2048x1_1_0_0_1_n_n 32 rfl rfl).symm k) = ix2 k r := funext fun a => Fin.ext (by
    match a with
    | ⟨0, _⟩ => exact (rhsB_0 _ _).trans hk
    | ⟨1, _⟩ => exact rhsB_1 _ _)
  rw [el, er]

/-! ### The two row broadcasts, read at an index -/

/-- A `[1,32]` row broadcast over 2048 rows reads the row's entry of the same column. -/
theorem bcA_apply (x : FVec Ideal S1x32 .f32) (h : S1x32.Broadcasts S2048x32) (p : Fin 2048) (k : Fin 32) :
    broadcastTo S2048x32 x h (ix2 p k) = x (ix2 0 k) :=
  broadcastTo_apply x h (ix2 p k) (ix2 0 k) (fun a => match a with
    | ⟨0, _⟩ => by show (0 : Nat) = if (1 : Nat) = 1 then 0 else p.val; rw [if_pos rfl]
    | ⟨1, _⟩ => by show k.val = if (32 : Nat) = 1 then 0 else k.val; rw [if_neg (by decide)])

/-- A `[1,1]` entry broadcast over 2048 rows reads that one entry. -/
theorem bcB_apply (x : FVec Ideal S1x1 .f32) (h : S1x1.Broadcasts S2048x1) (p : Fin 2048) (q : Fin 1) :
    broadcastTo S2048x1 x h (ix2 p q) = x (ix2 0 0) :=
  broadcastTo_apply x h (ix2 p q) (ix2 0 0) (fun a => match a with
    | ⟨0, _⟩ => by show (0 : Nat) = if (1 : Nat) = 1 then 0 else p.val; rw [if_pos rfl]
    | ⟨1, _⟩ => by show (0 : Nat) = if (1 : Nat) = 1 then 0 else q.val; rw [if_pos rfl])

/-! ### The payload at an index -/

/-- The body's payload at row `p`: the second layer's product over the rectified first layer, plus the output bias. -/
theorem pay_apply (x0 : Vec Ideal S2048x64 .f32) (x1 : Vec Ideal S64x32 .f32) (x2 : Vec Ideal S1x32 .f32)
    (x3 : Vec Ideal S32x1 .f32) (x4 : Vec Ideal S1x1 .f32) (p : Fin 2048) (q : Fin 1) :
    k4_pay1 x0 x1 x2 x3 x4 (ix2 p q)
      = (∑ k : Fin 32, max ((∑ j : Fin 64, x0 (ix2 p j) * x1 (ix2 j k)) + x2 (ix2 0 k)) 0 * x3 (ix2 k 0)) + x4 (ix2 0 0) := by
  obtain rfl : q = 0 := Subsingleton.elim _ _
  unfold k4_pay1
  simp only [shapeCast_self]
  refine (addf_apply _ _ (ix2 p 0)).trans ?_
  refine congrArg₂ (· + ·) ?_ (bcB_apply _ _ p 0)
  refine (mmB_apply _ _ p 0).trans ?_
  refine Finset.sum_congr rfl fun k _ => ?_
  refine congrArg₂ (· * ·) ?_ rfl
  refine (maximumf_apply _ _ (ix2 p k)).trans ?_
  refine congrArg₂ max ?_ Ideal.ofBits_zero_f32
  refine (addf_apply _ _ (ix2 p k)).trans ?_
  exact congrArg₂ (· + ·) (mmA_apply _ _ p k) (bcA_apply _ _ p k)

/-! ### From the one block to the array -/

variable (V : (c : Dev nD) → (b : Ref sig .tc) → Buf (Elt Ideal) ((c : Thread nD τ).loc b))

theorem hz : (![0, 0] : Fin 2 → Nat) = fun _ => 0 := funext fun a => by fin_cases a <;> rfl

/-- The two-layer function of the five argument arrays, row by row: the rectified affine image of row `i 0` of the
    first, contracted with the second layer's column, plus the output bias. -/
abbrev G (a0 : S2048x64.Idx → Elt Ideal .f32) (a1 : S64x32.Idx → Elt Ideal .f32) (a2 : S1x32.Idx → Elt Ideal .f32)
    (a3 : S32x1.Idx → Elt Ideal .f32) (a4 : S1x1.Idx → Elt Ideal .f32) : S2048x1.Idx → Elt Ideal .f32 :=
  fun i => (∑ k : Fin 32, max ((∑ j : Fin 64, a0 (ix2 (i 0) j) * a1 (ix2 j k)) + a2 (ix2 0 k)) 0 * a3 (ix2 k 0)) + a4 (ix2 0 0)

/-- `G` reads its index only through the row coordinate. -/
theorem G_congr_row (a0 : S2048x64.Idx → Elt Ideal .f32) (a1 : S64x32.Idx → Elt Ideal .f32) (a2 : S1x32.Idx → Elt Ideal .f32)
    (a3 : S32x1.Idx → Elt Ideal .f32) (a4 : S1x1.Idx → Elt Ideal .f32) (i i' : S2048x1.Idx) (h : i 0 = i' 0) :
    G a0 a1 a2 a3 a4 i = G a0 a1 a2 a3 a4 i' := by
  show (∑ k : Fin 32, max ((∑ j : Fin 64, a0 (ix2 (i 0) j) * a1 (ix2 j k)) + a2 (ix2 0 k)) 0 * a3 (ix2 k 0)) + a4 (ix2 0 0)
    = (∑ k : Fin 32, max ((∑ j : Fin 64, a0 (ix2 (i' 0) j) * a1 (ix2 j k)) + a2 (ix2 0 k)) 0 * a3 (ix2 k 0)) + a4 (ix2 0 0)
  rw [h]

/-- The printed index maps, decided over the one grid point: every window's block index is zero on both axes. -/
theorem idx_zero : ∀ t : Fin cfg4.N,
    win4_0.index t (0 : Fin 2) = 0 ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = 0 ∧ win4_5.index t (1 : Fin 2) = 0 :=
  (by decide +kernel : ∀ t : Fin grid4.N, _)

/-- Window 0's one block is its whole array. -/
theorem blk0_apply (c : Dev nD) (t : Fin cfg4.N) (p : Fin 2048) (r : Fin 64) :
    iblk4 V c 0 t (ix2 p r) = V c main_v111 (ix2 p r) := by
  show V c main_v111 (((cfg4.win 0).blk t).view.emb (ix2 p r)) = V c main_v111 (ix2 p r)
  refine congrArg (V c main_v111) (funext fun a => Fin.ext ?_)
  obtain ⟨e00, e01, e10, e11, e20, e21, e30, e31, e40, e41, e50, e51⟩ := idx_zero t
  match a with
  | ⟨0, _⟩ => show win4_0.index t (0 : Fin 2) * 2048 + 1 * p.val = p.val; omega
  | ⟨1, _⟩ => show win4_0.index t (1 : Fin 2) * 64 + 1 * r.val = r.val; omega

/-- Window 1's one block is its whole array. -/
theorem blk1_apply (c : Dev nD) (t : Fin cfg4.N) (p : Fin 64) (r : Fin 32) :
    iblk4 V c 1 t (ix2 p r) = V c main_v112 (ix2 p r) := by
  show V c main_v112 (((cfg4.win 1).blk t).view.emb (ix2 p r)) = V c main_v112 (ix2 p r)
  refine congrArg (V c main_v112) (funext fun a => Fin.ext ?_)
  obtain ⟨e00, e01, e10, e11, e20, e21, e30, e31, e40, e41, e50, e51⟩ := idx_zero t
  match a with
  | ⟨0, _⟩ => show win4_1.index t (0 : Fin 2) * 64 + 1 * p.val = p.val; omega
  | ⟨1, _⟩ => show win4_1.index t (1 : Fin 2) * 32 + 1 * r.val = r.val; omega

/-- Window 2's one block is its whole array. -/
theorem blk2_apply (c : Dev nD) (t : Fin cfg4.N) (p : Fin 1) (r : Fin 32) :
    iblk4 V c 2 t (ix2 p r) = V c main_v114 (ix2 p r) := by
  show V c main_v114 (((cfg4.win 2).blk t).view.emb (ix2 p r)) = V c main_v114 (ix2 p r)
  refine congrArg (V c main_v114) (funext fun a => Fin.ext ?_)
  obtain ⟨e00, e01, e10, e11, e20, e21, e30, e31, e40, e41, e50, e51⟩ := idx_zero t
  match a with
  | ⟨0, _⟩ => show win4_2.index t (0 : Fin 2) * 1 + 1 * p.val = p.val; omega
  | ⟨1, _⟩ => show win4_2.index t (1 : Fin 2) * 32 + 1 * r.val = r.val; omega

/-- Window 3's one block is its whole array. -/
theorem blk3_apply (c : Dev nD) (t : Fin cfg4.N) (p : Fin 32) (r : Fin 1) :
    iblk4 V c 3 t (ix2 p r) = V c main_v113 (ix2 p r) := by
  show V c main_v113 (((cfg4.win 3).blk t).view.emb (ix2 p r)) = V c main_v113 (ix2 p r)
  refine congrArg (V c main_v113) (funext fun a => Fin.ext ?_)
  obtain ⟨e00, e01, e10, e11, e20, e21, e30, e31, e40, e41, e50, e51⟩ := idx_zero t
  match a with
  | ⟨0, _⟩ => show win4_3.index t (0 : Fin 2) * 32 + 1 * p.val = p.val; omega
  | ⟨1, _⟩ => show win4_3.index t (1 : Fin 2) * 1 + 1 * r.val = r.val; omega

/-- Window 4's one block is its whole array. -/
theorem blk4_apply (c : Dev nD) (t : Fin cfg4.N) (p : Fin 1) (r : Fin 1) :
    iblk4 V c 4 t (ix2 p r) = V c main_v115 (ix2 p r) := by
  show V c main_v115 (((cfg4.win 4).blk t).view.emb (ix2 p r)) = V c main_v115 (ix2 p r)
  refine congrArg (V c main_v115) (funext fun a => Fin.ext ?_)
  obtain ⟨e00, e01, e10, e11, e20, e21, e30, e31, e40, e41, e50, e51⟩ := idx_zero t
  match a with
  | ⟨0, _⟩ => show win4_4.index t (0 : Fin 2) * 1 + 1 * p.val = p.val; omega
  | ⟨1, _⟩ => show win4_4.index t (1 : Fin 2) * 1 + 1 * r.val = r.val; omega

/-- The output block's row `p` sits at row `p` of the array. -/
theorem emb5_row (t : Fin cfg4.N) (p : Fin 2048) (q : Fin 1) :
    (((cfg4.win 5).blk t).view.emb (ix2 p q)) 0 = p := by
  apply Fin.ext
  obtain ⟨e00, e01, e10, e11, e20, e21, e30, e31, e40, e41, e50, e51⟩ := idx_zero t
  show win4_5.index t (0 : Fin 2) * 2048 + 1 * p.val = p.val
  omega

/-- WHAT THE ONE POINT WRITES BACK is the block of `G` of the argument arrays as the region finds them. -/
theorem flushed_eq (c : Dev nD) (t : Fin cfg4.N) :
    (dat4 V c).flushed 5 t = ((cfg4.win 5).blk t).view.read (Elt Ideal)
      (G (V c main_v111) (V c main_v112) (V c main_v114) (V c main_v113) (V c main_v115)) := by
  show (cfg4.win 5).cut (grid4.coords t) ((dat4 V c).after 5 t) = _
  rw [after4_5]
  unfold out4_5
  rw [View.canon_unit_zero hz]
  simp only [View.ld_unit_zero (S := S2048x64) hz, View.ld_unit_zero (S := S64x32) hz, View.ld_unit_zero (S := S1x32) hz,
    View.ld_unit_zero (S := S32x1) hz, View.ld_unit_zero (S := S1x1) hz]
  funext y
  obtain ⟨p, q, rfl⟩ : ∃ (p : Fin 2048) (q : Fin 1), y = ix2 p q := ⟨y 0, y 1, eq_ix2 y⟩
  show k4_pay1 (iblk4 V c 0 t) (iblk4 V c 1 t) (iblk4 V c 2 t) (iblk4 V c 3 t) (iblk4 V c 4 t) (ix2 p q)
    = G (V c main_v111) (V c main_v112) (V c main_v114) (V c main_v113) (V c main_v115) (((cfg4.win 5).blk t).view.emb (ix2 p q))
  refine (pay_apply _ _ _ _ _ p q).trans ?_
  simp only [blk0_apply, blk1_apply, blk2_apply, blk3_apply, blk4_apply]
  exact G_congr_row (V c main_v111) (V c main_v112) (V c main_v114) (V c main_v113) (V c main_v115) (ix2 p q) _ (emb5_row t p q).symm

/-- An index of the array is in the point's block iff each coordinate is in the block's range on its axis. -/
theorem mem_blk (t : Fin cfg4.N) (i : S2048x1.Idx) :
    i ∈ ((cfg4.win 5).blk t).view.set ↔ ∀ a : Fin 2, win4_5.index t a * S2048x1.size a ≤ (i a).val ∧ (i a).val < win4_5.index t a * S2048x1.size a + S2048x1.size a := by
  show i ∈ ((View.whole main_v116).slice (win4_5.rect t)).set ↔ _
  rw [View.set_slice_whole, Rect.mem_set_unit]
  exact Iff.rfl

/-- Every index of the array is in the one point's block. -/
theorem cover (i : S2048x1.Idx) :
    ∃ t : Fin cfg4.N, (cfg4.win 5).flush t = true ∧ i ∈ ((cfg4.win 5).blk t).view.set := by
  refine ⟨t4_0, flush4_5 t4_0, ?_⟩
  rw [mem_blk]
  obtain ⟨e00, e01, e10, e11, e20, e21, e30, e31, e40, e41, e50, e51⟩ := idx_zero t4_0
  have hi0 : (i 0).val < 2048 := (i 0).isLt
  have hi1 : (i 1).val < 1 := (i 1).isLt
  intro a
  match a with
  | ⟨0, _⟩ => show win4_5.index t4_0 (0 : Fin 2) * 2048 ≤ (i 0).val ∧ (i 0).val < win4_5.index t4_0 (0 : Fin 2) * 2048 + 2048; omega
  | ⟨1, _⟩ => show win4_5.index t4_0 (1 : Fin 2) * 1 ≤ (i 1).val ∧ (i 1).val < win4_5.index t4_0 (1 : Fin 2) * 1 + 1; omega

/-- `G` at an index, written out. -/
theorem G_apply (a0 : S2048x64.Idx → Elt Ideal .f32) (a1 : S64x32.Idx → Elt Ideal .f32) (a2 : S1x32.Idx → Elt Ideal .f32)
    (a3 : S32x1.Idx → Elt Ideal .f32) (a4 : S1x1.Idx → Elt Ideal .f32) (i : S2048x1.Idx) :
    G a0 a1 a2 a3 a4 i
      = (∑ k : Fin 32, max ((∑ j : Fin 64, a0 (ix2 (i 0) j) * a1 (ix2 j k)) + a2 (ix2 0 k)) 0 * a3 (ix2 k 0)) + a4 (ix2 0 0) := rfl

/-- THE ARRAY after the region: `G` of the argument arrays as the region finds them, at every index. -/
theorem mlp_final (c : Dev nD) : (dat4 V c).arrAt 5 cfg4.N
    = G (V c main_v111) (V c main_v112) (V c main_v114) (V c main_v113) (V c main_v115) :=
  (dat4 V c).arrAt_eq_of_cover 5 _ (fun t _ => flushed_eq V c t) cover

/-- The same at an index. -/
theorem mlp_final_apply (c : Dev nD) (i : S2048x1.Idx) : (dat4 V c).arrAt 5 cfg4.N i
    = G (V c main_v111) (V c main_v112) (V c main_v114) (V c main_v113) (V c main_v115) i :=
  congrFun (mlp_final V c) i

end Cert.KernelIdeal.RegionMlp

end
-- ==== Proof.BnLaw.lean ====
/-
  Batch normalisation on the extended reals: the folded affine form against the centred form.

  For one column `a` of `N` entries, mean `mu = (0 + ∑ a) / c`, variance `v = (0 + ∑ (a - mu)²) / c` and
  `rs = rsqrt (v + e)`, the folded form `x · (g · rs) + (be - mu · (g · rs))` and the centred form
  `g · (x - mu) · rs + be` agree at every entry `x` of the column when `g` and `be` are real. Distributing a product
  over a difference is not valid at infinities, so the proof splits: if every entry is real then so are `mu` and `rs`
  (the variance is nonnegative and `e` positive) and the identity is the one of the reals; if some entry is infinite
  then the mean is infinite, every centred entry is infinite, the variance is `+∞`, so `rs = rsqrt (+∞) = 0` and both
  forms collapse to `be`.
-/
import Idealize.ShloMosaic.PureOps.Ideal

noncomputable section

namespace Cert.BnLaw

open Idealize.ShloMosaic

/-- The coercion of a finite real sum is the sum of the coercions. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A sum with a term `-∞` is `-∞`. -/
theorem sum_eq_bot {ι : Type} [DecidableEq ι] (s : Finset ι) (f : ι → EReal) (i : ι) (hi : i ∈ s) (h : f i = ⊥) :
    ∑ j ∈ s, f j = ⊥ := by
  rw [← Finset.add_sum_erase s f hi, h, EReal.bot_add]

/-- A sum with no term `-∞` is not `-∞`. -/
theorem sum_ne_bot {ι : Type} (s : Finset ι) (f : ι → EReal) (h : ∀ j ∈ s, f j ≠ ⊥) : ∑ j ∈ s, f j ≠ ⊥ := by
  classical
  induction s using Finset.induction_on with
  | empty => simp
  | insert a s ha ih =>
    rw [Finset.sum_insert ha]
    exact EReal.add_ne_bot_iff.mpr ⟨h a (Finset.mem_insert_self a s), ih (fun j hj => h j (Finset.mem_insert_of_mem hj))⟩

/-- A sum with a term `+∞` and no term `-∞` is `+∞`. -/
theorem sum_eq_top {ι : Type} [DecidableEq ι] (s : Finset ι) (f : ι → EReal) (i : ι) (hi : i ∈ s) (h : f i = ⊤)
    (hb : ∀ j ∈ s, f j ≠ ⊥) : ∑ j ∈ s, f j = ⊤ := by
  rw [← Finset.add_sum_erase s f hi, h]
  exact EReal.top_add_of_ne_bot (sum_ne_bot _ _ (fun j hj => hb j (Finset.mem_of_mem_erase hj)))

/-- An extended real that is no real is an infinity. -/
theorem bot_or_top_of_not_real (x : EReal) (h : ∀ r : ℝ, x ≠ r) : x = ⊥ ∨ x = ⊤ := by
  induction x using EReal.rec with
  | bot => exact Or.inl rfl
  | top => exact Or.inr rfl
  | coe r => exact absurd rfl (h r)

/-- The column's mean. -/
def mean {N : ℕ} (a : Fin N → EReal) (c : EReal) : EReal := Ideal.div (0 + ∑ r, a r) c

/-- The column's reciprocal standard deviation. -/
def rstd {N : ℕ} (a : Fin N → EReal) (c e : EReal) : EReal :=
  Ideal.rsqrt (Ideal.div (0 + ∑ r, (a r - mean a c) * (a r - mean a c)) c + e)

/-- Either the whole column, its mean and its reciprocal standard deviation are real, or the latter is zero. -/
theorem real_or_rstd_zero {N : ℕ} (hN : 0 < N) (a : Fin N → EReal) {c e : ℝ} (hc : 0 < c) (he : 0 < e) :
    ((∀ r, ∃ x : ℝ, a r = x) ∧ (∃ y : ℝ, mean a c = y) ∧ ∃ z : ℝ, rstd a c e = z) ∨ rstd a c e = 0 := by
  have hc' : (0 : ℝ) < 1 / c := by positivity
  by_cases hall : ∀ r, ∃ x : ℝ, a r = x
  · left
    choose a' ha' using hall
    obtain rfl : a = fun r => (a' r : EReal) := funext ha'
    have hmu : mean (fun r => (a' r : EReal)) c = (((∑ r, a' r) * (1 / c) : ℝ) : EReal) := by
      unfold mean
      rw [zero_add, ← coe_sum, Ideal.div_coe hc.ne', ← EReal.coe_mul]
    refine ⟨fun r => ⟨a' r, rfl⟩, ⟨_, hmu⟩, ?_⟩
    unfold rstd
    rw [hmu]
    set μ : ℝ := (∑ r, a' r) * (1 / c) with hμ
    have hsq : ∀ r, ((a' r : EReal) - (μ : EReal)) * ((a' r : EReal) - (μ : EReal)) = (((a' r - μ) * (a' r - μ) : ℝ) : EReal) := by
      intro r; rw [← EReal.coe_sub, ← EReal.coe_mul]
    simp only [hsq]
    rw [zero_add, ← coe_sum, Ideal.div_coe hc.ne', ← EReal.coe_mul, ← EReal.coe_add]
    set w : ℝ := (∑ r, (a' r - μ) * (a' r - μ)) * (1 / c) + e with hw
    have hwpos : 0 < w := by
      have h1 : 0 ≤ ∑ r, (a' r - μ) * (a' r - μ) := Finset.sum_nonneg (fun r _ => mul_self_nonneg _)
      have h2 : 0 ≤ (∑ r, (a' r - μ) * (a' r - μ)) * (1 / c) := mul_nonneg h1 hc'.le
      linarith
    refine ⟨(Real.sqrt w)⁻¹, ?_⟩
    rw [Ideal.rsqrt_coe, if_neg (not_lt.mpr hwpos.le), if_neg hwpos.ne']
  · right
    push Not at hall
    obtain ⟨r0, hr0⟩ := hall
    have h0 : a r0 = ⊥ ∨ a r0 = ⊤ := bot_or_top_of_not_real _ hr0
    -- the column's sum is an infinity
    have hS : (∑ r, a r) = ⊥ ∨ (∑ r, a r) = ⊤ := by
      by_cases hb : ∃ r, a r = ⊥
      · obtain ⟨r, hr⟩ := hb
        exact Or.inl (sum_eq_bot _ _ r (Finset.mem_univ r) hr)
      · push Not at hb
        have ht : a r0 = ⊤ := h0.resolve_left (hb r0)
        exact Or.inr (sum_eq_top _ _ r0 (Finset.mem_univ r0) ht (fun j _ => hb j))
    -- so is the mean
    have hmu : mean a c = ⊥ ∨ mean a c = ⊤ := by
      unfold mean
      rw [zero_add, Ideal.div_coe hc.ne']
      rcases hS with h | h
      · left; rw [h]; exact EReal.bot_mul_coe_of_pos hc'
      · right; rw [h]; exact EReal.top_mul_coe_of_pos hc'
    -- every centred entry is an infinity, its square `+∞`
    have hsq : ∀ r, (a r - mean a c) * (a r - mean a c) = ⊤ := by
      intro r
      rcases hmu with h | h
      · rw [h]
        by_cases hr : a r = ⊥
        · rw [hr, EReal.bot_sub, EReal.bot_mul_bot]
        · rw [EReal.sub_bot hr, EReal.top_mul_top]
      · rw [h, EReal.sub_top, EReal.bot_mul_bot]
    unfold rstd
    simp only [hsq]
    have hsum : (∑ _r : Fin N, (⊤ : EReal)) = ⊤ :=
      sum_eq_top _ _ (⟨0, hN⟩ : Fin N) (Finset.mem_univ _) rfl (fun _ _ => top_ne_bot)
    rw [hsum, zero_add, Ideal.div_coe hc.ne', EReal.top_mul_coe_of_pos hc', EReal.top_add_coe, Ideal.rsqrt_top]

/-- The folded affine form is the centred form, at an entry that is real together with the mean and the reciprocal
    standard deviation, or where the latter is zero. -/
theorem folded_eq_centred (x mu rs g be : EReal)
    (h : ((∃ x' : ℝ, x = x') ∧ (∃ m' : ℝ, mu = m') ∧ ∃ r' : ℝ, rs = r') ∨ rs = 0)
    (hg : ∃ g' : ℝ, g = g') (hbe : ∃ b' : ℝ, be = b') :
    x * (g * rs) + (be - mu * (g * rs)) = g * (x - mu) * rs + be := by
  rcases h with ⟨⟨x', rfl⟩, ⟨m', rfl⟩, ⟨r', rfl⟩⟩ | h0
  · obtain ⟨g', rfl⟩ := hg
    obtain ⟨b', rfl⟩ := hbe
    exact_mod_cast (by ring : x' * (g' * r') + (b' - m' * (g' * r')) = g' * (x' - m') * r' + b')
  · rw [h0]
    simp only [mul_zero, zero_add, sub_zero]

end Cert.BnLaw

end
-- ==== Proof.Consts.lean ====
/-
  The float constants of the two programs whose values the proof needs, as the extended reals their bit patterns
  denote: zero, the row count 100000 that the means divide by, and the variance offset (the float nearest to 1e-5),
  a positive real.
-/
import Idealize.ShloMosaic.PureOps.Ideal

noncomputable section

namespace Cert.Consts

open Idealize.ShloMosaic

/-- The pattern of 100000.0 denotes the real 100000. -/
theorem ofBits_rows : Ideal.ofBits .f32 0x47C35000#32 = ((100000 : ℝ) : EReal) := by
  simp [Ideal.ofBits, Ideal.ieee, -EReal.coe_mul]; norm_num

/-- The pattern of the variance offset denotes a real. -/
theorem ofBits_eps : Ideal.ofBits .f32 0x3727C5AC#32 = ((10995116 / 2 ^ 40 : ℝ) : EReal) := by
  simp [Ideal.ofBits, Ideal.ieee, -EReal.coe_mul]; norm_num

end Cert.Consts

end
-- ==== Proof.BnStage.lean ====
/-
  The reference's batch-normalisation stages, read column by column. In each of the two layers the reference computes,
  per feature column of the aggregated array, the mean, the mean of the squared deviations and the reciprocal square
  root of that plus the offset, and then `g · (x - mean) · rstd + be` followed by the rectifier. The kernel's program
  computes the same mean and reciprocal standard deviation on the host (the same operations) but folds them into a
  scale `g · rstd` and a shift `be - mean · (g · rstd)` that its elementwise kernel applies. Entry by entry the two
  agree (the law of the extended reals proved apart), for real `g` and `be`.
-/
import proofs.«178469_j62732292326003_1_alg».proof.Proof.Gen.ReferenceIdeal.Read
import proofs.«178469_j62732292326003_1_alg».proof.Proof.BnLaw
import proofs.«178469_j62732292326003_1_alg».proof.Proof.Consts
import Idealize.ShloMosaic.Lib.ValueIdx

set_option maxRecDepth 16384

noncomputable section

namespace Cert.BnStage

open Cert.ReferenceIdeal Cert.ReferenceIdeal.Read Idealize.ShloMosaic Idealize.ShloMosaic.ValueIdx

section Layer1

variable (x0 : (⟨S100000x22, .f32⟩ : BufTy).Contents (Elt Ideal)) (x1 : (⟨S2x1600000, .i32⟩ : BufTy).Contents (Elt Ideal)) (x3 : (⟨S64x22, .f32⟩ : BufTy).Contents (Elt Ideal)) (x4 x5 x6 : (⟨S64, .f32⟩ : BufTy).Contents (Elt Ideal))

/-- Column `q` of the aggregated features: one entry per node. -/
def col1 (q : Fin 64) : Fin 100000 → EReal := fun r => val_main_v44 (F := Ideal) x0 x1 x3 x4 (ix2 r q)

/-- The reference's mean stage at column `q` is the column's mean. -/
theorem mean1 (q : Fin 64) :
    val_main_v47 (F := Ideal) x0 x1 x3 x4 (ix1 q) = BnLaw.mean (col1 x0 x1 x3 x4 q) ((100000 : ℝ) : EReal) := by
  rw [val_main_v47_apply, val_main_v45_apply, val_main_v46_apply]
  have e : ∀ k : Fin 100000, idx_main_v45 (ix1 q) k = ix2 k q := fun k => funext fun a => by
    match a with | ⟨0, _⟩ => rfl | ⟨1, _⟩ => rfl
  simp only [e]
  show Ideal.div (Ideal.ofBits .f32 0x00000000#32 + _) (Ideal.ofBits .f32 0x47C35000#32) = _
  rw [Ideal.ofBits_zero_f32, Consts.ofBits_rows]
  rfl

/-- The reference's squared-deviation stage at row `k` of column `q`. -/
theorem sq1 (k : Fin 100000) (q : Fin 64) :
    val_main_v51 (F := Ideal) x0 x1 x3 x4 (ix2 k q)
      = (col1 x0 x1 x3 x4 q k - BnLaw.mean (col1 x0 x1 x3 x4 q) ((100000 : ℝ) : EReal))
        * (col1 x0 x1 x3 x4 q k - BnLaw.mean (col1 x0 x1 x3 x4 q) ((100000 : ℝ) : EReal)) := by
  rw [val_main_v51_apply, val_main_v50_apply, val_main_v49_apply, val_main_v48_apply]
  have e : idx_main_v48 (idx_main_v49 (ix2 k q)) = ix1 q := funext fun a => by
    match a with | ⟨0, _⟩ => rfl
  rw [e, mean1]
  rfl

/-- The reference's reciprocal-standard-deviation stage at column `q` is the column's. -/
theorem rstd1 (q : Fin 64) :
    val_main_v63 (F := Ideal) x0 x1 x3 x4 (ix1 q)
      = BnLaw.rstd (col1 x0 x1 x3 x4 q) ((100000 : ℝ) : EReal) ((10995116 / 2 ^ 40 : ℝ) : EReal) := by
  rw [val_main_v63_apply, val_main_v62_apply, val_main_v61_apply, val_main_v54_apply, val_main_v52_apply, val_main_v53_apply]
  have e : ∀ k : Fin 100000, idx_main_v52 (ix1 q) k = ix2 k q := fun k => funext fun a => by
    match a with | ⟨0, _⟩ => rfl | ⟨1, _⟩ => rfl
  simp only [e, sq1]
  show Ideal.rsqrt (Ideal.div (Ideal.ofBits .f32 0x00000000#32 + _) (Ideal.ofBits .f32 0x47C35000#32) + Ideal.ofBits .f32 0x3727C5AC#32) = _
  rw [Ideal.ofBits_zero_f32, Consts.ofBits_rows, Consts.ofBits_eps]
  rfl

/-- At every entry, the folded affine form over the reference's own mean and reciprocal standard deviation, then the
    rectifier, is the reference's normalised and rectified stage. -/
theorem bn1 (hg : ∀ i, ∃ r : ℝ, x5 i = r) (hb : ∀ i, ∃ r : ℝ, x6 i = r) (p : Fin 100000) (q : Fin 64) :
    max (val_main_v44 (F := Ideal) x0 x1 x3 x4 (ix2 p q) * (x5 (ix1 q) * val_main_v63 (F := Ideal) x0 x1 x3 x4 (ix1 q))
        + (x6 (ix1 q) - val_main_v47 (F := Ideal) x0 x1 x3 x4 (ix1 q) * (x5 (ix1 q) * val_main_v63 (F := Ideal) x0 x1 x3 x4 (ix1 q)))) 0
      = val_main_v70 (F := Ideal) x0 x1 x3 x4 x5 x6 (ix2 p q) := by
  rw [val_main_v70_apply, val_main_v69_apply, val_main_v66_apply, val_main_v60_apply, val_main_v57_apply, val_main_v56_apply, val_main_v55_apply,
    val_main_v59_apply, val_main_v58_apply, val_main_v65_apply, val_main_v64_apply, val_main_v68_apply, val_main_v67_apply, val_main_call0_v0_apply]
  have e1 : idx_main_v55 (idx_main_v56 (ix2 p q)) = ix1 q := funext fun a => by match a with | ⟨0, _⟩ => rfl
  have e2 : idx_main_v58 (idx_main_v59 (ix2 p q)) = ix1 q := funext fun a => by match a with | ⟨0, _⟩ => rfl
  have e3 : idx_main_v64 (idx_main_v65 (ix2 p q)) = ix1 q := funext fun a => by match a with | ⟨0, _⟩ => rfl
  have e4 : idx_main_v67 (idx_main_v68 (ix2 p q)) = ix1 q := funext fun a => by match a with | ⟨0, _⟩ => rfl
  rw [e1, e2, e3, e4]
  show _ = max (x5 (ix1 q) * (val_main_v44 (F := Ideal) x0 x1 x3 x4 (ix2 p q) - val_main_v47 (F := Ideal) x0 x1 x3 x4 (ix1 q)) * val_main_v63 (F := Ideal) x0 x1 x3 x4 (ix1 q) + x6 (ix1 q))
    (Ideal.ofBits .f32 0x00000000#32)
  rw [Ideal.ofBits_zero_f32]
  refine congrArg (fun t => max t (0 : EReal)) ?_
  rw [mean1, rstd1]
  refine BnLaw.folded_eq_centred _ _ _ _ _ ?_ (hg _) (hb _)
  rcases BnLaw.real_or_rstd_zero (N := 100000) (by norm_num) (col1 x0 x1 x3 x4 q) (c := 100000) (e := 10995116 / 2 ^ 40)
    (by norm_num) (by positivity) with ⟨h1, h2, h3⟩ | h
  · exact Or.inl ⟨h1 p, h2, h3⟩
  · exact Or.inr h

end Layer1

section Layer2

variable (x0 : (⟨S100000x22, .f32⟩ : BufTy).Contents (Elt Ideal)) (x1 : (⟨S2x1600000, .i32⟩ : BufTy).Contents (Elt Ideal)) (x3 : (⟨S64x22, .f32⟩ : BufTy).Contents (Elt Ideal)) (x4 x5 x6 : (⟨S64, .f32⟩ : BufTy).Contents (Elt Ideal)) (x7 : (⟨S64x64, .f32⟩ : BufTy).Contents (Elt Ideal)) (x8 x9 x10 : (⟨S64, .f32⟩ : BufTy).Contents (Elt Ideal))

/-- Column `q` of the aggregated features: one entry per node. -/
def col2 (q : Fin 64) : Fin 100000 → EReal := fun r => val_main_v111 (F := Ideal) x0 x1 x3 x4 x5 x6 x7 x8 (ix2 r q)

/-- The reference's mean stage at column `q` is the column's mean. -/
theorem mean2 (q : Fin 64) :
    val_main_v114 (F := Ideal) x0 x1 x3 x4 x5 x6 x7 x8 (ix1 q) = BnLaw.mean (col2 x0 x1 x3 x4 x5 x6 x7 x8 q) ((100000 : ℝ) : EReal) := by
  rw [val_main_v114_apply, val_main_v112_apply, val_main_v113_apply]
  have e : ∀ k : Fin 100000, idx_main_v112 (ix1 q) k = ix2 k q := fun k => funext fun a => by
    match a with | ⟨0, _⟩ => rfl | ⟨1, _⟩ => rfl
  simp only [e]
  show Ideal.div (Ideal.ofBits .f32 0x00000000#32 + _) (Ideal.ofBits .f32 0x47C35000#32) = _
  rw [Ideal.ofBits_zero_f32, Consts.ofBits_rows]
  rfl

/-- The reference's squared-deviation stage at row `k` of column `q`. -/
theorem sq2 (k : Fin 100000) (q : Fin 64) :
    val_main_v118 (F := Ideal) x0 x1 x3 x4 x5 x6 x7 x8 (ix2 k q)
      = (col2 x0 x1 x3 x4 x5 x6 x7 x8 q k - BnLaw.mean (col2 x0 x1 x3 x4 x5 x6 x7 x8 q) ((100000 : ℝ) : EReal))
        * (col2 x0 x1 x3 x4 x5 x6 x7 x8 q k - BnLaw.mean (col2 x0 x1 x3 x4 x5 x6 x7 x8 q) ((100000 : ℝ) : EReal)) := by
  rw [val_main_v118_apply, val_main_v117_apply, val_main_v116_apply, val_main_v115_apply]
  have e : idx_main_v115 (idx_main_v116 (ix2 k q)) = ix1 q := funext fun a => by
    match a with | ⟨0, _⟩ => rfl
  rw [e, mean2]
  rfl

/-- The reference's reciprocal-standard-deviation stage at column `q` is the column's. -/
theorem rstd2 (q : Fin 64) :
    val_main_v130 (F := Ideal) x0 x1 x3 x4 x5 x6 x7 x8 (ix1 q)
      = BnLaw.rstd (col2 x0 x1 x3 x4 x5 x6 x7 x8 q) ((100000 : ℝ) : EReal) ((10995116 / 2 ^ 40 : ℝ) : EReal) := by
  rw [val_main_v130_apply, val_main_v129_apply, val_main_v128_apply, val_main_v121_apply, val_main_v119_apply, val_main_v120_apply]
  have e : ∀ k : Fin 100000, idx_main_v119 (ix1 q) k = ix2 k q := fun k => funext fun a => by
    match a with | ⟨0, _⟩ => rfl | ⟨1, _⟩ => rfl
  simp only [e, sq2]
  show Ideal.rsqrt (Ideal.div (Ideal.ofBits .f32 0x00000000#32 + _) (Ideal.ofBits .f32 0x47C35000#32) + Ideal.ofBits .f32 0x3727C5AC#32) = _
  rw [Ideal.ofBits_zero_f32, Consts.ofBits_rows, Consts.ofBits_eps]
  rfl

/-- At every entry, the folded affine form over the reference's own mean and reciprocal standard deviation, then the
    rectifier, is the reference's normalised and rectified stage. -/
theorem bn2 (hg : ∀ i, ∃ r : ℝ, x9 i = r) (hb : ∀ i, ∃ r : ℝ, x10 i = r) (p : Fin 100000) (q : Fin 64) :
    max (val_main_v111 (F := Ideal) x0 x1 x3 x4 x5 x6 x7 x8 (ix2 p q) * (x9 (ix1 q) * val_main_v130 (F := Ideal) x0 x1 x3 x4 x5 x6 x7 x8 (ix1 q))
        + (x10 (ix1 q) - val_main_v114 (F := Ideal) x0 x1 x3 x4 x5 x6 x7 x8 (ix1 q) * (x9 (ix1 q) * val_main_v130 (F := Ideal) x0 x1 x3 x4 x5 x6 x7 x8 (ix1 q)))) 0
      = val_main_v137 (F := Ideal) x0 x1 x3 x4 x5 x6 x7 x8 x9 x10 (ix2 p q) := by
  rw [val_main_v137_apply, val_main_v136_apply, val_main_v133_apply, val_main_v127_apply, val_main_v124_apply, val_main_v123_apply, val_main_v122_apply,
    val_main_v126_apply, val_main_v125_apply, val_main_v132_apply, val_main_v131_apply, val_main_v135_apply, val_main_v134_apply, val_main_call1_v0_apply]
  have e1 : idx_main_v122 (idx_main_v123 (ix2 p q)) = ix1 q := funext fun a => by match a with | ⟨0, _⟩ => rfl
  have e2 : idx_main_v125 (idx_main_v126 (ix2 p q)) = ix1 q := funext fun a => by match a with | ⟨0, _⟩ => rfl
  have e3 : idx_main_v131 (idx_main_v132 (ix2 p q)) = ix1 q := funext fun a => by match a with | ⟨0, _⟩ => rfl
  have e4 : idx_main_v134 (idx_main_v135 (ix2 p q)) = ix1 q := funext fun a => by match a with | ⟨0, _⟩ => rfl
  rw [e1, e2, e3, e4]
  show _ = max (x9 (ix1 q) * (val_main_v111 (F := Ideal) x0 x1 x3 x4 x5 x6 x7 x8 (ix2 p q) - val_main_v114 (F := Ideal) x0 x1 x3 x4 x5 x6 x7 x8 (ix1 q)) * val_main_v130 (F := Ideal) x0 x1 x3 x4 x5 x6 x7 x8 (ix1 q) + x10 (ix1 q))
    (Ideal.ofBits .f32 0x00000000#32)
  rw [Ideal.ofBits_zero_f32]
  refine congrArg (fun t => max t (0 : EReal)) ?_
  rw [mean2, rstd2]
  refine BnLaw.folded_eq_centred _ _ _ _ _ ?_ (hg _) (hb _)
  rcases BnLaw.real_or_rstd_zero (N := 100000) (by norm_num) (col2 x0 x1 x3 x4 x5 x6 x7 x8 q) (c := 100000) (e := 10995116 / 2 ^ 40)
    (by norm_num) (by positivity) with ⟨h1, h2, h3⟩ | h
  · exact Or.inl ⟨h1 p, h2, h3⟩
  · exact Or.inr h

end Layer2

end Cert.BnStage

end
-- ==== Proof.MlpRef.lean ====
/- The reference program's last stages — two dense layers with a rectifier between them — read at an index as one
   expression of the first layer's input, the two transposed weight matrices and the two bias vectors; and the
   region's two-layer function of those arrays is that stage. -/
import proofs.«178469_j62732292326003_1_alg».proof.Proof.RegionMlp
import proofs.«178469_j62732292326003_1_alg».proof.Proof.Gen.ReferenceIdeal.Read

set_option maxRecDepth 16384

noncomputable section

namespace Cert.MlpRef

open Cert.ReferenceIdeal Cert.ReferenceIdeal.Read Idealize.ShloMosaic Idealize.ShloMosaic.ValueIdx
open scoped BigOperators

/-- The first layer after the rectifier, at row `p` and column `k`. -/
theorem layer1_apply (x0 : (⟨S100000x22, .f32⟩ : BufTy).Contents (Elt Ideal)) (x1 : (⟨S2x1600000, .i32⟩ : BufTy).Contents (Elt Ideal)) (x2 : (⟨S100000, .i32⟩ : BufTy).Contents (Elt Ideal)) (x3 : (⟨S64x22, .f32⟩ : BufTy).Contents (Elt Ideal)) (x4 x5 x6 : (⟨S64, .f32⟩ : BufTy).Contents (Elt Ideal)) (x7 : (⟨S64x64, .f32⟩ : BufTy).Contents (Elt Ideal)) (x8 x9 x10 : (⟨S64, .f32⟩ : BufTy).Contents (Elt Ideal)) (x11 : (⟨S32x64, .f32⟩ : BufTy).Contents (Elt Ideal)) (x12 : (⟨S32, .f32⟩ : BufTy).Contents (Elt Ideal)) (p : Fin 2048) (k : Fin 32) :
    val_main_v155 (F := Ideal) x0 x1 x2 x3 x4 x5 x6 x7 x8 x9 x10 x11 x12 (ix2 p k)
      = max ((∑ j : Fin 64, val_main_v149 (F := Ideal) x0 x1 x2 x3 x4 x5 x6 x7 x8 x9 x10 (ix2 p j) * val_main_v150 (F := Ideal) x11 (ix2 j k)) + x12 (ix1 k)) 0 := by
  refine (val_main_v155_apply x0 x1 x2 x3 x4 x5 x6 x7 x8 x9 x10 x11 x12 (ix2 p k)).trans ?_
  rw [Ideal.maximumf_def]
  refine congrArg₂ max ?_ ?_
  · refine (val_main_v154_apply x0 x1 x2 x3 x4 x5 x6 x7 x8 x9 x10 x11 x12 (ix2 p k)).trans ?_
    rw [Ideal.addf_def]
    refine congrArg₂ (· + ·) ?_ ?_
    · refine (val_main_v151_apply x0 x1 x2 x3 x4 x5 x6 x7 x8 x9 x10 x11 (ix2 p k)).trans ?_
      refine Finset.sum_congr rfl fun j _ => ?_
      have el : lidx_main_v151 (ix2 p k) j = ix2 p j := funext fun a => match a with
        | ⟨0, _⟩ => rfl
        | ⟨1, _⟩ => rfl
      have er : ridx_main_v151 (ix2 p k) j = ix2 j k := funext fun a => match a with
        | ⟨0, _⟩ => rfl
        | ⟨1, _⟩ => rfl
      rw [el, er]
    · refine (val_main_v153_apply x12 (ix2 p k)).trans ?_
      refine (val_main_v152_apply x12 _).trans ?_
      exact congrArg x12 (funext fun a => match a with
        | ⟨0, _⟩ => rfl)
  · refine (val_main_call2_v0_apply (F := Ideal) (ix2 p k)).trans ?_
    exact Ideal.ofBits_zero_f32

/-- The last stage at row `p`: the second layer over the rectified first, plus the output bias. -/
theorem ref_apply (x0 : (⟨S100000x22, .f32⟩ : BufTy).Contents (Elt Ideal)) (x1 : (⟨S2x1600000, .i32⟩ : BufTy).Contents (Elt Ideal)) (x2 : (⟨S100000, .i32⟩ : BufTy).Contents (Elt Ideal)) (x3 : (⟨S64x22, .f32⟩ : BufTy).Contents (Elt Ideal)) (x4 x5 x6 : (⟨S64, .f32⟩ : BufTy).Contents (Elt Ideal)) (x7 : (⟨S64x64, .f32⟩ : BufTy).Contents (Elt Ideal)) (x8 x9 x10 : (⟨S64, .f32⟩ : BufTy).Contents (Elt Ideal)) (x11 : (⟨S32x64, .f32⟩ : BufTy).Contents (Elt Ideal)) (x12 : (⟨S32, .f32⟩ : BufTy).Contents (Elt Ideal)) (x13 : (⟨S1x32, .f32⟩ : BufTy).Contents (Elt Ideal)) (x14 : (⟨S1, .f32⟩ : BufTy).Contents (Elt Ideal)) (p : Fin 2048) :
    val_main_v160 (F := Ideal) x0 x1 x2 x3 x4 x5 x6 x7 x8 x9 x10 x11 x12 x13 x14 (ix2 p 0)
      = (∑ k : Fin 32, max ((∑ j : Fin 64, val_main_v149 (F := Ideal) x0 x1 x2 x3 x4 x5 x6 x7 x8 x9 x10 (ix2 p j) * val_main_v150 (F := Ideal) x11 (ix2 j k)) + x12 (ix1 k)) 0
          * val_main_v156 (F := Ideal) x13 (ix2 k 0)) + x14 (ix1 0) := by
  refine (val_main_v160_apply x0 x1 x2 x3 x4 x5 x6 x7 x8 x9 x10 x11 x12 x13 x14 (ix2 p 0)).trans ?_
  rw [Ideal.addf_def]
  refine congrArg₂ (· + ·) ?_ ?_
  · refine (val_main_v157_apply x0 x1 x2 x3 x4 x5 x6 x7 x8 x9 x10 x11 x12 x13 (ix2 p 0)).trans ?_
    refine Finset.sum_congr rfl fun k _ => ?_
    have el : lidx_main_v157 (ix2 p 0) k = ix2 p k := funext fun a => match a with
      | ⟨0, _⟩ => rfl
      | ⟨1, _⟩ => rfl
    have er : ridx_main_v157 (ix2 p 0) k = ix2 k 0 := funext fun a => match a with
      | ⟨0, _⟩ => rfl
      | ⟨1, _⟩ => rfl
    rw [el, er, layer1_apply x0 x1 x2 x3 x4 x5 x6 x7 x8 x9 x10 x11 x12 p k]
  · refine (val_main_v159_apply x14 (ix2 p 0)).trans ?_
    refine (val_main_v158_apply x14 _).trans ?_
    exact congrArg x14 (funext fun a => match a with
      | ⟨0, _⟩ => rfl)

/-- The region's two-layer function, of the reference's first-layer input and transposed weights and of bias arrays
    that hold the reference's bias vectors as rows, is the reference's last stage. -/
theorem mlp_ref (x0 : (⟨S100000x22, .f32⟩ : BufTy).Contents (Elt Ideal)) (x1 : (⟨S2x1600000, .i32⟩ : BufTy).Contents (Elt Ideal)) (x2 : (⟨S100000, .i32⟩ : BufTy).Contents (Elt Ideal)) (x3 : (⟨S64x22, .f32⟩ : BufTy).Contents (Elt Ideal)) (x4 x5 x6 : (⟨S64, .f32⟩ : BufTy).Contents (Elt Ideal)) (x7 : (⟨S64x64, .f32⟩ : BufTy).Contents (Elt Ideal)) (x8 x9 x10 : (⟨S64, .f32⟩ : BufTy).Contents (Elt Ideal)) (x11 : (⟨S32x64, .f32⟩ : BufTy).Contents (Elt Ideal)) (x12 : (⟨S32, .f32⟩ : BufTy).Contents (Elt Ideal)) (x13 : (⟨S1x32, .f32⟩ : BufTy).Contents (Elt Ideal)) (x14 : (⟨S1, .f32⟩ : BufTy).Contents (Elt Ideal))
    (b1 : Cert.KernelIdeal.S1x32.Idx → Elt Ideal .f32) (b2 : Cert.KernelIdeal.S1x1.Idx → Elt Ideal .f32)
    (h1 : ∀ k : Fin 32, b1 (ix2 0 k) = x12 (ix1 k)) (h2 : b2 (ix2 0 0) = x14 (ix1 0)) :
    Cert.KernelIdeal.RegionMlp.G (val_main_v149 (F := Ideal) x0 x1 x2 x3 x4 x5 x6 x7 x8 x9 x10) (val_main_v150 (F := Ideal) x11) b1 (val_main_v156 (F := Ideal) x13) b2
      = val_main_v160 (F := Ideal) x0 x1 x2 x3 x4 x5 x6 x7 x8 x9 x10 x11 x12 x13 x14 := by
  funext i
  obtain ⟨p, q, rfl⟩ : ∃ (p : Fin 2048) (q : Fin 1), i = ix2 p q := ⟨i 0, i 1, eq_ix2 i⟩
  obtain rfl : q = 0 := Subsingleton.elim _ _
  refine Eq.trans ?_ (ref_apply x0 x1 x2 x3 x4 x5 x6 x7 x8 x9 x10 x11 x12 x13 x14 p).symm
  generalize val_main_v149 (F := Ideal) x0 x1 x2 x3 x4 x5 x6 x7 x8 x9 x10 = y0
  generalize val_main_v150 (F := Ideal) x11 = y1
  generalize val_main_v156 (F := Ideal) x13 = y3
  show (∑ k : Fin 32, max ((∑ j : Fin 64, y0 (ix2 p j) * y1 (ix2 j k)) + b1 (ix2 0 k)) 0 * y3 (ix2 k 0)) + b2 (ix2 0 0) = _
  exact congrArg₂ (· + ·) (Finset.sum_congr rfl fun k _ => by rw [h1 k]) h2

end Cert.MlpRef

end
-- ==== Proof.Stages.lean ====
/-
  The kernel program's buffer contents at each boundary of its run, identified with the reference's stages.

  The run alternates stretches of host operations with five kernels. Reading the fold of a stretch at one buffer gives the
  composed operations of what the stretch finds; what it finds are earlier results (unchanged in between: no later
  operation or kernel writes them) and the arguments. Stage by stage these are the reference's own stages of the same
  arguments, because the host operations are the same, with three exceptions closed by lemmas proved apart: a row-tiled
  matrix-product kernel leaves the host's general product of its operands; the elementwise kernel over the folded
  scale `g · rstd` and shift `be - mean · (g · rstd)` leaves the reference's normalised and rectified array (the law of
  the extended reals, for real `g` and `be`); the perceptron kernel leaves the reference's last five stages. The
  second layer repeats the first over its output, and the reference recomputes the edge lists and weights there, as
  the same operations of the same argument.
-/
import proofs.«178469_j62732292326003_1_alg».proof.Proof.Gen.KernelIdeal.Frame
import proofs.«178469_j62732292326003_1_alg».proof.Proof.Gen.ReferenceIdeal.Read
import proofs.«178469_j62732292326003_1_alg».proof.Proof.LibStageRead
import proofs.«178469_j62732292326003_1_alg».proof.Proof.RegionLin
import proofs.«178469_j62732292326003_1_alg».proof.Proof.RegionAffine
import proofs.«178469_j62732292326003_1_alg».proof.Proof.RegionMlp
import proofs.«178469_j62732292326003_1_alg».proof.Proof.BnStage
import proofs.«178469_j62732292326003_1_alg».proof.Proof.MlpRef
import Idealize.ShloMosaic.Lib.ValueLayout

set_option maxRecDepth 16384

noncomputable section

namespace Cert.Stages

open Cert.KernelIdeal Cert.KernelIdeal.Gen Cert.StageRead Cert.ReferenceIdeal.Read
open Idealize.ShloMosaic Idealize.ShloMosaic.TcCoe Idealize.SL.Sem Idealize.ShloMosaic.StableHlo Idealize.ShloMosaic.ValueIdx

variable (m : (ℓ : Loc nD τ sig) → Buf (Elt Ideal) ℓ) (ρ : Dev nD → PrngReg) (c : Dev nD)

/-- The fifteen argument arrays as launched. -/
abbrev A0 : S100000x22.Idx → Elt Ideal .f32 := m ((c : Thread nD τ).loc main_arg0)
abbrev A1 : S2x1600000.Idx → Elt Ideal .i32 := m ((c : Thread nD τ).loc main_arg1)
abbrev A2 : S100000.Idx → Elt Ideal .i32 := m ((c : Thread nD τ).loc main_arg2)
abbrev A3 : S64x22.Idx → Elt Ideal .f32 := m ((c : Thread nD τ).loc main_arg3)
abbrev A4 : S64.Idx → Elt Ideal .f32 := m ((c : Thread nD τ).loc main_arg4)
abbrev A5 : S64.Idx → Elt Ideal .f32 := m ((c : Thread nD τ).loc main_arg5)
abbrev A6 : S64.Idx → Elt Ideal .f32 := m ((c : Thread nD τ).loc main_arg6)
abbrev A7 : S64x64.Idx → Elt Ideal .f32 := m ((c : Thread nD τ).loc main_arg7)
abbrev A8 : S64.Idx → Elt Ideal .f32 := m ((c : Thread nD τ).loc main_arg8)
abbrev A9 : S64.Idx → Elt Ideal .f32 := m ((c : Thread nD τ).loc main_arg9)
abbrev A10 : S64.Idx → Elt Ideal .f32 := m ((c : Thread nD τ).loc main_arg10)
abbrev A11 : S32x64.Idx → Elt Ideal .f32 := m ((c : Thread nD τ).loc main_arg11)
abbrev A12 : S32.Idx → Elt Ideal .f32 := m ((c : Thread nD τ).loc main_arg12)
abbrev A13 : S1x32.Idx → Elt Ideal .f32 := m ((c : Thread nD τ).loc main_arg13)
abbrev A14 : S1.Idx → Elt Ideal .f32 := m ((c : Thread nD τ).loc main_arg14)

/-- The kernel program's folded scale, as the row its elementwise kernel reads: `g · rstd`. -/
abbrev scaleRow (g r : FVec Ideal S64 .f32) : (⟨S1x64, .f32⟩ : BufTy).Contents (Elt Ideal) :=
  shapeCast S1x64 (mulf g r) shapeCasts_S64_S1x64

/-- The kernel program's folded shift, as a row: `be - mean · (g · rstd)`. -/
abbrev shiftRow (be mu g r : FVec Ideal S64 .f32) : (⟨S1x64, .f32⟩ : BufTy).Contents (Elt Ideal) :=
  shapeCast S1x64 (subf be (mulf mu (mulf g r))) shapeCasts_S64_S1x64

/-- The perceptron's first bias as the row its kernel reads. -/
abbrev biasRow (b : FVec Ideal S32 .f32) : (⟨S1x32, .f32⟩ : BufTy).Contents (Elt Ideal) :=
  shapeCast S1x32 b shapeCasts_S32_S1x32

/-- The perceptron's second bias as the one-entry matrix its kernel reads. -/
abbrev biasOne (b : FVec Ideal S1 .f32) : (⟨S1x1, .f32⟩ : BufTy).Contents (Elt Ideal) :=
  shapeCast S1x1 b shapeCasts_S1_S1x1

/-! ## Before the first kernel: the edge lists with self loops, the edge weights, the transposed weight matrix -/

theorem s1_v5 : W1 m ρ c (Proc.devRef .tc main_v5) = val_main_v7 (F := Ideal) (A1 m c) := by
  show StableHlo.after hostOps0 (W0 m ρ c) (Proc.devRef .tc main_v5) = _
  stage_results
  rfl

theorem s1_v6 : W1 m ρ c (Proc.devRef .tc main_v6) = val_main_v8 (F := Ideal) (A1 m c) := by
  show StableHlo.after hostOps0 (W0 m ρ c) (Proc.devRef .tc main_v6) = _
  stage_results
  rfl

theorem s1_v27 : W1 m ρ c (Proc.devRef .tc main_v27) = val_main_v36 (F := Ideal) (A1 m c) := by
  show StableHlo.after hostOps0 (W0 m ρ c) (Proc.devRef .tc main_v27) = _
  stage_results
  rfl

theorem s1_v28 : W1 m ρ c (Proc.devRef .tc main_v28) = val_main_v4 (F := Ideal) (A3 m c) := by
  show StableHlo.after hostOps0 (W0 m ρ c) (Proc.devRef .tc main_v28) = _
  stage_results
  rfl

theorem s1_arg0 : W1 m ρ c (Proc.devRef .tc main_arg0) = A0 m c := by
  show StableHlo.after hostOps0 (W0 m ρ c) (Proc.devRef .tc main_arg0) = _
  stage_results

theorem s1_arg4 : W1 m ρ c (Proc.devRef .tc main_arg4) = A4 m c := by
  show StableHlo.after hostOps0 (W0 m ρ c) (Proc.devRef .tc main_arg4) = _
  stage_results
theorem s1_arg5 : W1 m ρ c (Proc.devRef .tc main_arg5) = A5 m c := by
  show StableHlo.after hostOps0 (W0 m ρ c) (Proc.devRef .tc main_arg5) = _
  stage_results
theorem s1_arg6 : W1 m ρ c (Proc.devRef .tc main_arg6) = A6 m c := by
  show StableHlo.after hostOps0 (W0 m ρ c) (Proc.devRef .tc main_arg6) = _
  stage_results

/-! ## The first kernel: the node features times the transposed weights -/

theorem r0_v29 : W2 m ρ c (Proc.devRef .tc main_v29) = val_main_v5 (F := Ideal) (A0 m c) (A3 m c) := by
  show W2 m ρ c (Proc.devRef .tc (Pipeline.arrRef spec0 2)) = _
  rw [W2_arr m ρ c 2, RegionLin.lin0_final (V1 m ρ) c]
  dsimp only [V1]
  rw [s1_arg0, s1_v28]
  unfold val_main_v5
  exact (RegionLin.hostH22_dot _ _).symm

theorem r2_v5 : W2 m ρ c (Proc.devRef .tc main_v5) = val_main_v7 (F := Ideal) (A1 m c) :=
  (W2_of_ne m ρ c main_v5 (by decide)).trans (s1_v5 m ρ c)
theorem r2_v6 : W2 m ρ c (Proc.devRef .tc main_v6) = val_main_v8 (F := Ideal) (A1 m c) :=
  (W2_of_ne m ρ c main_v6 (by decide)).trans (s1_v6 m ρ c)
theorem r2_v27 : W2 m ρ c (Proc.devRef .tc main_v27) = val_main_v36 (F := Ideal) (A1 m c) :=
  (W2_of_ne m ρ c main_v27 (by decide)).trans (s1_v27 m ρ c)
theorem r2_arg4 : W2 m ρ c (Proc.devRef .tc main_arg4) = A4 m c :=
  (W2_of_ne m ρ c main_arg4 (by decide)).trans (s1_arg4 m ρ c)
theorem r2_arg5 : W2 m ρ c (Proc.devRef .tc main_arg5) = A5 m c :=
  (W2_of_ne m ρ c main_arg5 (by decide)).trans (s1_arg5 m ρ c)
theorem r2_arg6 : W2 m ρ c (Proc.devRef .tc main_arg6) = A6 m c :=
  (W2_of_ne m ρ c main_arg6 (by decide)).trans (s1_arg6 m ρ c)

/-! ## Between the first two kernels: aggregation over the edges, the bias, and the normalisation's scale and shift -/

theorem s3_v44 : W3 m ρ c (Proc.devRef .tc main_v44)
    = val_main_v44 (F := Ideal) (A0 m c) (A1 m c) (A3 m c) (A4 m c) := by
  show StableHlo.after hostOps1 (W2 m ρ c) (Proc.devRef .tc main_v44) = _
  stage_results
  rw [r2_v5, r2_v6, r2_v27, r0_v29, r2_arg4]
  rfl

theorem s3_v61 : W3 m ρ c (Proc.devRef .tc main_v61)
    = scaleRow (A5 m c) (val_main_v63 (F := Ideal) (A0 m c) (A1 m c) (A3 m c) (A4 m c)) := by
  show StableHlo.after hostOps1 (W2 m ρ c) (Proc.devRef .tc main_v61) = _
  stage_results
  rw [r2_v5, r2_v6, r2_v27, r0_v29, r2_arg4, r2_arg5]
  rfl

theorem s3_v62 : W3 m ρ c (Proc.devRef .tc main_v62)
    = shiftRow (A6 m c) (val_main_v47 (F := Ideal) (A0 m c) (A1 m c) (A3 m c) (A4 m c)) (A5 m c)
        (val_main_v63 (F := Ideal) (A0 m c) (A1 m c) (A3 m c) (A4 m c)) := by
  show StableHlo.after hostOps1 (W2 m ρ c) (Proc.devRef .tc main_v62) = _
  stage_results
  rw [r2_v5, r2_v6, r2_v27, r0_v29, r2_arg4, r2_arg5, r2_arg6]
  rfl

/-! ## The second kernel: the folded normalisation and the rectifier -/

/-- The affine kernel over the folded scale and shift is the reference's normalised, rectified stage. -/
theorem affine_eq_bn1 (hg : ∀ i, ∃ r : ℝ, A5 m c i = r) (hb : ∀ i, ∃ r : ℝ, A6 m c i = r) :
    RegionAffine.G (val_main_v44 (F := Ideal) (A0 m c) (A1 m c) (A3 m c) (A4 m c))
      (scaleRow (A5 m c) (val_main_v63 (F := Ideal) (A0 m c) (A1 m c) (A3 m c) (A4 m c)))
      (shiftRow (A6 m c) (val_main_v47 (F := Ideal) (A0 m c) (A1 m c) (A3 m c) (A4 m c)) (A5 m c)
        (val_main_v63 (F := Ideal) (A0 m c) (A1 m c) (A3 m c) (A4 m c)))
    = val_main_v70 (F := Ideal) (A0 m c) (A1 m c) (A3 m c) (A4 m c) (A5 m c) (A6 m c) := by
  funext i
  obtain ⟨p, q, rfl⟩ : ∃ (p : Fin 100000) (q : Fin 64), i = ix2 p q := ⟨i 0, i 1, eq_ix2 i⟩
  rw [RegionAffine.G_apply]
  unfold scaleRow shiftRow
  rw [shapeCast_a_1a_apply, shapeCast_a_1a_apply]
  exact BnStage.bn1 _ _ _ _ _ _ hg hb p q

theorem r1_v63 (hg : ∀ i, ∃ r : ℝ, A5 m c i = r) (hb : ∀ i, ∃ r : ℝ, A6 m c i = r) :
    W4 m ρ c (Proc.devRef .tc main_v63)
      = val_main_v70 (F := Ideal) (A0 m c) (A1 m c) (A3 m c) (A4 m c) (A5 m c) (A6 m c) := by
  show W4 m ρ c (Proc.devRef .tc (Pipeline.arrRef spec1 3)) = _
  rw [W4_arr m ρ c 3, RegionAffine.aff1_final (V3 m ρ) c]
  dsimp only [V3]
  rw [s3_v44, s3_v61, s3_v62]
  exact affine_eq_bn1 m c hg hb

/-! ## What later stretches find of earlier results and of the arguments: no operation and no kernel in between writes them -/

theorem p3_v5 : W3 m ρ c (Proc.devRef .tc main_v5) = W2 m ρ c (Proc.devRef .tc main_v5) := by
  show StableHlo.after hostOps1 (W2 m ρ c) (Proc.devRef .tc main_v5) = _
  stage_results
theorem p4_v5 : W4 m ρ c (Proc.devRef .tc main_v5) = W3 m ρ c (Proc.devRef .tc main_v5) :=
  W4_of_ne m ρ c main_v5 (by decide)
theorem p5_v5 : W5 m ρ c (Proc.devRef .tc main_v5) = W4 m ρ c (Proc.devRef .tc main_v5) := by
  show StableHlo.after hostOps2 (W4 m ρ c) (Proc.devRef .tc main_v5) = _
  stage_results
theorem p6_v5 : W6 m ρ c (Proc.devRef .tc main_v5) = W5 m ρ c (Proc.devRef .tc main_v5) :=
  W6_of_ne m ρ c main_v5 (by decide)
theorem k6_v5 : W6 m ρ c (Proc.devRef .tc main_v5) = val_main_v7 (F := Ideal) (A1 m c) :=
  (p6_v5 m ρ c).trans ((p5_v5 m ρ c).trans ((p4_v5 m ρ c).trans ((p3_v5 m ρ c).trans (r2_v5 m ρ c))))
theorem p3_v6 : W3 m ρ c (Proc.devRef .tc main_v6) = W2 m ρ c (Proc.devRef .tc main_v6) := by
  show StableHlo.after hostOps1 (W2 m ρ c) (Proc.devRef .tc main_v6) = _
  stage_results
theorem p4_v6 : W4 m ρ c (Proc.devRef .tc main_v6) = W3 m ρ c (Proc.devRef .tc main_v6) :=
  W4_of_ne m ρ c main_v6 (by decide)
theorem p5_v6 : W5 m ρ c (Proc.devRef .tc main_v6) = W4 m ρ c (Proc.devRef .tc main_v6) := by
  show StableHlo.after hostOps2 (W4 m ρ c) (Proc.devRef .tc main_v6) = _
  stage_results
theorem p6_v6 : W6 m ρ c (Proc.devRef .tc main_v6) = W5 m ρ c (Proc.devRef .tc main_v6) :=
  W6_of_ne m ρ c main_v6 (by decide)
theorem k6_v6 : W6 m ρ c (Proc.devRef .tc main_v6) = val_main_v8 (F := Ideal) (A1 m c) :=
  (p6_v6 m ρ c).trans ((p5_v6 m ρ c).trans ((p4_v6 m ρ c).trans ((p3_v6 m ρ c).trans (r2_v6 m ρ c))))
theorem p3_v27 : W3 m ρ c (Proc.devRef .tc main_v27) = W2 m ρ c (Proc.devRef .tc main_v27) := by
  show StableHlo.after hostOps1 (W2 m ρ c) (Proc.devRef .tc main_v27) = _
  stage_results
theorem p4_v27 : W4 m ρ c (Proc.devRef .tc main_v27) = W3 m ρ c (Proc.devRef .tc main_v27) :=
  W4_of_ne m ρ c main_v27 (by decide)
theorem p5_v27 : W5 m ρ c (Proc.devRef .tc main_v27) = W4 m ρ c (Proc.devRef .tc main_v27) := by
  show StableHlo.after hostOps2 (W4 m ρ c) (Proc.devRef .tc main_v27) = _
  stage_results
theorem p6_v27 : W6 m ρ c (Proc.devRef .tc main_v27) = W5 m ρ c (Proc.devRef .tc main_v27) :=
  W6_of_ne m ρ c main_v27 (by decide)
theorem k6_v27 : W6 m ρ c (Proc.devRef .tc main_v27) = val_main_v36 (F := Ideal) (A1 m c) :=
  (p6_v27 m ρ c).trans ((p5_v27 m ρ c).trans ((p4_v27 m ρ c).trans ((p3_v27 m ρ c).trans (r2_v27 m ρ c))))
theorem k0_arg7 : W0 m ρ c (Proc.devRef .tc main_arg7) = A7 m c := rfl
theorem p1_arg7 : W1 m ρ c (Proc.devRef .tc main_arg7) = W0 m ρ c (Proc.devRef .tc main_arg7) := by
  show StableHlo.after hostOps0 (W0 m ρ c) (Proc.devRef .tc main_arg7) = _
  stage_results
theorem p2_arg7 : W2 m ρ c (Proc.devRef .tc main_arg7) = W1 m ρ c (Proc.devRef .tc main_arg7) :=
  W2_of_ne m ρ c main_arg7 (by decide)
theorem p3_arg7 : W3 m ρ c (Proc.devRef .tc main_arg7) = W2 m ρ c (Proc.devRef .tc main_arg7) := by
  show StableHlo.after hostOps1 (W2 m ρ c) (Proc.devRef .tc main_arg7) = _
  stage_results
theorem p4_arg7 : W4 m ρ c (Proc.devRef .tc main_arg7) = W3 m ρ c (Proc.devRef .tc main_arg7) :=
  W4_of_ne m ρ c main_arg7 (by decide)
theorem k4_arg7 : W4 m ρ c (Proc.devRef .tc main_arg7) = A7 m c :=
  (p4_arg7 m ρ c).trans ((p3_arg7 m ρ c).trans ((p2_arg7 m ρ c).trans ((p1_arg7 m ρ c).trans (k0_arg7 m ρ c))))
theorem k0_arg8 : W0 m ρ c (Proc.devRef .tc main_arg8) = A8 m c := rfl
theorem p1_arg8 : W1 m ρ c (Proc.devRef .tc main_arg8) = W0 m ρ c (Proc.devRef .tc main_arg8) := by
  show StableHlo.after hostOps0 (W0 m ρ c) (Proc.devRef .tc main_arg8) = _
  stage_results
theorem p2_arg8 : W2 m ρ c (Proc.devRef .tc main_arg8) = W1 m ρ c (Proc.devRef .tc main_arg8) :=
  W2_of_ne m ρ c main_arg8 (by decide)
theorem p3_arg8 : W3 m ρ c (Proc.devRef .tc main_arg8) = W2 m ρ c (Proc.devRef .tc main_arg8) := by
  show StableHlo.after hostOps1 (W2 m ρ c) (Proc.devRef .tc main_arg8) = _
  stage_results
theorem p4_arg8 : W4 m ρ c (Proc.devRef .tc main_arg8) = W3 m ρ c (Proc.devRef .tc main_arg8) :=
  W4_of_ne m ρ c main_arg8 (by decide)
theorem p5_arg8 : W5 m ρ c (Proc.devRef .tc main_arg8) = W4 m ρ c (Proc.devRef .tc main_arg8) := by
  show StableHlo.after hostOps2 (W4 m ρ c) (Proc.devRef .tc main_arg8) = _
  stage_results
theorem p6_arg8 : W6 m ρ c (Proc.devRef .tc main_arg8) = W5 m ρ c (Proc.devRef .tc main_arg8) :=
  W6_of_ne m ρ c main_arg8 (by decide)
theorem k6_arg8 : W6 m ρ c (Proc.devRef .tc main_arg8) = A8 m c :=
  (p6_arg8 m ρ c).trans ((p5_arg8 m ρ c).trans ((p4_arg8 m ρ c).trans ((p3_arg8 m ρ c).trans ((p2_arg8 m ρ c).trans ((p1_arg8 m ρ c).trans (k0_arg8 m ρ c))))))
theorem k0_arg9 : W0 m ρ c (Proc.devRef .tc main_arg9) = A9 m c := rfl
theorem p1_arg9 : W1 m ρ c (Proc.devRef .tc main_arg9) = W0 m ρ c (Proc.devRef .tc main_arg9) := by
  show StableHlo.after hostOps0 (W0 m ρ c) (Proc.devRef .tc main_arg9) = _
  stage_results
theorem p2_arg9 : W2 m ρ c (Proc.devRef .tc main_arg9) = W1 m ρ c (Proc.devRef .tc main_arg9) :=
  W2_of_ne m ρ c main_arg9 (by decide)
theorem p3_arg9 : W3 m ρ c (Proc.devRef .tc main_arg9) = W2 m ρ c (Proc.devRef .tc main_arg9) := by
  show StableHlo.after hostOps1 (W2 m ρ c) (Proc.devRef .tc main_arg9) = _
  stage_results
theorem p4_arg9 : W4 m ρ c (Proc.devRef .tc main_arg9) = W3 m ρ c (Proc.devRef .tc main_arg9) :=
  W4_of_ne m ρ c main_arg9 (by decide)
theorem p5_arg9 : W5 m ρ c (Proc.devRef .tc main_arg9) = W4 m ρ c (Proc.devRef .tc main_arg9) := by
  show StableHlo.after hostOps2 (W4 m ρ c) (Proc.devRef .tc main_arg9) = _
  stage_results
theorem p6_arg9 : W6 m ρ c (Proc.devRef .tc main_arg9) = W5 m ρ c (Proc.devRef .tc main_arg9) :=
  W6_of_ne m ρ c main_arg9 (by decide)
theorem k6_arg9 : W6 m ρ c (Proc.devRef .tc main_arg9) = A9 m c :=
  (p6_arg9 m ρ c).trans ((p5_arg9 m ρ c).trans ((p4_arg9 m ρ c).trans ((p3_arg9 m ρ c).trans ((p2_arg9 m ρ c).trans ((p1_arg9 m ρ c).trans (k0_arg9 m ρ c))))))
theorem k0_arg10 : W0 m ρ c (Proc.devRef .tc main_arg10) = A10 m c := rfl
theorem p1_arg10 : W1 m ρ c (Proc.devRef .tc main_arg10) = W0 m ρ c (Proc.devRef .tc main_arg10) := by
  show StableHlo.after hostOps0 (W0 m ρ c) (Proc.devRef .tc main_arg10) = _
  stage_results
theorem p2_arg10 : W2 m ρ c (Proc.devRef .tc main_arg10) = W1 m ρ c (Proc.devRef .tc main_arg10) :=
  W2_of_ne m ρ c main_arg10 (by decide)
theorem p3_arg10 : W3 m ρ c (Proc.devRef .tc main_arg10) = W2 m ρ c (Proc.devRef .tc main_arg10) := by
  show StableHlo.after hostOps1 (W2 m ρ c) (Proc.devRef .tc main_arg10) = _
  stage_results
theorem p4_arg10 : W4 m ρ c (Proc.devRef .tc main_arg10) = W3 m ρ c (Proc.devRef .tc main_arg10) :=
  W4_of_ne m ρ c main_arg10 (by decide)
theorem p5_arg10 : W5 m ρ c (Proc.devRef .tc main_arg10) = W4 m ρ c (Proc.devRef .tc main_arg10) := by
  show StableHlo.after hostOps2 (W4 m ρ c) (Proc.devRef .tc main_arg10) = _
  stage_results
theorem p6_arg10 : W6 m ρ c (Proc.devRef .tc main_arg10) = W5 m ρ c (Proc.devRef .tc main_arg10) :=
  W6_of_ne m ρ c main_arg10 (by decide)
theorem k6_arg10 : W6 m ρ c (Proc.devRef .tc main_arg10) = A10 m c :=
  (p6_arg10 m ρ c).trans ((p5_arg10 m ρ c).trans ((p4_arg10 m ρ c).trans ((p3_arg10 m ρ c).trans ((p2_arg10 m ρ c).trans ((p1_arg10 m ρ c).trans (k0_arg10 m ρ c))))))
theorem k0_arg2 : W0 m ρ c (Proc.devRef .tc main_arg2) = A2 m c := rfl
theorem p1_arg2 : W1 m ρ c (Proc.devRef .tc main_arg2) = W0 m ρ c (Proc.devRef .tc main_arg2) := by
  show StableHlo.after hostOps0 (W0 m ρ c) (Proc.devRef .tc main_arg2) = _
  stage_results
theorem p2_arg2 : W2 m ρ c (Proc.devRef .tc main_arg2) = W1 m ρ c (Proc.devRef .tc main_arg2) :=
  W2_of_ne m ρ c main_arg2 (by decide)
theorem p3_arg2 : W3 m ρ c (Proc.devRef .tc main_arg2) = W2 m ρ c (Proc.devRef .tc main_arg2) := by
  show StableHlo.after hostOps1 (W2 m ρ c) (Proc.devRef .tc main_arg2) = _
  stage_results
theorem p4_arg2 : W4 m ρ c (Proc.devRef .tc main_arg2) = W3 m ρ c (Proc.devRef .tc main_arg2) :=
  W4_of_ne m ρ c main_arg2 (by decide)
theorem p5_arg2 : W5 m ρ c (Proc.devRef .tc main_arg2) = W4 m ρ c (Proc.devRef .tc main_arg2) := by
  show StableHlo.after hostOps2 (W4 m ρ c) (Proc.devRef .tc main_arg2) = _
  stage_results
theorem p6_arg2 : W6 m ρ c (Proc.devRef .tc main_arg2) = W5 m ρ c (Proc.devRef .tc main_arg2) :=
  W6_of_ne m ρ c main_arg2 (by decide)
theorem p7_arg2 : W7 m ρ c (Proc.devRef .tc main_arg2) = W6 m ρ c (Proc.devRef .tc main_arg2) := by
  show StableHlo.after hostOps3 (W6 m ρ c) (Proc.devRef .tc main_arg2) = _
  stage_results
theorem p8_arg2 : W8 m ρ c (Proc.devRef .tc main_arg2) = W7 m ρ c (Proc.devRef .tc main_arg2) :=
  W8_of_ne m ρ c main_arg2 (by decide)
theorem k8_arg2 : W8 m ρ c (Proc.devRef .tc main_arg2) = A2 m c :=
  (p8_arg2 m ρ c).trans ((p7_arg2 m ρ c).trans ((p6_arg2 m ρ c).trans ((p5_arg2 m ρ c).trans ((p4_arg2 m ρ c).trans ((p3_arg2 m ρ c).trans ((p2_arg2 m ρ c).trans ((p1_arg2 m ρ c).trans (k0_arg2 m ρ c))))))))
theorem k0_arg11 : W0 m ρ c (Proc.devRef .tc main_arg11) = A11 m c := rfl
theorem p1_arg11 : W1 m ρ c (Proc.devRef .tc main_arg11) = W0 m ρ c (Proc.devRef .tc main_arg11) := by
  show StableHlo.after hostOps0 (W0 m ρ c) (Proc.devRef .tc main_arg11) = _
  stage_results
theorem p2_arg11 : W2 m ρ c (Proc.devRef .tc main_arg11) = W1 m ρ c (Proc.devRef .tc main_arg11) :=
  W2_of_ne m ρ c main_arg11 (by decide)
theorem p3_arg11 : W3 m ρ c (Proc.devRef .tc main_arg11) = W2 m ρ c (Proc.devRef .tc main_arg11) := by
  show StableHlo.after hostOps1 (W2 m ρ c) (Proc.devRef .tc main_arg11) = _
  stage_results
theorem p4_arg11 : W4 m ρ c (Proc.devRef .tc main_arg11) = W3 m ρ c (Proc.devRef .tc main_arg11) :=
  W4_of_ne m ρ c main_arg11 (by decide)
theorem p5_arg11 : W5 m ρ c (Proc.devRef .tc main_arg11) = W4 m ρ c (Proc.devRef .tc main_arg11) := by
  show StableHlo.after hostOps2 (W4 m ρ c) (Proc.devRef .tc main_arg11) = _
  stage_results
theorem p6_arg11 : W6 m ρ c (Proc.devRef .tc main_arg11) = W5 m ρ c (Proc.devRef .tc main_arg11) :=
  W6_of_ne m ρ c main_arg11 (by decide)
theorem p7_arg11 : W7 m ρ c (Proc.devRef .tc main_arg11) = W6 m ρ c (Proc.devRef .tc main_arg11) := by
  show StableHlo.after hostOps3 (W6 m ρ c) (Proc.devRef .tc main_arg11) = _
  stage_results
theorem p8_arg11 : W8 m ρ c (Proc.devRef .tc main_arg11) = W7 m ρ c (Proc.devRef .tc main_arg11) :=
  W8_of_ne m ρ c main_arg11 (by decide)
theorem k8_arg11 : W8 m ρ c (Proc.devRef .tc main_arg11) = A11 m c :=
  (p8_arg11 m ρ c).trans ((p7_arg11 m ρ c).trans ((p6_arg11 m ρ c).trans ((p5_arg11 m ρ c).trans ((p4_arg11 m ρ c).trans ((p3_arg11 m ρ c).trans ((p2_arg11 m ρ c).trans ((p1_arg11 m ρ c).trans (k0_arg11 m ρ c))))))))
theorem k0_arg12 : W0 m ρ c (Proc.devRef .tc main_arg12) = A12 m c := rfl
theorem p1_arg12 : W1 m ρ c (Proc.devRef .tc main_arg12) = W0 m ρ c (Proc.devRef .tc main_arg12) := by
  show StableHlo.after hostOps0 (W0 m ρ c) (Proc.devRef .tc main_arg12) = _
  stage_results
theorem p2_arg12 : W2 m ρ c (Proc.devRef .tc main_arg12) = W1 m ρ c (Proc.devRef .tc main_arg12) :=
  W2_of_ne m ρ c main_arg12 (by decide)
theorem p3_arg12 : W3 m ρ c (Proc.devRef .tc main_arg12) = W2 m ρ c (Proc.devRef .tc main_arg12) := by
  show StableHlo.after hostOps1 (W2 m ρ c) (Proc.devRef .tc main_arg12) = _
  stage_results
theorem p4_arg12 : W4 m ρ c (Proc.devRef .tc main_arg12) = W3 m ρ c (Proc.devRef .tc main_arg12) :=
  W4_of_ne m ρ c main_arg12 (by decide)
theorem p5_arg12 : W5 m ρ c (Proc.devRef .tc main_arg12) = W4 m ρ c (Proc.devRef .tc main_arg12) := by
  show StableHlo.after hostOps2 (W4 m ρ c) (Proc.devRef .tc main_arg12) = _
  stage_results
theorem p6_arg12 : W6 m ρ c (Proc.devRef .tc main_arg12) = W5 m ρ c (Proc.devRef .tc main_arg12) :=
  W6_of_ne m ρ c main_arg12 (by decide)
theorem p7_arg12 : W7 m ρ c (Proc.devRef .tc main_arg12) = W6 m ρ c (Proc.devRef .tc main_arg12) := by
  show StableHlo.after hostOps3 (W6 m ρ c) (Proc.devRef .tc main_arg12) = _
  stage_results
theorem p8_arg12 : W8 m ρ c (Proc.devRef .tc main_arg12) = W7 m ρ c (Proc.devRef .tc main_arg12) :=
  W8_of_ne m ρ c main_arg12 (by decide)
theorem k8_arg12 : W8 m ρ c (Proc.devRef .tc main_arg12) = A12 m c :=
  (p8_arg12 m ρ c).trans ((p7_arg12 m ρ c).trans ((p6_arg12 m ρ c).trans ((p5_arg12 m ρ c).trans ((p4_arg12 m ρ c).trans ((p3_arg12 m ρ c).trans ((p2_arg12 m ρ c).trans ((p1_arg12 m ρ c).trans (k0_arg12 m ρ c))))))))
theorem k0_arg13 : W0 m ρ c (Proc.devRef .tc main_arg13) = A13 m c := rfl
theorem p1_arg13 : W1 m ρ c (Proc.devRef .tc main_arg13) = W0 m ρ c (Proc.devRef .tc main_arg13) := by
  show StableHlo.after hostOps0 (W0 m ρ c) (Proc.devRef .tc main_arg13) = _
  stage_results
theorem p2_arg13 : W2 m ρ c (Proc.devRef .tc main_arg13) = W1 m ρ c (Proc.devRef .tc main_arg13) :=
  W2_of_ne m ρ c main_arg13 (by decide)
theorem p3_arg13 : W3 m ρ c (Proc.devRef .tc main_arg13) = W2 m ρ c (Proc.devRef .tc main_arg13) := by
  show StableHlo.after hostOps1 (W2 m ρ c) (Proc.devRef .tc main_arg13) = _
  stage_results
theorem p4_arg13 : W4 m ρ c (Proc.devRef .tc main_arg13) = W3 m ρ c (Proc.devRef .tc main_arg13) :=
  W4_of_ne m ρ c main_arg13 (by decide)
theorem p5_arg13 : W5 m ρ c (Proc.devRef .tc main_arg13) = W4 m ρ c (Proc.devRef .tc main_arg13) := by
  show StableHlo.after hostOps2 (W4 m ρ c) (Proc.devRef .tc main_arg13) = _
  stage_results
theorem p6_arg13 : W6 m ρ c (Proc.devRef .tc main_arg13) = W5 m ρ c (Proc.devRef .tc main_arg13) :=
  W6_of_ne m ρ c main_arg13 (by decide)
theorem p7_arg13 : W7 m ρ c (Proc.devRef .tc main_arg13) = W6 m ρ c (Proc.devRef .tc main_arg13) := by
  show StableHlo.after hostOps3 (W6 m ρ c) (Proc.devRef .tc main_arg13) = _
  stage_results
theorem p8_arg13 : W8 m ρ c (Proc.devRef .tc main_arg13) = W7 m ρ c (Proc.devRef .tc main_arg13) :=
  W8_of_ne m ρ c main_arg13 (by decide)
theorem k8_arg13 : W8 m ρ c (Proc.devRef .tc main_arg13) = A13 m c :=
  (p8_arg13 m ρ c).trans ((p7_arg13 m ρ c).trans ((p6_arg13 m ρ c).trans ((p5_arg13 m ρ c).trans ((p4_arg13 m ρ c).trans ((p3_arg13 m ρ c).trans ((p2_arg13 m ρ c).trans ((p1_arg13 m ρ c).trans (k0_arg13 m ρ c))))))))
theorem k0_arg14 : W0 m ρ c (Proc.devRef .tc main_arg14) = A14 m c := rfl
theorem p1_arg14 : W1 m ρ c (Proc.devRef .tc main_arg14) = W0 m ρ c (Proc.devRef .tc main_arg14) := by
  show StableHlo.after hostOps0 (W0 m ρ c) (Proc.devRef .tc main_arg14) = _
  stage_results
theorem p2_arg14 : W2 m ρ c (Proc.devRef .tc main_arg14) = W1 m ρ c (Proc.devRef .tc main_arg14) :=
  W2_of_ne m ρ c main_arg14 (by decide)
theorem p3_arg14 : W3 m ρ c (Proc.devRef .tc main_arg14) = W2 m ρ c (Proc.devRef .tc main_arg14) := by
  show StableHlo.after hostOps1 (W2 m ρ c) (Proc.devRef .tc main_arg14) = _
  stage_results
theorem p4_arg14 : W4 m ρ c (Proc.devRef .tc main_arg14) = W3 m ρ c (Proc.devRef .tc main_arg14) :=
  W4_of_ne m ρ c main_arg14 (by decide)
theorem p5_arg14 : W5 m ρ c (Proc.devRef .tc main_arg14) = W4 m ρ c (Proc.devRef .tc main_arg14) := by
  show StableHlo.after hostOps2 (W4 m ρ c) (Proc.devRef .tc main_arg14) = _
  stage_results
theorem p6_arg14 : W6 m ρ c (Proc.devRef .tc main_arg14) = W5 m ρ c (Proc.devRef .tc main_arg14) :=
  W6_of_ne m ρ c main_arg14 (by decide)
theorem p7_arg14 : W7 m ρ c (Proc.devRef .tc main_arg14) = W6 m ρ c (Proc.devRef .tc main_arg14) := by
  show StableHlo.after hostOps3 (W6 m ρ c) (Proc.devRef .tc main_arg14) = _
  stage_results
theorem p8_arg14 : W8 m ρ c (Proc.devRef .tc main_arg14) = W7 m ρ c (Proc.devRef .tc main_arg14) :=
  W8_of_ne m ρ c main_arg14 (by decide)
theorem k8_arg14 : W8 m ρ c (Proc.devRef .tc main_arg14) = A14 m c :=
  (p8_arg14 m ρ c).trans ((p7_arg14 m ρ c).trans ((p6_arg14 m ρ c).trans ((p5_arg14 m ρ c).trans ((p4_arg14 m ρ c).trans ((p3_arg14 m ρ c).trans ((p2_arg14 m ρ c).trans ((p1_arg14 m ρ c).trans (k0_arg14 m ρ c))))))))
theorem p5_v63 : W5 m ρ c (Proc.devRef .tc main_v63) = W4 m ρ c (Proc.devRef .tc main_v63) := by
  show StableHlo.after hostOps2 (W4 m ρ c) (Proc.devRef .tc main_v63) = _
  stage_results

/-! ## The second layer: the same three steps over the first layer's output -/

theorem s5_v64 : W5 m ρ c (Proc.devRef .tc main_v64) = val_main_v71 (F := Ideal) (A7 m c) := by
  show StableHlo.after hostOps2 (W4 m ρ c) (Proc.devRef .tc main_v64) = _
  stage_results
  rw [k4_arg7]
  rfl

theorem s5_v63 (hg : ∀ i, ∃ r : ℝ, A5 m c i = r) (hb : ∀ i, ∃ r : ℝ, A6 m c i = r) :
    W5 m ρ c (Proc.devRef .tc main_v63) = val_main_v70 (F := Ideal) (A0 m c) (A1 m c) (A3 m c) (A4 m c) (A5 m c) (A6 m c) :=
  (p5_v63 m ρ c).trans (r1_v63 m ρ c hg hb)

theorem r2_v65 (hg : ∀ i, ∃ r : ℝ, A5 m c i = r) (hb : ∀ i, ∃ r : ℝ, A6 m c i = r) :
    W6 m ρ c (Proc.devRef .tc main_v65) = val_main_v72 (F := Ideal) (A0 m c) (A1 m c) (A3 m c) (A4 m c) (A5 m c) (A6 m c) (A7 m c) := by
  show W6 m ρ c (Proc.devRef .tc (Pipeline.arrRef spec2 2)) = _
  rw [W6_arr m ρ c 2, RegionLin.lin2_final (V5 m ρ) c]
  dsimp only [V5]
  rw [s5_v63 m ρ c hg hb, s5_v64]
  unfold val_main_v72
  exact (RegionLin.hostH64_dot _ _).symm

theorem s7_v80 (hg : ∀ i, ∃ r : ℝ, A5 m c i = r) (hb : ∀ i, ∃ r : ℝ, A6 m c i = r) :
    W7 m ρ c (Proc.devRef .tc main_v80) = val_main_v111 (F := Ideal) (A0 m c) (A1 m c) (A3 m c) (A4 m c) (A5 m c) (A6 m c) (A7 m c) (A8 m c) := by
  show StableHlo.after hostOps3 (W6 m ρ c) (Proc.devRef .tc main_v80) = _
  stage_results
  rw [k6_v5, k6_v6, k6_v27, r2_v65 m ρ c hg hb, k6_arg8]
  rfl

theorem s7_v97 (hg : ∀ i, ∃ r : ℝ, A5 m c i = r) (hb : ∀ i, ∃ r : ℝ, A6 m c i = r) :
    W7 m ρ c (Proc.devRef .tc main_v97) = scaleRow (A9 m c) (val_main_v130 (F := Ideal) (A0 m c) (A1 m c) (A3 m c) (A4 m c) (A5 m c) (A6 m c) (A7 m c) (A8 m c)) := by
  show StableHlo.after hostOps3 (W6 m ρ c) (Proc.devRef .tc main_v97) = _
  stage_results
  rw [k6_v5, k6_v6, k6_v27, r2_v65 m ρ c hg hb, k6_arg8, k6_arg9]
  rfl

theorem s7_v98 (hg : ∀ i, ∃ r : ℝ, A5 m c i = r) (hb : ∀ i, ∃ r : ℝ, A6 m c i = r) :
    W7 m ρ c (Proc.devRef .tc main_v98) = shiftRow (A10 m c) (val_main_v114 (F := Ideal) (A0 m c) (A1 m c) (A3 m c) (A4 m c) (A5 m c) (A6 m c) (A7 m c) (A8 m c)) (A9 m c)
      (val_main_v130 (F := Ideal) (A0 m c) (A1 m c) (A3 m c) (A4 m c) (A5 m c) (A6 m c) (A7 m c) (A8 m c)) := by
  show StableHlo.after hostOps3 (W6 m ρ c) (Proc.devRef .tc main_v98) = _
  stage_results
  rw [k6_v5, k6_v6, k6_v27, r2_v65 m ρ c hg hb, k6_arg8, k6_arg9, k6_arg10]
  rfl

/-- The affine kernel over the second layer's folded scale and shift is the reference's normalised, rectified stage. -/
theorem affine_eq_bn2 (hg' : ∀ i, ∃ r : ℝ, A9 m c i = r) (hb' : ∀ i, ∃ r : ℝ, A10 m c i = r) :
    RegionAffine.G (val_main_v111 (F := Ideal) (A0 m c) (A1 m c) (A3 m c) (A4 m c) (A5 m c) (A6 m c) (A7 m c) (A8 m c))
      (scaleRow (A9 m c) (val_main_v130 (F := Ideal) (A0 m c) (A1 m c) (A3 m c) (A4 m c) (A5 m c) (A6 m c) (A7 m c) (A8 m c)))
      (shiftRow (A10 m c) (val_main_v114 (F := Ideal) (A0 m c) (A1 m c) (A3 m c) (A4 m c) (A5 m c) (A6 m c) (A7 m c) (A8 m c)) (A9 m c) (val_main_v130 (F := Ideal) (A0 m c) (A1 m c) (A3 m c) (A4 m c) (A5 m c) (A6 m c) (A7 m c) (A8 m c)))
    = val_main_v137 (F := Ideal) (A0 m c) (A1 m c) (A3 m c) (A4 m c) (A5 m c) (A6 m c) (A7 m c) (A8 m c) (A9 m c) (A10 m c) := by
  funext i
  obtain ⟨p, q, rfl⟩ : ∃ (p : Fin 100000) (q : Fin 64), i = ix2 p q := ⟨i 0, i 1, eq_ix2 i⟩
  rw [RegionAffine.G_apply]
  unfold scaleRow shiftRow
  rw [shapeCast_a_1a_apply, shapeCast_a_1a_apply]
  exact BnStage.bn2 _ _ _ _ _ _ _ _ _ _ hg' hb' p q

theorem r3_v99 (hg : ∀ i, ∃ r : ℝ, A5 m c i = r) (hb : ∀ i, ∃ r : ℝ, A6 m c i = r) (hg' : ∀ i, ∃ r : ℝ, A9 m c i = r) (hb' : ∀ i, ∃ r : ℝ, A10 m c i = r) :
    W8 m ρ c (Proc.devRef .tc main_v99) = val_main_v137 (F := Ideal) (A0 m c) (A1 m c) (A3 m c) (A4 m c) (A5 m c) (A6 m c) (A7 m c) (A8 m c) (A9 m c) (A10 m c) := by
  show W8 m ρ c (Proc.devRef .tc (Pipeline.arrRef spec3 3)) = _
  rw [W8_arr m ρ c 3, RegionAffine.aff3_final (V7 m ρ) c]
  dsimp only [V7]
  rw [s7_v80 m ρ c hg hb, s7_v97 m ρ c hg hb, s7_v98 m ρ c hg hb]
  exact affine_eq_bn2 m c hg' hb'

/-! ## The mean over each graph's nodes and the last kernel: the two-layer perceptron -/

theorem s9_v111 (hg : ∀ i, ∃ r : ℝ, A5 m c i = r) (hb : ∀ i, ∃ r : ℝ, A6 m c i = r) (hg' : ∀ i, ∃ r : ℝ, A9 m c i = r) (hb' : ∀ i, ∃ r : ℝ, A10 m c i = r) :
    W9 m ρ c (Proc.devRef .tc main_v111) = val_main_v149 (F := Ideal) (A0 m c) (A1 m c) (A2 m c) (A3 m c) (A4 m c) (A5 m c) (A6 m c) (A7 m c) (A8 m c) (A9 m c) (A10 m c) := by
  show StableHlo.after hostOps4 (W8 m ρ c) (Proc.devRef .tc main_v111) = _
  stage_results
  rw [r3_v99 m ρ c hg hb hg' hb', k8_arg2]
  rfl

theorem s9_v112 : W9 m ρ c (Proc.devRef .tc main_v112) = val_main_v150 (F := Ideal) (A11 m c) := by
  show StableHlo.after hostOps4 (W8 m ρ c) (Proc.devRef .tc main_v112) = _
  stage_results
  rw [k8_arg11]
  rfl

theorem s9_v113 : W9 m ρ c (Proc.devRef .tc main_v113) = val_main_v156 (F := Ideal) (A13 m c) := by
  show StableHlo.after hostOps4 (W8 m ρ c) (Proc.devRef .tc main_v113) = _
  stage_results
  rw [k8_arg13]
  rfl

theorem s9_v114 : W9 m ρ c (Proc.devRef .tc main_v114) = biasRow (A12 m c) := by
  show StableHlo.after hostOps4 (W8 m ρ c) (Proc.devRef .tc main_v114) = _
  stage_results
  rw [k8_arg12]
  rfl

theorem s9_v115 : W9 m ρ c (Proc.devRef .tc main_v115) = biasOne (A14 m c) := by
  show StableHlo.after hostOps4 (W8 m ρ c) (Proc.devRef .tc main_v115) = _
  stage_results
  rw [k8_arg14]
  rfl

/-- THE KERNEL PROGRAM'S RESULT is the reference's last stage of the same arguments. -/
theorem result_eq (hg : ∀ i, ∃ r : ℝ, A5 m c i = r) (hb : ∀ i, ∃ r : ℝ, A6 m c i = r) (hg' : ∀ i, ∃ r : ℝ, A9 m c i = r) (hb' : ∀ i, ∃ r : ℝ, A10 m c i = r) :
    W10 m ρ c (Proc.devRef .tc main_v116)
      = val_main_v160 (F := Ideal) (A0 m c) (A1 m c) (A2 m c) (A3 m c) (A4 m c) (A5 m c) (A6 m c) (A7 m c) (A8 m c) (A9 m c) (A10 m c) (A11 m c) (A12 m c) (A13 m c) (A14 m c) := by
  show W10 m ρ c (Proc.devRef .tc (Pipeline.arrRef spec4 5)) = _
  rw [W10_arr m ρ c 5, RegionMlp.mlp_final (V9 m ρ) c]
  dsimp only [V9]
  rw [s9_v111 m ρ c hg hb hg' hb', s9_v112, s9_v114, s9_v113, s9_v115]
  exact Cert.MlpRef.mlp_ref _ _ _ _ _ _ _ _ _ _ _ _ _ _ _ _ _
    (fun k => shapeCast_a_1a_apply _ _ 0 k) (shapeCast_a_1a_apply _ _ 0 0)

end Cert.Stages

end
-- ==== Proof.lean ====
/-
  The certificate of a two-layer graph convolution network with batch normalisation, a mean pool over graphs and a
  two-layer perceptron: a program of five kernels among host operations against the plain reference.

  Both programs build the edge lists with self loops, the symmetric edge weights `rsqrt(deg[s]) · rsqrt(deg[d])`, and per
  layer gather the transformed node features along the edges, weight them, add them up per target node and add the
  bias — by the same host operations. They differ in three places. The dense products `x · Wᵀ` are row-tiled kernels
  (inputs rounded to bf16 first, the identity on the ideal values) against one host product: entry by entry the same
  sum over the contracted axis. The batch normalisation is, in the reference, `g · (x - mean) · rstd + be`; in the kernel
  program the host folds the same mean and reciprocal standard deviation into a scale `g · rstd` and a shift
  `be - mean · (g · rstd)` and an elementwise kernel computes `max (x · scale + shift, 0)`: equal on the extended
  reals because either the whole column is real or `rstd = 0` (here the precondition is used: `g` and `be` are real).
  The final perceptron is one kernel over whole arrays against two host products with biases and a rectifier.
  The kernel program's run is read off its generated frame at the last boundary's contents; the reference's run and
  its stages are the generated ones; the modules under Proof/ relate the two stage by stage.
-/
import proofs.«178469_j62732292326003_1_alg».proof.Defs
import proofs.«178469_j62732292326003_1_alg».proof.Proof.Gen.Kernel
import proofs.«178469_j62732292326003_1_alg».proof.Proof.Gen.Kernel.Skeleton
import proofs.«178469_j62732292326003_1_alg».proof.Proof.Gen.Kernel.Launch
import proofs.«178469_j62732292326003_1_alg».proof.Proof.Gen.Kernel.Points
import proofs.«178469_j62732292326003_1_alg».proof.Proof.Gen.Kernel.Frame
import proofs.«178469_j62732292326003_1_alg».proof.Proof.Gen.KernelIdeal
import proofs.«178469_j62732292326003_1_alg».proof.Proof.Gen.KernelIdeal.Skeleton
import proofs.«178469_j62732292326003_1_alg».proof.Proof.Gen.KernelIdeal.Launch
import proofs.«178469_j62732292326003_1_alg».proof.Proof.Gen.KernelIdeal.Points
import proofs.«178469_j62732292326003_1_alg».proof.Proof.Gen.KernelIdeal.Frame
import proofs.«178469_j62732292326003_1_alg».proof.Proof.Gen.ReferenceIdeal
import proofs.«178469_j62732292326003_1_alg».proof.Proof.Gen.Pre_finite_inputs
import proofs.«178469_j62732292326003_1_alg».proof.Proof.Gen.ReferenceIdeal.Run
import proofs.«178469_j62732292326003_1_alg».proof.Proof.Gen.ReferenceIdeal.Read
import proofs.«178469_j62732292326003_1_alg».proof.Proof.KRun
import proofs.«178469_j62732292326003_1_alg».proof.Proof.Finite
import proofs.«178469_j62732292326003_1_alg».proof.Proof.Stages
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- From memories agreeing on the arguments both programs end with the same result: the kernel program's last
    boundary contents at its result buffer is the reference's last stage of the same arguments. -/
theorem algebraic : Cert.algebraic_KernelIdeal_ReferenceIdeal := by
  intro m ρ m' ρ' hpre hagree
  refine ⟨fun c => Cert.KernelIdeal.Gen.W10 m ρ c (Proc.devRef .tc Cert.KernelIdeal.main_v116),
    Cert.KernelIdeal.KRun.run_result m ρ, ?_⟩
  refine (θ_run Cert.ReferenceIdeal.defs _ _).mono (fun _ h c => ⟨(h c).1.trans ?_, (h c).2⟩)
    (Cert.ReferenceIdeal.Value.run (F := Ideal) m' ρ')
  obtain ⟨h5, h6, h9, h10⟩ := Cert.Finite.real_of_pre _ _ _ _ _ _ _ _ _ _ _ _ _ _ _ (hpre c)
  obtain ⟨e0, e1, e2, e3, e4, e5, e6, e7, e8, e9, e10, e11, e12, e13, e14⟩ := hagree c
  rw [Cert.ReferenceIdeal.Read.val_main_v160_eq, e0, e1, e2, e3, e4, e5, e6, e7, e8, e9, e10, e11, e12, e13, e14]
  exact (Cert.Stages.result_eq m ρ c h5 h6 h9 h10).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
